-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x128 : Shape := ⟨3, ![8192, 64, 128]⟩
abbrev S8192x1x128 : Shape := ⟨3, ![8192, 1, 128]⟩
abbrev S8x128x128 : Shape := ⟨3, ![8, 128, 128]⟩
abbrev S8x128 : Shape := ⟨2, ![8, 128]⟩
abbrev S1024x128 : Shape := ⟨2, ![1024, 128]⟩
abbrev S128 : Shape := ⟨1, ![128]⟩
abbrev S_ : Shape := ⟨0, ![]⟩

class Facts : Prop where
  bcast_S_S8192x64x128 : S_.BroadcastsInDim S8192x64x128 (![] : Fin 0 → Fin S8192x64x128.rank)
  reducesTo_S8192x64x128_S_d0_1_2 : S8192x64x128.ReducesTo [0, 1, 2] S_
  h_S_ : 0 < S_.numel
  bcast_S_S8192x1x128 : S_.BroadcastsInDim S8192x1x128 (![] : Fin 0 → Fin S8192x1x128.rank)
  reducesTo_S8192x1x128_S_d0_1_2 : S8192x1x128.ReducesTo [0, 1, 2] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S1024x128 .f32) (main_arg5 : FVec F S128 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S1024x128 .f32 := Host.absf main_arg4
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8192x64x128 .f32) (main_arg1 : FVec F S8192x1x128 .f32) (main_arg2 : FVec F S8x128x128 .f32) (main_arg3 : FVec F S8x128 .f32) (main_arg4 : FVec F S1024x128 .f32) (main_arg5 : FVec F S128 .f32) : IVec S_ 1 :=
  let main_v0 : FVec F S8192x64x128 .f32 := Host.absf main_arg0
  let main_cst : FVec F S_ .f32 := constant S_ .f32 0x7F800000#32
  let main_v1 : FVec F S8192x64x128 .f32 := broadcastInDim S8192x64x128 ![] bcast_S_S8192x64x128 main_cst
  let main_v2 : IVec S8192x64x128 1 := cmpf .olt main_v0 main_v1
  let main_c : IVec S_ 1 := constantI S_ 1 1#1
  let main_v3 : IVec S_ 1 := (fun x v => Host.reduce IntOp.andi x v reducesTo_S8192x64x128_S_d0_1_2 h_S_) main_v2 main_c
  let main_v4 : FVec F S8192x1x128 .f32 := Host.absf main_arg1
  let main_cst_0 : FVec F S_ .f32 := constant S_ .f32 0x7F800000#32
  let main_v5 : FVec F S8192x1x128 .f32 := broadcastInDim S8192x1x128 ![] bcast_S_S8192x1x128 main_cst_0
  let main_v6 : IVec S8192x1x128 1 := cmpf .olt main_v4 main_v5
  let main_c_1 : IVec S_ 1 := constantI S_ 1 1#1
  let main_v7 : IVec S_ 1 := (fun x v => Host.reduce IntOp.andi x v reducesTo_S8192x1x128_S_d0_1_2 h_S_) main_v6 main_c_1
  let main_v8 : IVec S_ 1 := andi main_v3 main_v7
  let main_v9 : FVec F S8x128x128 .f32 := Host.absf main_arg2
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg4 main_arg5 main_v13 main_v16
-- ==== Kernel.lean ====
abbrev S8192x64x128 : Shape := ⟨3, ![8192, 64, 128]⟩
abbrev S8192x1x128 : Shape := ⟨3, ![8192, 1, 128]⟩
abbrev S8x128x128 : Shape := ⟨3, ![8, 128, 128]⟩
abbrev S8x128 : Shape := ⟨2, ![8, 128]⟩
abbrev S1024x128 : Shape := ⟨2, ![1024, 128]⟩
abbrev S128 : Shape := ⟨1, ![128]⟩
abbrev S128x64x128 : Shape := ⟨3, ![128, 64, 128]⟩
abbrev S128x1x128 : Shape := ⟨3, ![128, 1, 128]⟩
abbrev S128x128 : Shape := ⟨2, ![128, 128]⟩
abbrev S128x1024 : Shape := ⟨2, ![128, 1024]⟩
abbrev S1x128x128 : Shape := ⟨3, ![1, 128, 128]⟩
abbrev S1x128 : Shape := ⟨2, ![1, 128]⟩
abbrev S8192x128 : Shape := ⟨2, ![8192, 128]⟩
abbrev S128x64 : Shape := ⟨2, ![128, 64]⟩
abbrev S128x1 : Shape := ⟨2, ![128, 1]⟩
abbrev S128x64x1 : Shape := ⟨3, ![128, 64, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x64x128, .f32⟩
  | .hbm, ⟨1, _⟩ => ⟨S8192x1x128, .f32⟩
  | .hbm, ⟨2, _⟩ => ⟨S8x128x128, .f32⟩
  | .hbm, ⟨3, _⟩ => ⟨S8x128, .f32⟩
  | .hbm, ⟨4, _⟩ => ⟨S1024x128, .f32⟩
  | .hbm, ⟨5, _⟩ => ⟨S128, .f32⟩
  | .hbm, ⟨6, _⟩ => ⟨S8192x1x128, .f32⟩
  | .local _ .vmem, ⟨0, _⟩ => ⟨S128x64x128, .f32⟩
  | .local _ .vmem, ⟨1, _⟩ => ⟨S128x64x128, .f32⟩
  | .local _ .vmem, ⟨2, _⟩ => ⟨S128x1x128, .f32⟩
  | .local _ .vmem, ⟨3, _⟩ => ⟨S128x1x128, .f32⟩
  | .local _ .vmem, ⟨4, _⟩ => ⟨S8x128x128, .f32⟩
  | .local _ .vmem, ⟨5, _⟩ => ⟨S8x128, .f32⟩
  | .local _ .vmem, ⟨6, _⟩ => ⟨S1024x128, .f32⟩
  | .local _ .vmem, ⟨7, _⟩ => ⟨S128, .f32⟩
  | .local _ .vmem, ⟨8, _⟩ => ⟨S128x1x128, .f32⟩
  | .local _ .vmem, ⟨9, _⟩ => ⟨S128x1x128, .f32⟩
  | .local _ .vmem, ⟨10, _⟩ => ⟨S128x64x128, .f32⟩
  | .local _ .vmem, ⟨11, _⟩ => ⟨S128x128, .f32⟩
  | .local _ .vmem, ⟨12, _⟩ => ⟨S128x1024, .f32⟩
  | _, _ => ⟨S8192x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S128x64x128_S128x64x128_0_0_0 : ∀ a, (![0, 0, 0] : Fin 3 → Nat) a + S128x64x128.size a ≤ S128x64x128.size a
  h_S128x64x128 : 0 < S128x64x128.numel
  shapeCasts_S128x64x128_S128x64x128 : S128x64x128.ShapeCasts S128x64x128
  inb_S128x1x128_S128x1x128_0_0_0 : ∀ a, (![0, 0, 0] : Fin 3 → Nat) a + S128x1x128.size a ≤ S128x1x128.size a
  h_S128x1x128 : 0 < S128x1x128.numel
  shapeCasts_S128x1x128_S128x128 : S128x1x128.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  bitsLt_bf16_f32 : FTy.bits .bf16 < FTy.bits .f32
  inb_S8x128_S1x128_0_0 : ∀ a, (![0, 0] : Fin 2 → Nat) a + S1x128.size a ≤ S8x128.size a
  h_S1x128 : 0 < S1x128.numel
  shapeCasts_S1x128_S128 : S1x128.ShapeCasts S128
  shapeCasts_S128x64x128_S8192x128 : S128x64x128.ShapeCasts S8192x128
  shapeCasts_S128_S1x128 : S128.ShapeCasts S1x128
  broadcasts_S1x128_S8192x128 : S1x128.Broadcasts S8192x128
  shapeCasts_S8192x128_S128x64x128 : S8192x128.ShapeCasts S128x64x128
  broadcasts_S1x128_S128x128 : S1x128.Broadcasts S128x128
  shapeCasts_S128x128_S128x1x128 : S128x128.ShapeCasts S128x1x128
  broadcasts_S128x1x128_S128x64x128 : S128x1x128.Broadcasts S128x64x128
  reduces_S128x64x128_S128x64 : S128x64x128.Reduces [2] S128x64
  reduces_S128x128_S128 : S128x128.Reduces [1] S128
  shapeCasts_S128_S128x1 : S128.ShapeCasts S128x1
  reduces_S128x64_S128 : S128x64.Reduces [1] S128
  broadcasts_S128x1_S128x64 : S128x1.Broadcasts S128x64
  shapeCasts_S128x64_S128x64x1 : S128x64.ShapeCasts S128x64x1
  broadcasts_S128x64x1_S128x64x128 : S128x64x1.Broadcasts S128x64x128
  reduces_S128x64x128_S128x128 : S128x64x128.Reduces [1] S128x128
  broadcasts_S128x1_S128x128 : S128x1.Broadcasts S128x128
  inb_S128x1024_S128x128_0_0 : ∀ a, (![0, 0] : Fin 2 → Nat) a + S128x128.size a ≤ S128x1024.size a
  inb_S8x128x128_S1x128x128_1_0_0 : ∀ a, (![1, 0, 0] : Fin 3 → Nat) a + S1x128x128.size a ≤ S8x128x128.size a
  inb_S8x128_S1x128_1_0 : ∀ a, (![1, 0] : Fin 2 → Nat) a + S1x128.size a ≤ S8x128.size a
  inb_S128x1024_S128x128_0_128 : ∀ a, (![0, 128] : Fin 2 → Nat) a + S128x128.size a ≤ S128x1024.size a
  inb_S8x128x128_S1x128x128_2_0_0 : ∀ a, (![2, 0, 0] : Fin 3 → Nat) a + S1x128x128.size a ≤ S8x128x128.size a
  inb_S8x128_S1x128_2_0 : ∀ a, (![2, 0] : Fin 2 → Nat) a + S1x128.size a ≤ S8x128.size a
  inb_S128x1024_S128x128_0_256 : ∀ a, (![0, 256] : Fin 2 → Nat) a + S128x128.size a ≤ S128x1024.size a
  inb_S8x128x128_S1x128x128_3_0_0 : ∀ a, (![3, 0, 0] : Fin 3 → Nat) a + S1x128x128.size a ≤ S8x128x128.size a
  inb_S8x128_S1x128_3_0 : ∀ a, (![3, 0] : Fin 2 → Nat) a + S1x128.size a ≤ S8x128.size a
  inb_S128x1024_S128x128_0_384 : ∀ a, (![0, 384] : Fin 2 → Nat) a + S128x128.size a ≤ S128x1024.size a
  inb_S8x128x128_S1x128x128_4_0_0 : ∀ a, (![4, 0, 0] : Fin 3 → Nat) a + S1x128x128.size a ≤ S8x128x128.size a
  inb_S8x128_S1x128_4_0 : ∀ a, (![4, 0] : Fin 2 → Nat) a + S1x128.size a ≤ S8x128.size a
  inb_S128x1024_S128x128_0_512 : ∀ a, (![0, 512] : Fin 2 → Nat) a + S128x128.size a ≤ S128x1024.size a
  inb_S8x128x128_S1x128x128_5_0_0 : ∀ a, (![5, 0, 0] : Fin 3 → Nat) a + S1x128x128.size a ≤ S8x128x128.size a
  inb_S8x128_S1x128_5_0 : ∀ a, (![5, 0] : Fin 2 → Nat) a + S1x128.size a ≤ S8x128.size a
  inb_S128x1024_S128x128_0_640 : ∀ a, (![0, 640] : Fin 2 → Nat) a + S128x128.size a ≤ S128x1024.size a
  inb_S8x128x128_S1x128x128_6_0_0 : ∀ a, (![6, 0, 0] : Fin 3 → Nat) a + S1x128x128.size a ≤ S8x128x128.size a
  inb_S8x128_S1x128_6_0 : ∀ a, (![6, 0] : Fin 2 → Nat) a + S1x128.size a ≤ S8x128.size a
  inb_S128x1024_S128x128_0_768 : ∀ a, (![0, 768] : Fin 2 → Nat) a + S128x128.size a ≤ S128x1024.size a
  inb_S8x128x128_S1x128x128_7_0_0 : ∀ a, (![7, 0, 0] : Fin 3 → Nat) a + S1x128x128.size a ≤ S8x128x128.size a
  inb_S8x128_S1x128_7_0 : ∀ a, (![7, 0] : Fin 2 → Nat) a + S1x128.size a ≤ S8x128.size a
  inb_S128x1024_S128x128_0_896 : ∀ a, (![0, 896] : Fin 2 → Nat) a + S128x128.size a ≤ S128x1024.size a
  inb_S128x1024_S128x1024_0_0 : ∀ a, (![0, 0] : Fin 2 → Nat) a + S128x1024.size a ≤ S128x1024.size a
  h_S128x1024 : 0 < S128x1024.numel
  inb_S1024x128_S1024x128_0_0 : ∀ a, (![0, 0] : Fin 2 → Nat) a + S1024x128.size a ≤ S1024x128.size a
  h_S1024x128 : 0 < S1024x128.numel
  inb_S128_S128_0 : ∀ a, (![0] : Fin 1 → Nat) a + S128.size a ≤ S128.size a
  h_S128 : 0 < S128.numel
  dot_S8192x128_S128x128_S8192x128_1_0_0_1_n_n_wf : DotDims.WF S8192x128 S128x128 S8192x128 [1] [0] [0] [1] [] []
  dot_S128x128_S128x128_S128x128_1_0_0_1_n_n_wf : DotDims.WF S128x128 S128x128 S128x128 [1] [0] [0] [1] [] []
  dot_S128x1024_S1024x128_S128x128_1_0_0_1_n_n_wf : DotDims.WF S128x1024 S1024x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S8192x64x128.size a
  hwx0_0 : ∀ i : grid0.Coords, EltTy.bits .f32 = 32 ∨ (Rect.block (s := S8192x64x128) S128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1x128.size a ≤ S8192x1x128.size a
  hwx0_1 : ∀ i : grid0.Coords, EltTy.bits .f32 = 32 ∨ (Rect.block (s := S8192x1x128) S128x1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128x128.size a ≤ S8x128x128.size a
  hwx0_2 : ∀ i : grid0.Coords, EltTy.bits .f32 = 32 ∨ (Rect.block (s := S8x128x128) S8x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .f32 = 32 ∨ (Rect.block (s := S1024x128) S1024x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1x128.size a ≤ S8192x1x128.size a
  hwx0_6 : ∀ i : grid0.Coords, EltTy.bits .f32 = 32 ∨ (Rect.block (s := S8192x1x128) S128x1x128.size (cc0_transform_6 i) (hinb0_6 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S128x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x64x128 : Shape := ⟨3, ![8192, 64, 128]⟩
abbrev S8192x1x128 : Shape := ⟨3, ![8192, 1, 128]⟩
abbrev S8x128x128 : Shape := ⟨3, ![8, 128, 128]⟩
abbrev S8x128 : Shape := ⟨2, ![8, 128]⟩
abbrev S1024x128 : Shape := ⟨2, ![1024, 128]⟩
abbrev S128 : Shape := ⟨1, ![128]⟩
abbrev S8192x65x128 : Shape := ⟨3, ![8192, 65, 128]⟩
abbrev S1x128x128 : Shape := ⟨3, ![1, 128, 128]⟩
abbrev S128x128 : Shape := ⟨2, ![128, 128]⟩
abbrev S1x128 : Shape := ⟨2, ![1, 128]⟩
abbrev S1x1x128 : Shape := ⟨3, ![1, 1, 128]⟩
abbrev S8192x1x65 : Shape := ⟨3, ![8192, 1, 65]⟩
abbrev S_ : Shape := ⟨0, ![]⟩
abbrev S8192x1 : Shape := ⟨2, ![8192, 1]⟩
abbrev S8192x1x1 : Shape := ⟨3, ![8192, 1, 1]⟩
abbrev S8192x1x1024 : Shape := ⟨3, ![8192, 1, 1024]⟩

abbrev nBuf : Space → Nat
  | .hbm => 207
  | .vmem => 0
  | .smem => 0
  | _ => 0

abbrev hbmTy0_0 (i : Nat) : BufTy := match i % 128 with
  | 0 => ⟨S8192x64x128, .f32⟩
  | 1 => ⟨S8192x1x128, .f32⟩
  | 2 => ⟨S8x128x128, .f32⟩
  | 3 => ⟨S8x128, .f32⟩
  | 4 => ⟨S1024x128, .f32⟩
  | 5 => ⟨S128, .f32⟩
  | 6 => ⟨S8192x65x128, .f32⟩
  | 7 => ⟨S1x128x128, .f32⟩
  | 8 => ⟨S128x128, .f32⟩
  | 9 => ⟨S8192x65x128, .f32⟩
  | 10 => ⟨S1x128, .f32⟩
  | 11 => ⟨S128, .f32⟩
  | 12 => ⟨S1x1x128, .f32⟩
  | 13 => ⟨S8192x65x128, .f32⟩
  | 14 => ⟨S8192x65x128, .f32⟩
  | 15 => ⟨S8192x1x65, .f32⟩
  | 16 => ⟨S_, .f32⟩
  | 17 => ⟨S8192x1, .f32⟩
  | 18 => ⟨S_, .f32⟩
  | 19 => ⟨S8192x1, .f32⟩
  | 20 => ⟨S8192x1, .f32⟩
  | 21 => ⟨S8192x1x1, .f32⟩
  | 22 => ⟨S8192x1x65, .f32⟩
  | 23 => ⟨S8192x1x65, .f32⟩
  | 24 => ⟨S8192x1x65, .f32⟩
  | 25 => ⟨S_, .f32⟩
  | 26 => ⟨S8192x1, .f32⟩
  | 27 => ⟨S8192x1x1, .f32⟩
  | 28 => ⟨S8192x1x65, .f32⟩
  | 29 => ⟨S8192x1x65, .f32⟩
  | 30 => ⟨S8192x1x128, .f32⟩
  | 31 => ⟨S1x128x128, .f32⟩
  | 32 => ⟨S128x128, .f32⟩
  | 33 => ⟨S8192x65x128, .f32⟩
  | 34 => ⟨S1x128, .f32⟩
  | 35 => ⟨S128, .f32⟩
  | 36 => ⟨S1x1x128, .f32⟩
  | 37 => ⟨S8192x65x128, .f32⟩
  | 38 => ⟨S8192x65x128, .f32⟩
  | 39 => ⟨S8192x1x65, .f32⟩
  | 40 => ⟨S_, .f32⟩
  | 41 => ⟨S8192x1, .f32⟩
  | 42 => ⟨S_, .f32⟩
  | 43 => ⟨S8192x1, .f32⟩
  | 44 => ⟨S8192x1, .f32⟩
  | 45 => ⟨S8192x1x1, .f32⟩
  | 46 => ⟨S8192x1x65, .f32⟩
  | 47 => ⟨S8192x1x65, .f32⟩
  | 48 => ⟨S8192x1x65, .f32⟩
  | 49 => ⟨S_, .f32⟩
  | 50 => ⟨S8192x1, .f32⟩
  | 51 => ⟨S8192x1x1, .f32⟩
  | 52 => ⟨S8192x1x65, .f32⟩
  | 53 => ⟨S8192x1x65, .f32⟩
  | 54 => ⟨S8192x1x128, .f32⟩
  | 55 => ⟨S1x128x128, .f32⟩
  | 56 => ⟨S128x128, .f32⟩
  | 57 => ⟨S8192x65x128, .f32⟩
  | 58 => ⟨S1x128, .f32⟩
  | 59 => ⟨S128, .f32⟩
  | 60 => ⟨S1x1x128, .f32⟩
  | 61 => ⟨S8192x65x128, .f32⟩
  | 62 => ⟨S8192x65x128, .f32⟩
  | 63 => ⟨S8192x1x65, .f32⟩
  | 64 => ⟨S_, .f32⟩
  | 65 => ⟨S8192x1, .f32⟩
  | 66 => ⟨S_, .f32⟩
  | 67 => ⟨S8192x1, .f32⟩
  | 68 => ⟨S8192x1, .f32⟩
  | 69 => ⟨S8192x1x1, .f32⟩
  | 70 => ⟨S8192x1x65, .f32⟩
  | 71 => ⟨S8192x1x65, .f32⟩
  | 72 => ⟨S8192x1x65, .f32⟩
  | 73 => ⟨S_, .f32⟩
  | 74 => ⟨S8192x1, .f32⟩
  | 75 => ⟨S8192x1x1, .f32⟩
  | 76 => ⟨S8192x1x65, .f32⟩
  | 77 => ⟨S8192x1x65, .f32⟩
  | 78 => ⟨S8192x1x128, .f32⟩
  | 79 => ⟨S1x128x128, .f32⟩
  | 80 => ⟨S128x128, .f32⟩
  | 81 => ⟨S8192x65x128, .f32⟩
  | 82 => ⟨S1x128, .f32⟩
  | 83 => ⟨S128, .f32⟩
  | 84 => ⟨S1x1x128, .f32⟩
  | 85 => ⟨S8192x65x128, .f32⟩
  | 86 => ⟨S8192x65x128, .f32⟩
  | 87 => ⟨S8192x1x65, .f32⟩
  | 88 => ⟨S_, .f32⟩
  | 89 => ⟨S8192x1, .f32⟩
  | 90 => ⟨S_, .f32⟩
  | 91 => ⟨S8192x1, .f32⟩
  | 92 => ⟨S8192x1, .f32⟩
  | 93 => ⟨S8192x1x1, .f32⟩
  | 94 => ⟨S8192x1x65, .f32⟩
  | 95 => ⟨S8192x1x65, .f32⟩
  | 96 => ⟨S8192x1x65, .f32⟩
  | 97 => ⟨S_, .f32⟩
  | 98 => ⟨S8192x1, .f32⟩
  | 99 => ⟨S8192x1x1, .f32⟩
  | 100 => ⟨S8192x1x65, .f32⟩
  | 101 => ⟨S8192x1x65, .f32⟩
  | 102 => ⟨S8192x1x128, .f32⟩
  | 103 => ⟨S1x128x128, .f32⟩
  | 104 => ⟨S128x128, .f32⟩
  | 105 => ⟨S8192x65x128, .f32⟩
  | 106 => ⟨S1x128, .f32⟩
  | 107 => ⟨S128, .f32⟩
  | 108 => ⟨S1x1x128, .f32⟩
  | 109 => ⟨S8192x65x128, .f32⟩
  | 110 => ⟨S8192x65x128, .f32⟩
  | 111 => ⟨S8192x1x65, .f32⟩
  | 112 => ⟨S_, .f32⟩
  | 113 => ⟨S8192x1, .f32⟩
  | 114 => ⟨S_, .f32⟩
  | 115 => ⟨S8192x1, .f32⟩
  | 116 => ⟨S8192x1, .f32⟩
  | 117 => ⟨S8192x1x1, .f32⟩
  | 118 => ⟨S8192x1x65, .f32⟩
  | 119 => ⟨S8192x1x65, .f32⟩
  | 120 => ⟨S8192x1x65, .f32⟩
  | 121 => ⟨S_, .f32⟩
  | 122 => ⟨S8192x1, .f32⟩
  | 123 => ⟨S8192x1x1, .f32⟩
  | 124 => ⟨S8192x1x65, .f32⟩
  | 125 => ⟨S8192x1x65, .f32⟩
  | 126 => ⟨S8192x1x128, .f32⟩
  | 127 => ⟨S1x128x128, .f32⟩
  | _ => ⟨S8192x64x128, .f32⟩

abbrev hbmTy0_1 (i : Nat) : BufTy := match i % 128 with
  | 0 => ⟨S128x128, .f32⟩
  | 1 => ⟨S8192x65x128, .f32⟩
  | 2 => ⟨S1x128, .f32⟩
  | 3 => ⟨S128, .f32⟩
  | 4 => ⟨S1x1x128, .f32⟩
  | 5 => ⟨S8192x65x128, .f32⟩
  | 6 => ⟨S8192x65x128, .f32⟩
  | 7 => ⟨S8192x1x65, .f32⟩
  | 8 => ⟨S_, .f32⟩
  | 9 => ⟨S8192x1, .f32⟩
  | 10 => ⟨S_, .f32⟩
  | 11 => ⟨S8192x1, .f32⟩
  | 12 => ⟨S8192x1, .f32⟩
  | 13 => ⟨S8192x1x1, .f32⟩
  | 14 => ⟨S8192x1x65, .f32⟩
  | 15 => ⟨S8192x1x65, .f32⟩
  | 16 => ⟨S8192x1x65, .f32⟩
  | 17 => ⟨S_, .f32⟩
  | 18 => ⟨S8192x1, .f32⟩
  | 19 => ⟨S8192x1x1, .f32⟩
  | 20 => ⟨S8192x1x65, .f32⟩
  | 21 => ⟨S8192x1x65, .f32⟩
  | 22 => ⟨S8192x1x128, .f32⟩
  | 23 => ⟨S1x128x128, .f32⟩
  | 24 => ⟨S128x128, .f32⟩
  | 25 => ⟨S8192x65x128, .f32⟩
  | 26 => ⟨S1x128, .f32⟩
  | 27 => ⟨S128, .f32⟩
  | 28 => ⟨S1x1x128, .f32⟩
  | 29 => ⟨S8192x65x128, .f32⟩
  | 30 => ⟨S8192x65x128, .f32⟩
  | 31 => ⟨S8192x1x65, .f32⟩
  | 32 => ⟨S_, .f32⟩
  | 33 => ⟨S8192x1, .f32⟩
  | 34 => ⟨S_, .f32⟩
  | 35 => ⟨S8192x1, .f32⟩
  | 36 => ⟨S8192x1, .f32⟩
  | 37 => ⟨S8192x1x1, .f32⟩
  | 38 => ⟨S8192x1x65, .f32⟩
  | 39 => ⟨S8192x1x65, .f32⟩
  | 40 => ⟨S8192x1x65, .f32⟩
  | 41 => ⟨S_, .f32⟩
  | 42 => ⟨S8192x1, .f32⟩
  | 43 => ⟨S8192x1x1, .f32⟩
  | 44 => ⟨S8192x1x65, .f32⟩
  | 45 => ⟨S8192x1x65, .f32⟩
  | 46 => ⟨S8192x1x128, .f32⟩
  | 47 => ⟨S1x128x128, .f32⟩
  | 48 => ⟨S128x128, .f32⟩
  | 49 => ⟨S8192x65x128, .f32⟩
  | 50 => ⟨S1x128, .f32⟩
  | 51 => ⟨S128, .f32⟩
  | 52 => ⟨S1x1x128, .f32⟩
  | 53 => ⟨S8192x65x128, .f32⟩
  | 54 => ⟨S8192x65x128, .f32⟩
  | 55 => ⟨S8192x1x65, .f32⟩
  | 56 => ⟨S_, .f32⟩
  | 57 => ⟨S8192x1, .f32⟩
  | 58 => ⟨S_, .f32⟩
  | 59 => ⟨S8192x1, .f32⟩
  | 60 => ⟨S8192x1, .f32⟩
  | 61 => ⟨S8192x1x1, .f32⟩
  | 62 => ⟨S8192x1x65, .f32⟩
  | 63 => ⟨S8192x1x65, .f32⟩
  | 64 => ⟨S8192x1x65, .f32⟩
  | 65 => ⟨S_, .f32⟩
  | 66 => ⟨S8192x1, .f32⟩
  | 67 => ⟨S8192x1x1, .f32⟩
  | 68 => ⟨S8192x1x65, .f32⟩
  | 69 => ⟨S8192x1x65, .f32⟩
  | 70 => ⟨S8192x1x128, .f32⟩
  | 71 => ⟨S8192x1x1024, .f32⟩
  | 72 => ⟨S8192x1x128, .f32⟩
  | 73 => ⟨S1x1x128, .f32⟩
  | 74 => ⟨S8192x1x128, .f32⟩
  | 75 => ⟨S8192x1x128, .f32⟩
  | 76 => ⟨S_, .f32⟩
  | 77 => ⟨S8192x1x128, .f32⟩
  | 78 => ⟨S8192x1x128, .f32⟩
  | _ => ⟨S8192x64x128, .f32⟩

abbrev hbmTy (i : Nat) : BufTy := match i / 128 with
  | 0 => hbmTy0_0 i
  | 1 => hbmTy0_1 i
  | _ => ⟨S8192x64x128, .f32⟩

abbrev bufTy : (tb : Table) → Fin (tcTables nBuf tb) → BufTy
  | .hbm, ⟨i, _⟩ => hbmTy i
  | _, _ => ⟨S8192x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_5 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_cst_9 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_11 : Ref sig .tc := ⟨.hbm, 112, rfl⟩
abbrev main_v94 : Ref sig .tc := ⟨.hbm, 113, rfl⟩
abbrev main_cst_12 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_13 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_14 : Ref sig .tc := ⟨.hbm, 136, rfl⟩
abbrev main_v115 : Ref sig .tc := ⟨.hbm, 137, rfl⟩
abbrev main_cst_15 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_cst_16 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_cst_17 : Ref sig .tc := ⟨.hbm, 160, rfl⟩
abbrev main_v136 : Ref sig .tc := ⟨.hbm, 161, rfl⟩
abbrev main_cst_18 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_cst_19 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_cst_20 : Ref sig .tc := ⟨.hbm, 184, rfl⟩
abbrev main_v157 : Ref sig .tc := ⟨.hbm, 185, rfl⟩
abbrev main_cst_21 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_cst_22 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_call0_cst : Ref sig .tc := ⟨.hbm, 204, rfl⟩
abbrev main_call0_v0 : Ref sig .tc := ⟨.hbm, 205, rfl⟩
abbrev main_v174 : Ref sig .tc := ⟨.hbm, 206, rfl⟩

abbrev nD : Nat := 1
abbrev τ : Topo := Topo.v7x

variable {F : FTy → Type} [FloatOps F]

class Facts₀ : Prop where
  concatenates_S8192x64x128_S8192x1x128_S8192x65x128_d1 : Shape.Concatenates [S8192x64x128, S8192x1x128] S8192x65x128 1
  slices_S8x128x128_S1x128x128_0_0_0 : S8x128x128.Slices ![0, 0, 0] S1x128x128
  shapeCasts_S1x128x128_S128x128 : S1x128x128.ShapeCasts S128x128
  slices_S8x128_S1x128_0_0 : S8x128.Slices ![0, 0] S1x128
  shapeCasts_S1x128_S128 : S1x128.ShapeCasts S128
  bcast_S128_S1x1x128_2 : S128.BroadcastsInDim S1x1x128 (![2] : Fin 1 → Fin S1x1x128.rank)
  bcast_S1x1x128_S8192x65x128_0_1_2 : S1x1x128.BroadcastsInDim S8192x65x128 (![0, 1, 2] : Fin 3 → Fin S8192x65x128.rank)
  reducesTo_S8192x1x65_S8192x1_d2 : S8192x1x65.ReducesTo [2] S8192x1
  h_S_ : 0 < S_.numel
  bcast_S_S8192x1 : S_.BroadcastsInDim S8192x1 (![] : Fin 0 → Fin S8192x1.rank)
  bcast_S8192x1_S8192x1x1_0_1 : S8192x1.BroadcastsInDim S8192x1x1 (![0, 1] : Fin 2 → Fin S8192x1x1.rank)
  bcast_S8192x1x1_S8192x1x65_0_1_2 : S8192x1x1.BroadcastsInDim S8192x1x65 (![0, 1, 2] : Fin 3 → Fin S8192x1x65.rank)
  slices_S8x128x128_S1x128x128_1_0_0 : S8x128x128.Slices ![1, 0, 0] S1x128x128
  slices_S8x128_S1x128_1_0 : S8x128.Slices ![1, 0] S1x128
  slices_S8x128x128_S1x128x128_2_0_0 : S8x128x128.Slices ![2, 0, 0] S1x128x128
  slices_S8x128_S1x128_2_0 : S8x128.Slices ![2, 0] S1x128
  slices_S8x128x128_S1x128x128_3_0_0 : S8x128x128.Slices ![3, 0, 0] S1x128x128
  slices_S8x128_S1x128_3_0 : S8x128.Slices ![3, 0] S1x128
  slices_S8x128x128_S1x128x128_4_0_0 : S8x128x128.Slices ![4, 0, 0] S1x128x128
  slices_S8x128_S1x128_4_0 : S8x128.Slices ![4, 0] S1x128
  slices_S8x128x128_S1x128x128_5_0_0 : S8x128x128.Slices ![5, 0, 0] S1x128x128
  slices_S8x128_S1x128_5_0 : S8x128.Slices ![5, 0] S1x128
  slices_S8x128x128_S1x128x128_6_0_0 : S8x128x128.Slices ![6, 0, 0] S1x128x128
  slices_S8x128_S1x128_6_0 : S8x128.Slices ![6, 0] S1x128
  slices_S8x128x128_S1x128x128_7_0_0 : S8x128x128.Slices ![7, 0, 0] S1x128x128
  slices_S8x128_S1x128_7_0 : S8x128.Slices ![7, 0] S1x128
  concatenates_S8192x1x128_S8192x1x128_S8192x1x128_S8192x1x128_S8192x1x128_S8192x1x128_S8192x1x128_S8192x1x128_S8192x1x1024_d2 : Shape.Concatenates [S8192x1x128, S8192x1x128, S8192x1x128, S8192x1x128, S8192x1x128, S8192x1x128, S8192x1x128, S8192x1x128] S8192x1x1024 2
  bcast_S1x1x128_S8192x1x128_0_1_2 : S1x1x128.BroadcastsInDim S8192x1x128 (![0, 1, 2] : Fin 3 → Fin S8192x1x128.rank)
  bcast_S_S8192x1x128 : S_.BroadcastsInDim S8192x1x128 (![] : Fin 0 → Fin S8192x1x128.rank)
  dot_S8192x65x128_S128x128_S8192x65x128_2_0_01_1_n_n_wf : DotDims.WF S8192x65x128 S128x128 S8192x65x128 [2] [0] [0, 1] [1] [] []
  dot_S8192x1x128_S8192x65x128_S8192x1x65_2_2_1_1_0_0_wf : DotDims.WF S8192x1x128 S8192x65x128 S8192x1x65 [2] [2] [1] [1] [0] [0]
  dot_S8192x1x65_S8192x65x128_S8192x1x128_2_1_1_2_0_0_wf : DotDims.WF S8192x1x65 S8192x65x128 S8192x1x128 [2] [1] [1] [2] [0] [0]
  dot_S8192x1x1024_S1024x128_S8192x1x128_2_0_01_1_n_n_wf : DotDims.WF S8192x1x1024 S1024x128 S8192x1x128 [2] [0] [0, 1] [1] [] []

variable [Facts₀]

def dot_S8192x65x128_S128x128_S8192x65x128_2_0_01_1_n_n : DotDims S8192x65x128 S128x128 S8192x65x128 where
  lhsContracting := [2]
  rhsContracting := [0]
  lhsNonContracting := [0, 1]
  rhsNonContracting := [1]
  lhsBatch := []
  rhsBatch := []
  wf := dot_S8192x65x128_S128x128_S8192x65x128_2_0_01_1_n_n_wf
def dot_S8192x1x128_S8192x65x128_S8192x1x65_2_2_1_1_0_0 : DotDims S8192x1x128 S8192x65x128 S8192x1x65 where
  lhsContracting := [2]
  rhsContracting := [2]
  lhsNonContracting := [1]
  rhsNonContracting := [1]
  lhsBatch := [0]
  rhsBatch := [0]
  wf := dot_S8192x1x128_S8192x65x128_S8192x1x65_2_2_1_1_0_0_wf
def dot_S8192x1x65_S8192x65x128_S8192x1x128_2_1_1_2_0_0 : DotDims S8192x1x65 S8192x65x128 S8192x1x128 where
  lhsContracting := [2]
  rhsContracting := [1]
  lhsNonContracting := [1]
  rhsNonContracting := [2]
  lhsBatch := [0]
  rhsBatch := [0]
  wf := dot_S8192x1x65_S8192x65x128_S8192x1x128_2_1_1_2_0_0_wf
def dot_S8192x1x1024_S1024x128_S8192x1x128_2_0_01_1_n_n : DotDims S8192x1x1024 S1024x128 S8192x1x128 where
  lhsContracting := [2]
  rhsContracting := [0]
  lhsNonContracting := [0, 1]
  rhsNonContracting := [1]
  lhsBatch := []
  rhsBatch := []
  wf := dot_S8192x1x1024_S1024x128_S8192x1x128_2_0_01_1_n_n_wf

class Facts : Prop extends Facts₀ where

variable [Facts]
-- ==== Proof.HeadStep.lean ====
/-
  The mathematics of the two programs, one batch row at a time, on the extended reals.

  A batch row carries 65 hidden vectors of length 128: 64 neighbour rows and one extra row, which is also the
  fixed vector `v` every score is taken against.  Each of the eight heads first sends every one of the 65 vectors
  through its dense layer (`proj`: q ↦ q·W + b; the layers compose from head to head), then scores every vector
  against `v` (`score`), takes the softmax of the 65 scores and returns the softmax-weighted sum of the 65 vectors:
  the head's context.  The eight contexts, side by side (1024 numbers), go through the output layer and a
  rectifier (`outRow`).

  The two programs arrange a head differently.  One keeps the 64 neighbour rows and the extra row apart, takes the
  maximum and the normalising sum as "the 64 entries, then the extra one", and multiplies by the reciprocal of the
  sum (`attendSplit`); the other works on all 65 rows at once and divides by the sum (`attendJoined`).  `z` is
  the value the running maximum starts from; nothing here needs to know which value it is.
-/
import Idealize.ShloMosaic.PureOps.Ideal
import Idealize.ShloMosaic.Lib.ValueIdx

noncomputable section

namespace Cert.Heads

open Idealize.ShloMosaic Idealize.ShloMosaic.ValueIdx

/-- One hidden vector. -/
abbrev Row := Fin 128 → EReal
/-- One dense layer's weight, (input coordinate, output coordinate). -/
abbrev Mat := Fin 128 → Fin 128 → EReal

/-- A dense layer on one vector: q·W + b. -/
def proj (W : Mat) (b : Row) (q : Row) : Row := fun k => (∑ h : Fin 128, q h * W h k) + b k

/-- The score of a vector against `v`: their inner product. -/
def score (v q : Row) : EReal := ∑ h : Fin 128, q h * v h

/-- The 64 neighbour rows with the extra row put after them. -/
def join (qq : Fin 64 → Row) (qe : Row) : Fin 65 → Row := fun n => if h : n.val < 64 then qq ⟨n.val, h⟩ else qe

/-! ### A head, the neighbour rows and the extra row kept apart -/

/-- The largest score: the 64 neighbour scores folded from `z`, then the extra row's. -/
def mxSplit (z : EReal) (v : Row) (qq : Fin 64 → Row) (qe : Row) : EReal :=
  max ((Finset.univ : Finset (Fin 64)).fold max z fun n => score v (qq n)) (score v qe)

/-- The normalising sum: the 64 neighbour terms, then the extra row's. -/
def sumSplit (z : EReal) (v : Row) (qq : Fin 64 → Row) (qe : Row) : EReal :=
  (∑ n : Fin 64, Ideal.exp (score v (qq n) - mxSplit z v qq qe)) + Ideal.exp (score v qe - mxSplit z v qq qe)

/-- The context: every weight is the exponential times the RECIPROCAL of the normalising sum. -/
def attendSplit (z : EReal) (v : Row) (qq : Fin 64 → Row) (qe : Row) : Row := fun k =>
  (∑ n : Fin 64, (Ideal.exp (score v (qq n) - mxSplit z v qq qe) * Ideal.div 1 (sumSplit z v qq qe)) * qq n k)
    + (Ideal.exp (score v qe - mxSplit z v qq qe) * Ideal.div 1 (sumSplit z v qq qe)) * qe k

/-! ### A head on all 65 rows at once -/

/-- The largest score, folded from `z` over the 65 rows (and compared with `z` once more). -/
def mxJoined (z : EReal) (v : Row) (rows : Fin 65 → Row) : EReal :=
  max z ((Finset.univ : Finset (Fin 65)).fold max z fun n => score v (rows n))

/-- The normalising sum over the 65 rows. -/
def sumJoined (z : EReal) (v : Row) (rows : Fin 65 → Row) : EReal :=
  ∑ n : Fin 65, Ideal.exp (score v (rows n) - mxJoined z v rows)

/-- The context: every weight is the exponential DIVIDED by the normalising sum. -/
def attendJoined (z : EReal) (v : Row) (rows : Fin 65 → Row) : Row := fun k =>
  ∑ n : Fin 65, Ideal.div (Ideal.exp (score v (rows n) - mxJoined z v rows)) (sumJoined z v rows) * rows n k

/-! ### The rows after `i` heads -/

/-- The 64 neighbour rows after the dense layers of heads 0 … i-1. -/
def qqAt (Wn : ℕ → Mat) (bn : ℕ → Row) (qq0 : Fin 64 → Row) : ℕ → Fin 64 → Row
  | 0 => qq0
  | i + 1 => fun n => proj (Wn i) (bn i) (qqAt Wn bn qq0 i n)

/-- The extra row after the dense layers of heads 0 … i-1. -/
def qeAt (Wn : ℕ → Mat) (bn : ℕ → Row) (qe0 : Row) : ℕ → Row
  | 0 => qe0
  | i + 1 => proj (Wn i) (bn i) (qeAt Wn bn qe0 i)

/-- All 65 rows after the dense layers of heads 0 … i-1. -/
def rowsAt (Wn : ℕ → Mat) (bn : ℕ → Row) (rows0 : Fin 65 → Row) : ℕ → Fin 65 → Row
  | 0 => rows0
  | i + 1 => fun n => proj (Wn i) (bn i) (rowsAt Wn bn rows0 i n)

/-- The output layer on the contexts side by side (context `c / 128`, coordinate `c % 128`), then the rectifier. -/
def outRow (ctx : ℕ → Row) (Wo : Fin 1024 → Row) (bo : Row) : Row := fun k =>
  max ((∑ c : Fin 1024, ctx (c.val / 128) ⟨c.val % 128, Nat.mod_lt _ (by norm_num)⟩ * Wo c k) + bo k) 0

/-! ### The argument arrays read by rows -/

/-- Batch row `B`'s 64 neighbour rows (of the whole array, `N = 8192`, or of a block of `N = 128` batch rows). -/
def qq0 {N : ℕ} (x0 : (⟨3, ![N, 64, 128]⟩ : Shape).Idx → EReal) (B : Fin N) : Fin 64 → Row := fun n h => x0 (ix3 B n h)
/-- Batch row `B`'s extra row, the fixed vector. -/
def vrow {N : ℕ} (x1 : (⟨3, ![N, 1, 128]⟩ : Shape).Idx → EReal) (B : Fin N) : Row := fun h => x1 (ix3 B (0 : Fin 1) h)
/-- Head `i`'s weight (zero past the eighth head). -/
def Wn (x2 : (⟨3, ![8, 128, 128]⟩ : Shape).Idx → EReal) (i : ℕ) : Mat :=
  fun h k => if hi : i < 8 then x2 (ix3 (⟨i, hi⟩ : Fin 8) h k) else 0
/-- Head `i`'s bias (zero past the eighth head). -/
def bn (x3 : (⟨2, ![8, 128]⟩ : Shape).Idx → EReal) (i : ℕ) : Row :=
  fun k => if hi : i < 8 then x3 (ix2 (⟨i, hi⟩ : Fin 8) k) else 0
/-- The output layer's weight by rows. -/
def Wo (x4 : (⟨2, ![1024, 128]⟩ : Shape).Idx → EReal) : Fin 1024 → Row := fun c k => x4 (ix2 c k)
/-- The output layer's bias. -/
def bo (x5 : (⟨1, ![128]⟩ : Shape).Idx → EReal) : Row := fun k => x5 (ix1 k)

/-- The result at batch row `B` (of an array or block of `N` batch rows), coordinate `k`, the neighbour rows and the extra row kept apart. -/
def outSplitAt {N : ℕ} (z : EReal) (x0 : (⟨3, ![N, 64, 128]⟩ : Shape).Idx → EReal) (x1 : (⟨3, ![N, 1, 128]⟩ : Shape).Idx → EReal)
    (x2 : (⟨3, ![8, 128, 128]⟩ : Shape).Idx → EReal) (x3 : (⟨2, ![8, 128]⟩ : Shape).Idx → EReal)
    (x4 : (⟨2, ![1024, 128]⟩ : Shape).Idx → EReal) (x5 : (⟨1, ![128]⟩ : Shape).Idx → EReal) (B : Fin N) (k : Fin 128) : EReal :=
  outRow (fun i => attendSplit z (vrow x1 B) (qqAt (Wn x2) (bn x3) (qq0 x0 B) (i + 1)) (qeAt (Wn x2) (bn x3) (vrow x1 B) (i + 1)))
    (Wo x4) (bo x5) k

/-- The result at batch row `B`, coordinate `k`, on all 65 rows at once. -/
def outJoinedAt {N : ℕ} (z : EReal) (x0 : (⟨3, ![N, 64, 128]⟩ : Shape).Idx → EReal) (x1 : (⟨3, ![N, 1, 128]⟩ : Shape).Idx → EReal)
    (x2 : (⟨3, ![8, 128, 128]⟩ : Shape).Idx → EReal) (x3 : (⟨2, ![8, 128]⟩ : Shape).Idx → EReal)
    (x4 : (⟨2, ![1024, 128]⟩ : Shape).Idx → EReal) (x5 : (⟨1, ![128]⟩ : Shape).Idx → EReal) (B : Fin N) (k : Fin 128) : EReal :=
  outRow (fun i => attendJoined z (vrow x1 B) (rowsAt (Wn x2) (bn x3) (join (qq0 x0 B) (vrow x1 B)) (i + 1)))
    (Wo x4) (bo x5) k

/-- The whole result array, by coordinates, in the first arrangement. -/
def outSplit (z : EReal) (x0 : (⟨3, ![8192, 64, 128]⟩ : Shape).Idx → EReal) (x1 : (⟨3, ![8192, 1, 128]⟩ : Shape).Idx → EReal)
    (x2 : (⟨3, ![8, 128, 128]⟩ : Shape).Idx → EReal) (x3 : (⟨2, ![8, 128]⟩ : Shape).Idx → EReal)
    (x4 : (⟨2, ![1024, 128]⟩ : Shape).Idx → EReal) (x5 : (⟨1, ![128]⟩ : Shape).Idx → EReal) :
    (⟨3, ![8192, 1, 128]⟩ : Shape).Idx → EReal :=
  fun j => outSplitAt z x0 x1 x2 x3 x4 x5 (j 0) (j 2)

/-- The whole result array, by coordinates, in the second arrangement. -/
def outJoined (z : EReal) (x0 : (⟨3, ![8192, 64, 128]⟩ : Shape).Idx → EReal) (x1 : (⟨3, ![8192, 1, 128]⟩ : Shape).Idx → EReal)
    (x2 : (⟨3, ![8, 128, 128]⟩ : Shape).Idx → EReal) (x3 : (⟨2, ![8, 128]⟩ : Shape).Idx → EReal)
    (x4 : (⟨2, ![1024, 128]⟩ : Shape).Idx → EReal) (x5 : (⟨1, ![128]⟩ : Shape).Idx → EReal) :
    (⟨3, ![8192, 1, 128]⟩ : Shape).Idx → EReal :=
  fun j => outJoinedAt z x0 x1 x2 x3 x4 x5 (j 0) (j 2)

/-- A value is a real number: neither infinity. -/
def IsReal (x : EReal) : Prop := ∃ r : ℝ, x = (r : EReal)

end Cert.Heads

end
-- ==== Proof.HeadsAgree.lean ====
/-
  The two arrangements of the attention heads agree on real inputs.

  A head scores 65 hidden vectors against a fixed vector, takes the softmax of the 65 scores and returns the
  weighted sum of the vectors.  One arrangement treats the vectors as 64 and one more: the largest score is
  "the largest of the 64, compared with the last", the normalising sum is "the 64 terms plus the last", and each
  weight is an exponential times the reciprocal of that sum.  The other arrangement works on all 65 at once and
  divides each exponential by the sum.

  On the extended reals these are not the same function: if the normalising sum is 0, dividing by it gives an
  infinity while its reciprocal times 0 gives 0.  With real (finite) inputs the difference disappears:
    * every score is a finite sum of products of reals, so it is real;
    * the largest of finitely many real scores, folded from -∞, is real, and the two arrangements find the
      same one (a fold of max over n+1 entries is the fold over the first n compared with the last, and
      comparing once more with the starting value changes nothing);
    * every term of the normalising sum is an exponential, so none is negative, and the last one is the
      exponential of a real, so it is positive: the sum is positive, in particular not 0;
    * off 0, x / l = x · l⁻¹ = x · (1 / l).
  The dense layers in front of each head act on every vector by itself, so they commute with splitting the 65
  vectors into 64 and one, and with real weights and biases they keep every vector real.  The output layer is
  applied to the same eight contexts in both arrangements.
-/
import proofs.«167954_j46170898432679_2_alg».proof.Proof.HeadStep
import Mathlib.Algebra.BigOperators.Fin
import Mathlib.Data.Finset.Fold
import Mathlib.Data.Fin.SuccPred

noncomputable section

namespace Cert.Heads

open Idealize.ShloMosaic Idealize.ShloMosaic.ValueIdx

/-! ### Real values

IsReal x says that x is the image of a real number.  Sums, differences and products of such values are again
of that kind, and a value that is neither infinity is of that kind. -/

theorem isReal_zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.ne_bot {x : EReal} (hx : IsReal x) : x ≠ ⊥ := by
  obtain ⟨a, rfl⟩ := hx
  exact EReal.coe_ne_bot a

theorem IsReal.ne_top {x : EReal} (hx : IsReal x) : x ≠ ⊤ := by
  obtain ⟨a, rfl⟩ := hx
  exact EReal.coe_ne_top a

theorem isReal_of_ne {x : EReal} (hbot : x ≠ ⊥) (htop : x ≠ ⊤) : IsReal x :=
  ⟨x.toReal, (EReal.coe_toReal htop hbot).symm⟩

/-- A finite sum of real values is a real value (induction on the index set). -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The inner product of two vectors of reals is real. -/
theorem isReal_score (v q : Row) (hv : ∀ h, IsReal (v h)) (hq : ∀ h, IsReal (q h)) : IsReal (score v q) :=
  isReal_sum _ _ fun h _ => (hq h).mul (hv h)

/-- A dense layer with real weight and bias sends a vector of reals to a vector of reals. -/
theorem isReal_proj (W : Mat) (b q : Row) (hW : ∀ h k, IsReal (W h k)) (hb : ∀ k, IsReal (b k)) (hq : ∀ h, IsReal (q h)) :
    ∀ k, IsReal (proj W b q k) := fun k =>
  (isReal_sum _ _ fun h _ => (hq h).mul (hW h k)).add (hb k)

/-! ### The 65 rows as 64 and one -/

@[simp] theorem join_castSucc (qq : Fin 64 → Row) (qe : Row) (n : Fin 64) : join qq qe n.castSucc = qq n := by
  simp [join]

@[simp] theorem join_last (qq : Fin 64 → Row) (qe : Row) : join qq qe (Fin.last 64) = qe := by
  simp [join]

/-- The dense layers act on each row by itself, so they commute with putting the extra row after the 64. -/
theorem rowsAt_join (Wn : ℕ → Mat) (bn : ℕ → Row) (qq0 : Fin 64 → Row) (qe0 : Row) (i : ℕ) :
    rowsAt Wn bn (join qq0 qe0) i = join (qqAt Wn bn qq0 i) (qeAt Wn bn qe0 i) := by
  induction i with
  | zero => rfl
  | succ i ih =>
    funext n
    show proj (Wn i) (bn i) (rowsAt Wn bn (join qq0 qe0) i n)
      = join (qqAt Wn bn qq0 (i + 1)) (qeAt Wn bn qe0 (i + 1)) n
    rw [ih]
    unfold join
    split <;> rfl

/-! ### The running maximum -/

/-- Folding max over n+1 entries is folding it over the first n and comparing with the last: both sides
have the same upper bounds. -/
theorem fold_max_castSucc {n : ℕ} (z : EReal) (f : Fin (n + 1) → EReal) :
    (Finset.univ : Finset (Fin (n + 1))).fold max z f
      = max ((Finset.univ : Finset (Fin n)).fold max z fun i => f i.castSucc) (f (Fin.last n)) := by
  refine eq_of_forall_ge_iff fun c => ?_
  simp only [Finset.fold_max_le, max_le_iff, Finset.mem_univ, true_implies, Fin.forall_fin_succ', and_assoc]

/-- The two arrangements find the same largest score, whatever the starting value: the fold never falls
below the value it starts from, so comparing with that value once more changes nothing. -/
theorem mxJoined_join (z : EReal) (v : Row) (qq : Fin 64 → Row) (qe : Row) :
    mxJoined z v (join qq qe) = mxSplit z v qq qe := by
  unfold mxJoined mxSplit
  rw [fold_max_castSucc]
  simp only [join_castSucc, join_last]
  exact max_eq_right (le_max_of_le_left ((Finset.le_fold_max z).mpr (Or.inl le_rfl)))

/-- Started from -∞, the largest of 65 real scores is real: it is at least the extra row's score, and every
entry is below +∞. -/
theorem isReal_mxSplit (v : Row) (qq : Fin 64 → Row) (qe : Row)
    (hs : ∀ n, IsReal (score v (qq n))) (he : IsReal (score v qe)) : IsReal (mxSplit ⊥ v qq qe) := by
  apply isReal_of_ne
  · intro h
    have hle : score v qe ≤ mxSplit ⊥ v qq qe := le_max_right _ _
    rw [h] at hle
    exact he.ne_bot (le_bot_iff.mp hle)
  · apply ne_of_lt
    unfold mxSplit
    rw [max_lt_iff, Finset.fold_max_lt]
    exact ⟨⟨bot_lt_top, fun n _ => lt_top_iff_ne_top.mpr (hs n).ne_top⟩, lt_top_iff_ne_top.mpr he.ne_top⟩

/-! ### The normalising sum -/

/-- The exponential is never negative: it is 0 at -∞, +∞ at +∞ and a positive real at a real. -/
theorem exp_nonneg (x : EReal) : 0 ≤ Ideal.exp x := by
  induction x with
  | bot => simp
  | coe r => rw [Ideal.exp_coe]; exact_mod_cast (Real.exp_pos r).le
  | top => simp

/-- The exponential of a real number is positive. -/
theorem exp_pos_of_isReal {x : EReal} (hx : IsReal x) : 0 < Ideal.exp x := by
  obtain ⟨r, rfl⟩ := hx
  rw [Ideal.exp_coe]
  exact_mod_cast Real.exp_pos r

/-- The normalising sums agree: the sum over the 65 rows is the sum over the 64 plus the extra row's term,
and the largest scores agree. -/
theorem sumJoined_join (z : EReal) (v : Row) (qq : Fin 64 → Row) (qe : Row) :
    sumJoined z v (join qq qe) = sumSplit z v qq qe := by
  unfold sumJoined sumSplit
  rw [Fin.sum_univ_castSucc]
  simp only [join_castSucc, join_last, mxJoined_join]

/-- With real scores the normalising sum is positive: every term is an exponential, so none is negative, and
the extra row's term is the exponential of a real number. -/
theorem sumSplit_pos (v : Row) (qq : Fin 64 → Row) (qe : Row)
    (hs : ∀ n, IsReal (score v (qq n))) (he : IsReal (score v qe)) : 0 < sumSplit ⊥ v qq qe := by
  unfold sumSplit
  exact lt_of_lt_of_le (exp_pos_of_isReal (he.sub (isReal_mxSplit v qq qe hs he)))
    (le_add_of_nonneg_left (Finset.sum_nonneg fun n _ => exp_nonneg _))

/-- Off zero, multiplying by the reciprocal is dividing. -/
theorem mul_div_one (p l : EReal) (hl : l ≠ 0) : p * Ideal.div 1 l = Ideal.div p l := by
  unfold Ideal.div
  rw [if_neg hl, if_neg hl, one_mul]

/-! ### One head -/

/-- On real inputs the two arrangements of a head give the same context.  The largest scores agree and the
normalising sums agree; that sum is positive, hence not zero, so dividing each exponential by it is
multiplying it by the reciprocal; and the weighted sum over the 65 rows is the one over the 64 plus the extra
row's term.  (Without real inputs the sum can be zero, and then dividing by it and multiplying by its
reciprocal differ.) -/
theorem attendJoined_join (z : EReal) (hz : z = ⊥) (v : Row) (qq : Fin 64 → Row) (qe : Row)
    (hv : ∀ h, IsReal (v h)) (hqq : ∀ n h, IsReal (qq n h)) (hqe : ∀ h, IsReal (qe h)) :
    attendJoined z v (join qq qe) = attendSplit z v qq qe := by
  subst hz
  have hs : ∀ n, IsReal (score v (qq n)) := fun n => isReal_score v (qq n) hv (hqq n)
  have he : IsReal (score v qe) := isReal_score v qe hv hqe
  have hl : sumSplit ⊥ v qq qe ≠ 0 := (sumSplit_pos v qq qe hs he).ne'
  funext k
  unfold attendJoined attendSplit
  rw [Fin.sum_univ_castSucc]
  simp only [join_castSucc, join_last, mxJoined_join, sumJoined_join, mul_div_one _ _ hl]

/-! ### All heads and the output layer -/

/-- Every entry of a head's weight is real: it is an entry of the weight array, or zero. -/
theorem isReal_Wn (x2 : (⟨3, ![8, 128, 128]⟩ : Shape).Idx → EReal) (h2 : ∀ j, IsReal (x2 j)) (i : ℕ) (h k : Fin 128) :
    IsReal (Wn x2 i h k) := by
  unfold Wn
  split
  · exact h2 _
  · exact isReal_zero

/-- Every entry of a head's bias is real: it is an entry of the bias array, or zero. -/
theorem isReal_bn (x3 : (⟨2, ![8, 128]⟩ : Shape).Idx → EReal) (h3 : ∀ j, IsReal (x3 j)) (i : ℕ) (k : Fin 128) :
    IsReal (bn x3 i k) := by
  unfold bn
  split
  · exact h3 _
  · exact isReal_zero

/-- Real dense layers keep the 64 neighbour rows real, head after head. -/
theorem isReal_qqAt (Wn : ℕ → Mat) (bn : ℕ → Row) (qq0 : Fin 64 → Row) (hW : ∀ i h k, IsReal (Wn i h k))
    (hb : ∀ i k, IsReal (bn i k)) (h0 : ∀ n h, IsReal (qq0 n h)) : ∀ i n h, IsReal (qqAt Wn bn qq0 i n h) := by
  intro i
  induction i with
  | zero => exact h0
  | succ i ih => exact fun n => isReal_proj (Wn i) (bn i) _ (hW i) (hb i) (ih n)

/-- Real dense layers keep the extra row real, head after head. -/
theorem isReal_qeAt (Wn : ℕ → Mat) (bn : ℕ → Row) (qe0 : Row) (hW : ∀ i h k, IsReal (Wn i h k))
    (hb : ∀ i k, IsReal (bn i k)) (h0 : ∀ h, IsReal (qe0 h)) : ∀ i h, IsReal (qeAt Wn bn qe0 i h) := by
  intro i
  induction i with
  | zero => exact h0
  | succ i ih => exact isReal_proj (Wn i) (bn i) _ (hW i) (hb i) ih

/-- One batch row, one output coordinate: head by head the rows of the two arrangements agree
(the dense layers commute with joining), they stay real, and so each head's two contexts agree; the output
layer is then applied to the same eight contexts. -/
theorem outJoinedAt_eq_outSplitAt {N : ℕ} (z : EReal) (hz : z = ⊥)
    (x0 : (⟨3, ![N, 64, 128]⟩ : Shape).Idx → EReal) (x1 : (⟨3, ![N, 1, 128]⟩ : Shape).Idx → EReal)
    (x2 : (⟨3, ![8, 128, 128]⟩ : Shape).Idx → EReal) (x3 : (⟨2, ![8, 128]⟩ : Shape).Idx → EReal)
    (x4 : (⟨2, ![1024, 128]⟩ : Shape).Idx → EReal) (x5 : (⟨1, ![128]⟩ : Shape).Idx → EReal)
    (h0 : ∀ j, IsReal (x0 j)) (h1 : ∀ j, IsReal (x1 j)) (h2 : ∀ j, IsReal (x2 j)) (h3 : ∀ j, IsReal (x3 j))
    (B : Fin N) (k : Fin 128) :
    outJoinedAt z x0 x1 x2 x3 x4 x5 B k = outSplitAt z x0 x1 x2 x3 x4 x5 B k := by
  have hctx : (fun i => attendJoined z (vrow x1 B) (rowsAt (Wn x2) (bn x3) (join (qq0 x0 B) (vrow x1 B)) (i + 1)))
      = fun i => attendSplit z (vrow x1 B) (qqAt (Wn x2) (bn x3) (qq0 x0 B) (i + 1))
          (qeAt (Wn x2) (bn x3) (vrow x1 B) (i + 1)) := by
    funext i
    rw [rowsAt_join]
    exact attendJoined_join z hz _ _ _ (fun h => h1 _)
      (isReal_qqAt _ _ _ (isReal_Wn x2 h2) (isReal_bn x3 h3) (fun n h => h0 _) (i + 1))
      (isReal_qeAt _ _ _ (isReal_Wn x2 h2) (isReal_bn x3 h3) (fun h => h1 _) (i + 1))
  unfold outJoinedAt outSplitAt
  rw [hctx]

/-- On real inputs the two arrangements give the same result array. -/
theorem outJoined_eq_outSplit (z : EReal) (hz : z = ⊥)
    (x0 : (⟨3, ![8192, 64, 128]⟩ : Shape).Idx → EReal) (x1 : (⟨3, ![8192, 1, 128]⟩ : Shape).Idx → EReal)
    (x2 : (⟨3, ![8, 128, 128]⟩ : Shape).Idx → EReal) (x3 : (⟨2, ![8, 128]⟩ : Shape).Idx → EReal)
    (x4 : (⟨2, ![1024, 128]⟩ : Shape).Idx → EReal) (x5 : (⟨1, ![128]⟩ : Shape).Idx → EReal)
    (h0 : ∀ j, IsReal (x0 j)) (h1 : ∀ j, IsReal (x1 j)) (h2 : ∀ j, IsReal (x2 j)) (h3 : ∀ j, IsReal (x3 j)) :
    outJoined z x0 x1 x2 x3 x4 x5 = outSplit z x0 x1 x2 x3 x4 x5 := by
  funext j
  exact outJoinedAt_eq_outSplitAt z hz x0 x1 x2 x3 x4 x5 h0 h1 h2 h3 (j 0) (j 2)

end Cert.Heads

end
-- ==== Proof.LibRankThreeForms.lean ====
/-
  Layout operations on rank-3 arrays read at an index given by coordinates: a middle or trailing unit axis added,
  dropped or broadcast, the two leading axes merged into one or split again, and a slice along the last axis.
  Each is the general reading of a shape cast (equal row-major positions), a broadcast (the unit axis reads
  coordinate 0) or a slice (the offset is added) specialised to indices written by their coordinates.
-/
import Idealize.ShloMosaic.Lib.ValueIdx
import Idealize.ShloMosaic.Lib.Pipeline.Value

namespace Idealize.ShloMosaic.ValueIdx

open Idealize.ShloMosaic

variable {α : Type}

/-- Splitting the leading axis of an [a·b, c] array into [a, b, c]: entry (r, n, k) is entry (r·b + n, k). -/
theorem shapeCast_pc_abc_apply {a b c ab : ℕ} (x : (⟨2, ![ab, c]⟩ : Shape).Idx → α)
    (h : (⟨2, ![ab, c]⟩ : Shape).ShapeCasts ⟨3, ![a, b, c]⟩) (r : Fin a) (n : Fin b) (k : Fin c) (p : Fin ab)
    (hp : p.val = r.val * b + n.val) : shapeCast ⟨3, ![a, b, c]⟩ x h (ix3 r n k) = x (ix2 p k) :=
  shapeCast_apply x h _ _ (by
    rw [Shape.rowMajor_val_three, Shape.rowMajor_val_two]
    show p.val * c + k.val = (r.val * b + n.val) * c + k.val
    rw [hp])

/-- Merging the two leading axes of an [a, b, c] array into [a·b, c]: entry (r·b + n, k) is entry (r, n, k). -/
theorem shapeCast_abc_pc_apply {a b c ab : ℕ} (x : (⟨3, ![a, b, c]⟩ : Shape).Idx → α)
    (h : (⟨3, ![a, b, c]⟩ : Shape).ShapeCasts ⟨2, ![ab, c]⟩) (r : Fin a) (n : Fin b) (k : Fin c) (p : Fin ab)
    (hp : p.val = r.val * b + n.val) : shapeCast ⟨2, ![ab, c]⟩ x h (ix2 p k) = x (ix3 r n k) :=
  shapeCast_apply x h _ _ (by
    rw [Shape.rowMajor_val_three, Shape.rowMajor_val_two]
    show (r.val * b + n.val) * c + k.val = p.val * c + k.val
    rw [hp])

/-- A unit axis put in the middle of an [a, c] array: entry (r, u, k) of the [a, 1, c] array is entry (r, k). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (k : Fin c) :
    shapeCast ⟨3, ![a, 1, c]⟩ x h (ix3 r u k) = x (ix2 r k) :=
  shapeCast_apply x h _ _ (by
    have hu : u.val = 0 := by omega
    rw [Shape.rowMajor_val_three, Shape.rowMajor_val_two]
    show r.val * c + k.val = (r.val * 1 + u.val) * c + k.val
    rw [hu, Nat.mul_one, Nat.add_zero])

/-- A middle unit axis broadcast to length b: entry (r, n, k) reads entry (r, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (n : Fin b) (k : Fin c) :
    broadcastTo ⟨3, ![a, b, c]⟩ x h (ix3 r n k) = x (ix3 r (0 : Fin 1) k) := by
  refine broadcastTo_apply x h (ix3 r n k) (ix3 r (0 : Fin 1) k) fun ax => ?_
  match ax with
  | ⟨0, _⟩ =>
    show r.val = if a = 1 then 0 else r.val
    split
    · omega
    · rfl
  | ⟨1, _⟩ => rfl
  | ⟨2, _⟩ =>
    show k.val = if c = 1 then 0 else k.val
    split
    · omega
    · rfl

/-- A trailing unit axis dropped: entry (r, n) of the [a, b] array is entry (r, n, 0) of the [a, b, 1] one. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- A trailing unit axis added: entry (r, n, u) of the [a, b, 1] array is entry (r, n) of the [a, b] one. -/
theorem shapeCast_ab_ab1_apply {a b : ℕ} (x : (⟨2, ![a, b]⟩ : Shape).Idx → α)
    (h : (⟨2, ![a, b]⟩ : Shape).ShapeCasts ⟨3, ![a, b, 1]⟩) (r : Fin a) (n : Fin b) (u : Fin 1) :
    shapeCast ⟨3, ![a, b, 1]⟩ x h (ix3 r n u) = x (ix2 r n) :=
  shapeCast_apply x h _ _ (by
    have hu : u.val = 0 := by omega
    rw [Shape.rowMajor_val_three, Shape.rowMajor_val_two]
    show r.val * b + n.val = (r.val * b + n.val) * 1 + u.val
    rw [hu, Nat.mul_one, Nat.add_zero])

/-- A trailing unit axis broadcast to length c: entry (r, n, k) reads entry (r, n, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (n : Fin b) (k : Fin c) :
    broadcastTo ⟨3, ![a, b, c]⟩ x h (ix3 r n k) = x (ix3 r n (0 : Fin 1)) := by
  refine broadcastTo_apply x h (ix3 r n k) (ix3 r n (0 : Fin 1)) fun ax => ?_
  match ax with
  | ⟨0, _⟩ =>
    show r.val = if a = 1 then 0 else r.val
    split
    · omega
    · rfl
  | ⟨1, _⟩ =>
    show n.val = if b = 1 then 0 else n.val
    split
    · omega
    · rfl
  | ⟨2, _⟩ => rfl

/-- A rank-3 array cut along its last axis from `o` reads, at (r, n, j), the source at (r, n, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (n : Fin n1) (j : Fin m) (k : Fin n2) (hk : k.val = o + j.val) :
    extractStridedSlice ⟨3, ![n0, n1, m]⟩ ![0, 0, o] X h (ix3 r n j) = X (ix3 r n k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.LibMiddleUnitAxis.lean ====
/-
  A middle unit axis dropped, read at an index: an [a, 1, c] array cast to [a, c] holds at (r, k) what the source
  holds at (r, 0, k), both sitting at row-major position r·c + k.  (The library reads a LEADING unit axis dropped;
  a slice of one sample out of an [a, s, c] block arrives with the unit axis in the middle.)
-/
import Idealize.ShloMosaic.Lib.Pipeline.Value
import Idealize.ShloMosaic.Lib.ValueIdx

namespace Idealize.ShloMosaic.ValueLayout

open Idealize.ShloMosaic Idealize.ShloMosaic.ValueIdx

variable {α : Type}

/-- Entry (r, k) of the [a, c] array is entry (r, 0, k) of the [a, 1, c] one. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

end Idealize.ShloMosaic.ValueLayout
-- ==== Proof.PayForms.lean ====
/-
  The pure terms of the kernel's body read at an index, on the extended reals.

  The kernel works on a block of 128 batch rows.  Each batch row carries 64 neighbour rows and one extra row of
  length 128, and a fixed vector of length 128.  A head first sends every row through a dense layer (a product with
  a 128 × 128 weight plus a bias), then scores every row against the fixed vector (an inner product), takes the
  softmax of the 65 scores — the 64 neighbour scores and the extra one kept apart: the running maximum, the
  exponentials, their sum, the reciprocal of the sum — and returns the weighted sum of the 65 rows.  The eight
  heads' results side by side go through an output layer (a product with a 1024 × 128 weight plus a bias) and a
  rectifier.

  On the extended reals a change of number format is the identity, a matrix product into a zero accumulator is the
  plain sum over the contracted coordinate, a sum-reduction along one axis is the plain sum over that axis's
  coordinates and a maximum-reduction the fold of `max` over them.  The layout operations in between (unit axes
  added, dropped or broadcast, two axes merged or split) only rename coordinates.  Each statement below reads one
  term at given coordinates and says which per-row quantity it is.
-/
import proofs.«167954_j46170898432679_2_alg».proof.Proof.Gen.KernelIdeal.Skeleton
import proofs.«167954_j46170898432679_2_alg».proof.Proof.HeadStep
import proofs.«167954_j46170898432679_2_alg».proof.Proof.LibRankThreeForms
import proofs.«167954_j46170898432679_2_alg».proof.Proof.LibColumnForms
import proofs.«167954_j46170898432679_2_alg».proof.Proof.LibMiddleUnitAxis
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

namespace Cert.KernelIdeal.PayForms

open Cert.KernelIdeal Cert.KernelIdeal.Gen Idealize.ShloMosaic Idealize.ShloMosaic.ValueIdx

/-! ## The fixed vector -/

/-- the fixed vector: the [128,1,128] block with its unit axis dropped -/
theorem pay3_apply (x1b : Vec Ideal S128x1x128 .f32) (r h : Fin 128) :
    k0_pay3 (F := Ideal) x1b (ix2 r h) = x1b (ix3 r (0 : Fin 1) h) := by
  unfold k0_pay3
  exact ValueLayout.shapeCast_a1c_ac_apply x1b shapeCasts_S128x1x128_S128x128 r h

/-! ## Matrix products into a zero accumulator -/

theorem mmE_l0 (i : S128x128.Idx) (q : dot_S128x128_S128x128_S128x128_1_0_0_1_n_n.contr.Idx) : (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem mmE_l1 (i : S128x128.Idx) (q : dot_S128x128_S128x128_S128x128_1_0_0_1_n_n.contr.Idx) : (dot_S128x128_S128x128_S128x128_1_0_0_1_n_n.lhsIdx i q 1).val = (q ⟨0, by decide⟩).val :=
  dot_S128x128_S128x128_S128x128_1_0_0_1_n_n.lhsIdx_val_of_single rfl i q
theorem mmE_r0 (i : S128x128.Idx) (q : dot_S128x128_S128x128_S128x128_1_0_0_1_n_n.contr.Idx) : (dot_S128x128_S128x128_S128x128_1_0_0_1_n_n.rhsIdx i q 0).val = (q ⟨0, by decide⟩).val :=
  dot_S128x128_S128x128_S128x128_1_0_0_1_n_n.rhsIdx_val_of_single rfl i q
theorem mmE_r1 (i : S128x128.Idx) (q : dot_S128x128_S128x128_S128x128_1_0_0_1_n_n.contr.Idx) : (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- A product of an [128, 128] array with a [128, 128] one accumulated into zero: entry (r, k) is the sum over the
    contracted coordinate h of the products of entries (r, h) and (h, k). -/
theorem mmE_apply {φ₁ φ₂ : FTy} (A : FVec Ideal S128x128 φ₁) (B : FVec Ideal S128x128 φ₂) (r : Fin 128) (k : Fin 128) :
    matmul dot_S128x128_S128x128_S128x128_1_0_0_1_n_n none A B (constant (F := Ideal) S128x128 .f32 0x00000000#32) (ix2 r k)
      = ∑ h : Fin 128, A (ix2 r h) * B (ix2 h k) := by
  simp only [matmul]
  rw [Ideal.matmul_constant_zero_apply, ← Equiv.sum_comp (contrEquiv1 dot_S128x128_S128x128_S128x128_1_0_0_1_n_n 128 rfl rfl).symm]
  refine Finset.sum_congr rfl fun h _ => ?_
  have hk := contrEquiv1_symm_val dot_S128x128_S128x128_S128x128_1_0_0_1_n_n 128 rfl rfl h
  have el : dot_S128x128_S128x128_S128x128_1_0_0_1_n_n.lhsIdx (ix2 r k) ((contrEquiv1 dot_S128x128_S128x128_S128x128_1_0_0_1_n_n 128 rfl rfl).symm h) = ix2 r h :=
    funext fun a => Fin.ext (by
      match a with
      | ⟨0, _⟩ => exact mmE_l0 _ _
      | ⟨1, _⟩ => exact (mmE_l1 _ _).trans hk)
  have er : dot_S128x128_S128x128_S128x128_1_0_0_1_n_n.rhsIdx (ix2 r k) ((contrEquiv1 dot_S128x128_S128x128_S128x128_1_0_0_1_n_n 128 rfl rfl).symm h) = ix2 h k :=
    funext fun a => Fin.ext (by
      match a with
      | ⟨0, _⟩ => exact (mmE_r0 _ _).trans hk
      | ⟨1, _⟩ => exact mmE_r1 _ _)
  rw [el, er]

theorem mmQ_l0 (i : S8192x128.Idx) (q : dot_S8192x128_S128x128_S8192x128_1_0_0_1_n_n.contr.Idx) : (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem mmQ_l1 (i : S8192x128.Idx) (q : dot_S8192x128_S128x128_S8192x128_1_0_0_1_n_n.contr.Idx) : (dot_S8192x128_S128x128_S8192x128_1_0_0_1_n_n.lhsIdx i q 1).val = (q ⟨0, by decide⟩).val :=
  dot_S8192x128_S128x128_S8192x128_1_0_0_1_n_n.lhsIdx_val_of_single rfl i q
theorem mmQ_r0 (i : S8192x128.Idx) (q : dot_S8192x128_S128x128_S8192x128_1_0_0_1_n_n.contr.Idx) : (dot_S8192x128_S128x128_S8192x128_1_0_0_1_n_n.rhsIdx i q 0).val = (q ⟨0, by decide⟩).val :=
  dot_S8192x128_S128x128_S8192x128_1_0_0_1_n_n.rhsIdx_val_of_single rfl i q
theorem mmQ_r1 (i : S8192x128.Idx) (q : dot_S8192x128_S128x128_S8192x128_1_0_0_1_n_n.contr.Idx) : (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- A product of an [8192, 128] array with a [128, 128] one accumulated into zero: entry (r, k) is the sum over the
    contracted coordinate h of the products of entries (r, h) and (h, k). -/
theorem mmQ_apply {φ₁ φ₂ : FTy} (A : FVec Ideal S8192x128 φ₁) (B : FVec Ideal S128x128 φ₂) (r : Fin 8192) (k : Fin 128) :
    matmul dot_S8192x128_S128x128_S8192x128_1_0_0_1_n_n none A B (constant (F := Ideal) S8192x128 .f32 0x00000000#32) (ix2 r k)
      = ∑ h : Fin 128, A (ix2 r h) * B (ix2 h k) := by
  simp only [matmul]
  rw [Ideal.matmul_constant_zero_apply, ← Equiv.sum_comp (contrEquiv1 dot_S8192x128_S128x128_S8192x128_1_0_0_1_n_n 128 rfl rfl).symm]
  refine Finset.sum_congr rfl fun h _ => ?_
  have hk := contrEquiv1_symm_val dot_S8192x128_S128x128_S8192x128_1_0_0_1_n_n 128 rfl rfl h
  have el : dot_S8192x128_S128x128_S8192x128_1_0_0_1_n_n.lhsIdx (ix2 r k) ((contrEquiv1 dot_S8192x128_S128x128_S8192x128_1_0_0_1_n_n 128 rfl rfl).symm h) = ix2 r h :=
    funext fun a => Fin.ext (by
      match a with
      | ⟨0, _⟩ => exact mmQ_l0 _ _
      | ⟨1, _⟩ => exact (mmQ_l1 _ _).trans hk)
  have er : dot_S8192x128_S128x128_S8192x128_1_0_0_1_n_n.rhsIdx (ix2 r k) ((contrEquiv1 dot_S8192x128_S128x128_S8192x128_1_0_0_1_n_n 128 rfl rfl).symm h) = ix2 h k :=
    funext fun a => Fin.ext (by
      match a with
      | ⟨0, _⟩ => exact (mmQ_r0 _ _).trans hk
      | ⟨1, _⟩ => exact mmQ_r1 _ _)
  rw [el, er]

theorem mmO_l0 (i : S128x128.Idx) (q : dot_S128x1024_S1024x128_S128x128_1_0_0_1_n_n.contr.Idx) : (dot_S128x1024_S1024x128_S128x128_1_0_0_1_n_n.lhsIdx i q 0).val = (i 0).val := by
  unfold DotDims.lhsIdx
  rw [dif_neg (show ¬(0 : Fin S128x1024.rank) ∈ dot_S128x1024_S1024x128_S128x128_1_0_0_1_n_n.lhsBatch by decide), dif_pos (show (0 : Fin S128x1024.rank) ∈ dot_S128x1024_S1024x128_S128x128_1_0_0_1_n_n.lhsNonContracting by decide)]
  rfl
theorem mmO_l1 (i : S128x128.Idx) (q : dot_S128x1024_S1024x128_S128x128_1_0_0_1_n_n.contr.Idx) : (dot_S128x1024_S1024x128_S128x128_1_0_0_1_n_n.lhsIdx i q 1).val = (q ⟨0, by decide⟩).val :=
  dot_S128x1024_S1024x128_S128x128_1_0_0_1_n_n.lhsIdx_val_of_single rfl i q
theorem mmO_r0 (i : S128x128.Idx) (q : dot_S128x1024_S1024x128_S128x128_1_0_0_1_n_n.contr.Idx) : (dot_S128x1024_S1024x128_S128x128_1_0_0_1_n_n.rhsIdx i q 0).val = (q ⟨0, by decide⟩).val :=
  dot_S128x1024_S1024x128_S128x128_1_0_0_1_n_n.rhsIdx_val_of_single rfl i q
theorem mmO_r1 (i : S128x128.Idx) (q : dot_S128x1024_S1024x128_S128x128_1_0_0_1_n_n.contr.Idx) : (dot_S128x1024_S1024x128_S128x128_1_0_0_1_n_n.rhsIdx i q 1).val = (i 1).val := by
  unfold DotDims.rhsIdx
  rw [dif_neg (show ¬(1 : Fin S1024x128.rank) ∈ dot_S128x1024_S1024x128_S128x128_1_0_0_1_n_n.rhsBatch by decide), dif_pos (show (1 : Fin S1024x128.rank) ∈ dot_S128x1024_S1024x128_S128x128_1_0_0_1_n_n.rhsNonContracting by decide)]
  rfl

/-- A product of an [128, 1024] array with a [1024, 128] one accumulated into zero: entry (r, k) is the sum over the
    contracted coordinate h of the products of entries (r, h) and (h, k). -/
theorem mmO_apply {φ₁ φ₂ : FTy} (A : FVec Ideal S128x1024 φ₁) (B : FVec Ideal S1024x128 φ₂) (r : Fin 128) (k : Fin 128) :
    matmul dot_S128x1024_S1024x128_S128x128_1_0_0_1_n_n none A B (constant (F := Ideal) S128x128 .f32 0x00000000#32) (ix2 r k)
      = ∑ h : Fin 1024, A (ix2 r h) * B (ix2 h k) := by
  simp only [matmul]
  rw [Ideal.matmul_constant_zero_apply, ← Equiv.sum_comp (contrEquiv1 dot_S128x1024_S1024x128_S128x128_1_0_0_1_n_n 1024 rfl rfl).symm]
  refine Finset.sum_congr rfl fun h _ => ?_
  have hk := contrEquiv1_symm_val dot_S128x1024_S1024x128_S128x128_1_0_0_1_n_n 1024 rfl rfl h
  have el : dot_S128x1024_S1024x128_S128x128_1_0_0_1_n_n.lhsIdx (ix2 r k) ((contrEquiv1 dot_S128x1024_S1024x128_S128x128_1_0_0_1_n_n 1024 rfl rfl).symm h) = ix2 r h :=
    funext fun a => Fin.ext (by
      match a with
      | ⟨0, _⟩ => exact mmO_l0 _ _
      | ⟨1, _⟩ => exact (mmO_l1 _ _).trans hk)
  have er : dot_S128x1024_S1024x128_S128x128_1_0_0_1_n_n.rhsIdx (ix2 r k) ((contrEquiv1 dot_S128x1024_S1024x128_S128x128_1_0_0_1_n_n 1024 rfl rfl).symm h) = ix2 h k :=
    funext fun a => Fin.ext (by
      match a with
      | ⟨0, _⟩ => exact (mmO_r0 _ _).trans hk
      | ⟨1, _⟩ => exact mmO_r1 _ _)
  rw [el, er]

/-! ## The dense layer -/

/-- The weight block [1,128,128] with its leading unit axis dropped and its format narrowed (the identity on
    extended reals): entry (h, k) is the block's entry (0, h, k). -/
theorem pay5_apply (W1 : Vec Ideal S1x128x128 .f32) (h k : Fin 128) :
    k0_pay5 (F := Ideal) W1 (ix2 h k) = W1 (ix3 (0 : Fin 1) h k) := by
  unfold k0_pay5
  rw [truncf_apply]
  exact shapeCast_1ab_ab_apply W1 shapeCasts_S1x128x128_S128x128 h k

/-- The bias block [1,128] with its unit axis dropped: entry k is the block's entry (0, k). -/
theorem pay6_apply (b1 : Vec Ideal S1x128 .f32) (k : Fin 128) :
    k0_pay6 (F := Ideal) b1 (ix1 k) = b1 (ix2 (0 : Fin 1) k) := by
  unfold k0_pay6
  exact shapeCast_1a_a_apply b1 shapeCasts_S1x128_S128 k

/-- the dense layer on the extra row -/
theorem payE_apply (W1 : Vec Ideal S1x128x128 .f32) (b1 : Vec Ideal S1x128 .f32) (qe : Vec Ideal S128x128 .f32) (r k : Fin 128) :
    k0_pay10 (F := Ideal) (k0_pay8 W1 qe) (k0_pay9 b1) (ix2 r k)
      = Cert.Heads.proj (fun h k' => W1 (ix3 (0 : Fin 1) h k')) (fun k' => b1 (ix2 (0 : Fin 1) k')) (fun h => qe (ix2 r h)) k := by
  unfold k0_pay10 k0_pay8 k0_pay9 Cert.Heads.proj
  rw [shapeCast_self, addf_apply, mmE_apply, broadcastTo_1b_ab_apply, shapeCast_a_1a_apply, pay6_apply]
  refine congrArg (· + _) (Finset.sum_congr rfl fun h _ => ?_)
  rw [truncf_apply, pay5_apply]

/-- the dense layer on the 64 neighbour rows of every batch row of the block -/
theorem pay7_apply (W1 : Vec Ideal S1x128x128 .f32) (b1 : Vec Ideal S1x128 .f32) (qq : Vec Ideal S128x64x128 .f32)
    (r : Fin 128) (n : Fin 64) (k : Fin 128) :
    k0_pay7 (F := Ideal) W1 b1 qq (ix3 r n k)
      = Cert.Heads.proj (fun h k' => W1 (ix3 (0 : Fin 1) h k')) (fun k' => b1 (ix2 (0 : Fin 1) k')) (fun h => qq (ix3 r n h)) k := by
  have hp : r.val * 64 + n.val < 8192 := by have := r.isLt; have := n.isLt; omega
  unfold k0_pay7 Cert.Heads.proj
  rw [shapeCast_self,
    shapeCast_pc_abc_apply _ shapeCasts_S8192x128_S128x64x128 r n k (⟨r.val * 64 + n.val, hp⟩ : Fin 8192) rfl,
    addf_apply, mmQ_apply, broadcastTo_1b_ab_apply, shapeCast_a_1a_apply, pay6_apply]
  refine congrArg (· + _) (Finset.sum_congr rfl fun h _ => ?_)
  rw [truncf_apply, pay5_apply,
    shapeCast_abc_pc_apply qq shapeCasts_S128x64x128_S8192x128 r n h (⟨r.val * 64 + n.val, hp⟩ : Fin 8192) rfl]

/-! ## The output layer -/

/-- the output layer and the rectifier on the eight contexts side by side -/
theorem payOut_apply (ctxb : Vec Ideal S128x1024 .f32) (wo : Vec Ideal S1024x128 .f32) (bo : Vec Ideal S128 .f32) (r k : Fin 128) :
    k0_pay1 (F := Ideal) (k0_pay73 ctxb wo) (k0_pay74 bo) (ix3 r (0 : Fin 1) k)
      = max ((∑ c : Fin 1024, ctxb (ix2 r c) * wo (ix2 c k)) + bo (ix1 k)) 0 := by
  unfold k0_pay1 k0_pay73 k0_pay74
  rw [shapeCast_ac_a1c_apply, maximumf_apply, addf_apply, mmO_apply, broadcastTo_1b_ab_apply, shapeCast_a_1a_apply,
    broadcast_apply]
  refine congrArg₂ max (congrArg (· + _) (Finset.sum_congr rfl fun c _ => ?_)) Ideal.ofBits_zero_f32
  rw [truncf_apply, truncf_apply]

/-! ## One head's context

The body's term for a head's context is long; it is cut here into the quantities a softmax is made of, each a
function of the fixed vectors `v`, the neighbour rows `qq` and the extra rows `qe` of the whole block, and each read
at a batch row `r`. -/

noncomputable section Head
variable (v : FVec Ideal S128x128 .f32) (qq : FVec Ideal S128x64x128 .f32) (qe : FVec Ideal S128x128 .f32)

/-- The 64 neighbour scores of every batch row: the neighbour rows times the fixed vector, summed along the last axis. -/
def scores : FVec Ideal S128x64 .f32 :=
  multiReduction .add [2] S128x64
    (mulf qq (broadcastTo S128x64x128 (shapeCast S128x1x128 v shapeCasts_S128x128_S128x1x128) broadcasts_S128x1x128_S128x64x128))
    0x00000000#32 reduces_S128x64x128_S128x64 (.inl rfl) rfl

/-- The extra row's score of every batch row, as a column. -/
def scoreE : FVec Ideal S128x1 .f32 :=
  shapeCast S128x1 (multiReduction .add [1] S128 (mulf qe v) 0x00000000#32 reduces_S128x128_S128 (.inl rfl) rfl) shapeCasts_S128_S128x1

/-- The largest of the 65 scores of every batch row, as a column: the 64 neighbour scores' maximum, then the extra one. -/
def mx : FVec Ideal S128x1 .f32 :=
  maximumf
    (shapeCast S128x1 (multiReduction .maximumf [1] S128 (scores v qq) 0xFF800000#32 reduces_S128x64_S128 (.inl rfl) rfl) shapeCasts_S128_S128x1)
    (scoreE v qe)

/-- The exponentials of the neighbour scores less the maximum. -/
def ex : FVec Ideal S128x64 .f32 :=
  exp (subf (scores v qq) (broadcastTo S128x64 (mx v qq qe) broadcasts_S128x1_S128x64))

/-- The exponential of the extra score less the maximum, as a column. -/
def exE : FVec Ideal S128x1 .f32 := exp (subf (scoreE v qe) (mx v qq qe))

/-- The normalising sum of every batch row, as a column: the 64 neighbour exponentials' sum, then the extra one. -/
def tot : FVec Ideal S128x1 .f32 :=
  addf (shapeCast S128x1 (multiReduction .add [1] S128 (ex v qq qe) 0x00000000#32 reduces_S128x64_S128 (.inl rfl) rfl) shapeCasts_S128_S128x1)
    (exE v qq qe)

/-- The reciprocal of the normalising sum, as a column. -/
def rcp : FVec Ideal S128x1 .f32 := divf (broadcast S128x1 (Scalar.ofBits .f32 0x3F800000#32)) (tot v qq qe)

/-- The body's term is these quantities put together: the neighbour weights times the neighbour rows summed along the
    middle axis, plus the extra weight times the extra row. -/
theorem pay11_eq : k0_pay11 (F := Ideal) v qq qe
    = shapeCast S128x128
        (addf
          (multiReduction .add [1] S128x128
            (mulf
              (broadcastTo S128x64x128
                (shapeCast S128x64x1 (mulf (ex v qq qe) (broadcastTo S128x64 (rcp v qq qe) broadcasts_S128x1_S128x64))
                  shapeCasts_S128x64_S128x64x1)
                broadcasts_S128x64x1_S128x64x128)
              qq)
            0x00000000#32 reduces_S128x64x128_S128x128 (.inl rfl) rfl)
          (mulf (broadcastTo S128x128 (mulf (exE v qq qe) (rcp v qq qe)) broadcasts_S128x1_S128x128) qe))
        shapeCasts_S128x128_S128x128 := rfl

end Head

/-! ### The quantities at a batch row -/

section HeadAt
variable (v : FVec Ideal S128x128 .f32) (qq : FVec Ideal S128x64x128 .f32) (qe : FVec Ideal S128x128 .f32) (r : Fin 128)

/-- Neighbour score n of batch row r is the inner product of neighbour row n with the fixed vector. -/
theorem scores_apply (n : Fin 64) :
    scores v qq (ix2 r n) = Cert.Heads.score (fun h => v (ix2 r h)) (fun h => qq (ix3 r n h)) := by
  unfold scores Cert.Heads.score
  refine (Ideal.multiReduction_add_single _ _ reduces_S128x64x128_S128x64 _ _ (ix2 r n)).trans ?_
  refine Finset.sum_congr rfl fun (h : Fin 128) _ => ?_
  have hl : reduces_S128x64x128_S128x64.lift (ix2 r n) h = ix3 r n h :=
    funext fun c => Fin.ext (by match c with | ⟨0, _⟩ => rfl | ⟨1, _⟩ => rfl | ⟨2, _⟩ => rfl)
  rw [hl, mulf_apply, broadcastTo_a1c_abc_apply, shapeCast_ac_a1c_apply]

/-- The extra score of batch row r is the inner product of the extra row with the fixed vector. -/
theorem scoreE_apply (u : Fin 1) :
    scoreE v qe (ix2 r u) = Cert.Heads.score (fun h => v (ix2 r h)) (fun h => qe (ix2 r h)) := by
  unfold scoreE Cert.Heads.score
  rw [ValueLayout.shapeCast_a_a1_apply]
  refine (Ideal.multiReduction_add_single _ _ reduces_S128x128_S128 _ _ (ix1 r)).trans ?_
  refine Finset.sum_congr rfl fun (h : Fin 128) _ => ?_
  have hl : reduces_S128x128_S128.lift (ix1 r) h = ix2 r h :=
    funext fun c => Fin.ext (by match c with | ⟨0, _⟩ => rfl | ⟨1, _⟩ => rfl)
  rw [hl, mulf_apply]

end HeadAt

section HeadAt2
variable (v : FVec Ideal S128x128 .f32) (qq : FVec Ideal S128x64x128 .f32) (qe : FVec Ideal S128x128 .f32) (r : Fin 128)

/-- The largest score of batch row r: the 64 neighbour scores folded from the value the reduction starts at, then
    the extra score. -/
theorem mx_apply (u : Fin 1) :
    mx v qq qe (ix2 r u)
      = Cert.Heads.mxSplit (Ideal.ofBits .f32 0xFF800000#32) (fun h => v (ix2 r h)) (fun n h => qq (ix3 r n h)) (fun h => qe (ix2 r h)) := by
  unfold mx Cert.Heads.mxSplit
  rw [maximumf_apply, ValueLayout.shapeCast_a_a1_apply, scoreE_apply]
  refine congrArg (max · _) ?_
  refine (Ideal.multiReduction_maximumf_single _ _ reduces_S128x64_S128 _ _ (ix1 r)).trans ?_
  refine congrArg (fun f : Fin 64 → EReal => Finset.fold max (Ideal.ofBits .f32 0xFF800000#32) f Finset.univ) ?_
  refine funext fun (n : Fin 64) => ?_
  have hl : reduces_S128x64_S128.lift (ix1 r) n = ix2 r n :=
    funext fun c => Fin.ext (by match c with | ⟨0, _⟩ => rfl | ⟨1, _⟩ => rfl)
  show scores v qq (reduces_S128x64_S128.lift (ix1 r) n) = _
  rw [hl, scores_apply]

/-- Neighbour exponential n of batch row r. -/
theorem ex_apply (n : Fin 64) :
    ex v qq qe (ix2 r n)
      = Ideal.exp (Cert.Heads.score (fun h => v (ix2 r h)) (fun h => qq (ix3 r n h))
          - Cert.Heads.mxSplit (Ideal.ofBits .f32 0xFF800000#32) (fun h => v (ix2 r h)) (fun n h => qq (ix3 r n h)) (fun h => qe (ix2 r h))) := by
  unfold ex
  show Ideal.exp (subf (scores v qq) (broadcastTo S128x64 (mx v qq qe) broadcasts_S128x1_S128x64) (ix2 r n)) = _
  rw [subf_apply, ValueLayout.broadcastTo_a1_ab_apply, scores_apply, mx_apply]

/-- The extra exponential of batch row r. -/
theorem exE_apply (u : Fin 1) :
    exE v qq qe (ix2 r u)
      = Ideal.exp (Cert.Heads.score (fun h => v (ix2 r h)) (fun h => qe (ix2 r h))
          - Cert.Heads.mxSplit (Ideal.ofBits .f32 0xFF800000#32) (fun h => v (ix2 r h)) (fun n h => qq (ix3 r n h)) (fun h => qe (ix2 r h))) := by
  unfold exE
  show Ideal.exp (subf (scoreE v qe) (mx v qq qe) (ix2 r u)) = _
  rw [subf_apply, scoreE_apply, mx_apply]

/-- The normalising sum of batch row r. -/
theorem tot_apply (u : Fin 1) :
    tot v qq qe (ix2 r u)
      = Cert.Heads.sumSplit (Ideal.ofBits .f32 0xFF800000#32) (fun h => v (ix2 r h)) (fun n h => qq (ix3 r n h)) (fun h => qe (ix2 r h)) := by
  unfold tot Cert.Heads.sumSplit
  rw [addf_apply, ValueLayout.shapeCast_a_a1_apply, exE_apply]
  refine congrArg (· + _) ?_
  refine (Ideal.multiReduction_add_single _ _ reduces_S128x64_S128 _ _ (ix1 r)).trans ?_
  refine Finset.sum_congr rfl fun (n : Fin 64) _ => ?_
  have hl : reduces_S128x64_S128.lift (ix1 r) n = ix2 r n :=
    funext fun c => Fin.ext (by match c with | ⟨0, _⟩ => rfl | ⟨1, _⟩ => rfl)
  rw [hl, ex_apply]

/-- The reciprocal of the normalising sum of batch row r. -/
theorem rcp_apply (u : Fin 1) :
    rcp v qq qe (ix2 r u)
      = Ideal.div 1 (Cert.Heads.sumSplit (Ideal.ofBits .f32 0xFF800000#32) (fun h => v (ix2 r h)) (fun n h => qq (ix3 r n h)) (fun h => qe (ix2 r h))) := by
  unfold rcp
  rw [divf_apply, broadcast_apply, tot_apply]
  exact congrArg (Ideal.div · _) Ideal.ofBits_one_f32

end HeadAt2

/-- one head's context, the 64 neighbour rows and the extra row kept apart -/
theorem pay11_apply (v : FVec Ideal S128x128 .f32) (qq : Vec Ideal S128x64x128 .f32) (qe : Vec Ideal S128x128 .f32) (r k : Fin 128) :
    k0_pay11 (F := Ideal) v qq qe (ix2 r k)
      = Cert.Heads.attendSplit (Ideal.ofBits .f32 0xFF800000#32) (fun h => v (ix2 r h)) (fun n h => qq (ix3 r n h)) (fun h => qe (ix2 r h)) k := by
  rw [pay11_eq]
  unfold Cert.Heads.attendSplit
  rw [shapeCast_self, addf_apply, mulf_apply, ValueLayout.broadcastTo_a1_ab_apply, mulf_apply, exE_apply, rcp_apply]
  refine congrArg (· + _) ?_
  refine (Ideal.multiReduction_add_single _ _ reduces_S128x64x128_S128x128 _ _ (ix2 r k)).trans ?_
  refine Finset.sum_congr rfl fun (n : Fin 64) _ => ?_
  have hl : reduces_S128x64x128_S128x128.lift (ix2 r k) n = ix3 r n k :=
    funext fun c => Fin.ext (by match c with | ⟨0, _⟩ => rfl | ⟨1, _⟩ => rfl | ⟨2, _⟩ => rfl)
  rw [hl, mulf_apply, broadcastTo_ab1_abc_apply, shapeCast_ab_ab1_apply, mulf_apply, ValueLayout.broadcastTo_a1_ab_apply,
    ex_apply, rcp_apply]

end Cert.KernelIdeal.PayForms
-- ==== Proof.KernelChain.lean ====
/-
  What the kernel's body leaves in its output block, entry by entry.

  At a grid point the body is given a block of 128 batch rows: their 64 neighbour rows (x0), their extra row (x1), and the
  whole weights and biases (x2 … x5). It runs the eight heads one after the other on two running arrays — the neighbour rows and
  the extra row, each sent through head i's dense layer before head i's scores are taken — writes head i's context into columns
  128·i … 128·i+127 of a [128, 1024] array, and finally sends that array through the output layer and the rectifier.

  This module reads the frame run's one output piece as exactly that: `block_value` says the entry (r, 0, k) of the output block is
  the specification's `outSplitAt` at batch row r of the blocks given. The pure terms the body is cut into do not follow the heads;
  the first section shows each head's terms to be head 0's three functions (dense layer on the neighbour rows, dense layer on the
  extra row, context) of that head's operands. The second follows the rows up the chain of heads (`QQRel`, `QERel`: the running
  arrays after i heads are the specification's `qqAt`, `qeAt`). The third reads the eight column slabs back as one function of
  the array's index (`ctxAll`) and assembles.
-/
import proofs.«167954_j46170898432679_2_alg».proof.Proof.Gen.KernelIdeal.Frame
import proofs.«167954_j46170898432679_2_alg».proof.Proof.HeadStep
import Idealize.ShloMosaic.Lib.WholeRead
import Idealize.ShloMosaic.Lib.ValueIdx
import Idealize.ShloMosaic.Lib.Pipeline.Value
import proofs.«167954_j46170898432679_2_alg».proof.Proof.PayForms

set_option maxRecDepth 65536

noncomputable section

namespace Cert.KernelIdeal.Chain

open Cert.KernelIdeal Cert.KernelIdeal.Gen Cert.KernelIdeal.PayForms Cert.Heads
open Idealize.ShloMosaic Idealize.ShloMosaic.TcCoe Idealize.ShloMosaic.ValueIdx Idealize.ShloMosaic.Tactic
open Idealize.SL Idealize.SL.Sem

/-! ## Every head is head 0's function of its own operands

The body is the same eight-fold sequence of operations, cut into pure terms at places that do not follow the heads. Reassembled,
head `i`'s dense layer on the neighbour rows is `k0_pay7`, its dense layer on the extra row is `k0_pay10 (k0_pay8 · ·) (k0_pay9 ·)`
and its context is `k0_pay11`, of that head's weight, bias and rows: the terms agree by unfolding. -/

section Same

variable {F : FTy → Type} [FloatOps F]
variable (W : Vec F S1x128x128 .f32) (b : Vec F S1x128 .f32) (qq : Vec F S128x64x128 .f32) (qe : Vec F S128x128 .f32) (v : FVec F S128x128 .f32)

theorem same_q1 : k0_pay14 (F := F) W b qq = k0_pay7 W b qq := rfl
theorem same_q2 : k0_pay22 (F := F) W b qq = k0_pay7 W b qq := rfl
theorem same_q3 : k0_pay28 (F := F) W b qq = k0_pay7 W b qq := rfl
theorem same_q4 : k0_pay36 (F := F) (k0_pay35 W b qq) = k0_pay7 W b qq := rfl
theorem same_q5 : k0_pay49 (F := F) W b qq = k0_pay7 W b qq := rfl
theorem same_q6 : k0_pay57 (F := F) (k0_pay55 W qq) (k0_pay56 b) = k0_pay7 W b qq := rfl
theorem same_q7 : k0_pay70 (F := F) W b qq = k0_pay7 W b qq := rfl
theorem same_e1 : k0_pay15 (F := F) W b qe = k0_pay10 (k0_pay8 W qe) (k0_pay9 b) := rfl
theorem same_e2 : k0_pay23 (F := F) (k0_pay20 W) (k0_pay21 b) qe = k0_pay10 (k0_pay8 W qe) (k0_pay9 b) := rfl
theorem same_e3 : k0_pay29 (F := F) W b qe = k0_pay10 (k0_pay8 W qe) (k0_pay9 b) := rfl
theorem same_e4 : k0_pay37 (F := F) (k0_pay33 W) (k0_pay34 b) qe = k0_pay10 (k0_pay8 W qe) (k0_pay9 b) := rfl
theorem same_e5 : k0_pay50 (F := F) W b qe = k0_pay10 (k0_pay8 W qe) (k0_pay9 b) := rfl
theorem same_e6 : k0_pay58 (F := F) (k0_pay53 W) (k0_pay54 b) qe = k0_pay10 (k0_pay8 W qe) (k0_pay9 b) := rfl
theorem same_e7 : k0_pay71 (F := F) W b qe = k0_pay10 (k0_pay8 W qe) (k0_pay9 b) := rfl
theorem same_c1 : k0_pay19 (F := F) qq qe (k0_pay16 v qq) (k0_pay17 v qe) (k0_pay18 v qq qe) = k0_pay11 v qq qe := rfl
theorem same_c2 : k0_pay25 (F := F) (k0_pay24 v qq qe) = k0_pay11 v qq qe := rfl
theorem same_c3 : k0_pay32 (F := F) qq qe (k0_pay30 v qq) (k0_pay31 v qe) = k0_pay11 v qq qe := rfl
theorem same_c4 : k0_pay46 (F := F) qe (k0_pay44 v qq qe) (k0_pay45 v qq qe) = k0_pay11 v qq qe := rfl
theorem same_c5 : k0_pay52 (F := F) v qq qe (k0_pay51 v) = k0_pay11 v qq qe := rfl
theorem same_c6 : k0_pay67 (F := F) qq qe (k0_pay65 v qq qe) (k0_pay66 v qq qe) = k0_pay11 v qq qe := rfl
theorem same_c7 : k0_pay72 (F := F) v qq qe = k0_pay11 v qq qe := rfl

/-- The rows a head starts from: a shape cast to the same shape changes nothing. -/
theorem same_x0 (x0b : Vec F S128x64x128 .f32) : k0_pay2 (F := F) x0b = x0b := shapeCast_self _ _
theorem same_x1 (x1b : Vec F S128x1x128 .f32) : k0_pay4 (F := F) x1b = k0_pay3 x1b := shapeCast_self _ _

end Same

/-! ## The rows after each head, read at coordinates -/

section Steps

variable (x0 : Vec Ideal S128x64x128 .f32) (x1 : Vec Ideal S128x1x128 .f32) (x2 : Vec Ideal S8x128x128 .f32) (x3 : Vec Ideal S8x128 .f32)

/-- Head `i`'s weight, as the body loads it: rows `i` of the stacked weights. -/
theorem W_read {arg3 : Memref sig .tc .vmem S8x128x128 .f32} (harg3 : arg3.IsWhole) (i : ℕ) (hi : i < 8)
    (inb : ∀ a, (![i, 0, 0] : Fin 3 → ℕ) a + S1x128x128.size a ≤ S8x128x128.size a) (h k : Fin 128) :
    View.readAt (Elt Ideal) arg3.view (Rect.unit (s := S8x128x128) ![i, 0, 0] S1x128x128.size inb).toLoadRect (harg3.unread x2)
      (ix3 (0 : Fin 1) h k) = Wn x2 i h k := by
  rw [Memref.IsWhole.readAt_unread]
  unfold Wn; rw [dif_pos hi]
  refine congrArg x2 (funext fun a => Fin.ext ?_)
  match a with
  | ⟨0, _⟩ => show i + 1 * 0 = i; omega
  | ⟨1, _⟩ => show 0 + 1 * h.val = h.val; omega
  | ⟨2, _⟩ => show 0 + 1 * k.val = k.val; omega

/-- Head `i`'s bias, as the body loads it. -/
theorem b_read {arg4 : Memref sig .tc .vmem S8x128 .f32} (harg4 : arg4.IsWhole) (i : ℕ) (hi : i < 8)
    (inb : ∀ a, (![i, 0] : Fin 2 → ℕ) a + S1x128.size a ≤ S8x128.size a) (k : Fin 128) :
    View.readAt (Elt Ideal) arg4.view (Rect.unit (s := S8x128) ![i, 0] S1x128.size inb).toLoadRect (harg4.unread x3)
      (ix2 (0 : Fin 1) k) = bn x3 i k := by
  rw [Memref.IsWhole.readAt_unread]
  unfold bn; rw [dif_pos hi]
  refine congrArg x3 (funext fun a => Fin.ext ?_)
  match a with
  | ⟨0, _⟩ => show i + 1 * 0 = i; omega
  | ⟨1, _⟩ => show 0 + 1 * k.val = k.val; omega

end Steps

section Rows

variable (x0 : Vec Ideal S128x64x128 .f32) (x1 : Vec Ideal S128x1x128 .f32) (x2 : Vec Ideal S8x128x128 .f32) (x3 : Vec Ideal S8x128 .f32)

/-- A block `qp` holds the neighbour rows after `i` heads: row `n` of batch row `r`, at every coordinate. -/
def QQRel (i : ℕ) (qp : Vec Ideal S128x64x128 .f32) : Prop :=
  ∀ (r : Fin 128) (n : Fin 64) (h : Fin 128), qp (ix3 r n h) = qqAt (Wn x2) (bn x3) (qq0 x0 r) i n h

/-- A block `ep` holds the extra row after `i` heads. -/
def QERel (i : ℕ) (ep : Vec Ideal S128x128 .f32) : Prop :=
  ∀ (r h : Fin 128), ep (ix2 r h) = qeAt (Wn x2) (bn x3) (vrow x1 r) i h

/-- A block `vv` holds the fixed vector of every batch row. -/
def VRel (vv : FVec Ideal S128x128 .f32) : Prop := ∀ (r h : Fin 128), vv (ix2 r h) = vrow x1 r h

/-- Before the first head the neighbour rows are the query block as loaded. -/
theorem qq_base {arg1 : Memref sig .tc .vmem S128x64x128 .f32} (harg1 : arg1.IsWhole)
    (inb : ∀ a, (![0, 0, 0] : Fin 3 → ℕ) a + S128x64x128.size a ≤ S128x64x128.size a) :
    QQRel x0 x2 x3 0 (View.readAt (Elt Ideal) arg1.view (Rect.unit (s := S128x64x128) ![0, 0, 0] S128x64x128.size inb).toLoadRect (harg1.unread x0)) := by
  intro r n h
  rw [Memref.IsWhole.readAt_unread]
  show x0 _ = x0 (ix3 r n h)
  refine congrArg x0 (funext fun a => Fin.ext ?_)
  match a with
  | ⟨0, _⟩ => show 0 + 1 * r.val = r.val; omega
  | ⟨1, _⟩ => show 0 + 1 * n.val = n.val; omega
  | ⟨2, _⟩ => show 0 + 1 * h.val = h.val; omega

/-- The fixed vector is the value block with its unit axis dropped. -/
theorem v_rel {arg2 : Memref sig .tc .vmem S128x1x128 .f32} (harg2 : arg2.IsWhole)
    (inb : ∀ a, (![0, 0, 0] : Fin 3 → ℕ) a + S128x1x128.size a ≤ S128x1x128.size a) :
    VRel x1 (k0_pay3 (F := Ideal) (View.readAt (Elt Ideal) arg2.view (Rect.unit (s := S128x1x128) ![0, 0, 0] S128x1x128.size inb).toLoadRect (harg2.unread x1))) := by
  intro r h
  rw [pay3_apply, Memref.IsWhole.readAt_unread]
  show x1 _ = x1 (ix3 r (0 : Fin 1) h)
  refine congrArg x1 (funext fun a => Fin.ext ?_)
  match a with
  | ⟨0, _⟩ => show 0 + 1 * r.val = r.val; omega
  | ⟨1, _⟩ => show 0 + 1 * 0 = 0; omega
  | ⟨2, _⟩ => show 0 + 1 * h.val = h.val; omega

/-- Before the first head the extra row is the fixed vector. -/
theorem qe_base {vv : FVec Ideal S128x128 .f32} (hv : VRel x1 vv) : QERel x1 x2 x3 0 vv := fun r h => hv r h

/-- One more dense layer on the neighbour rows. -/
theorem qq_step {arg3 : Memref sig .tc .vmem S8x128x128 .f32} (harg3 : arg3.IsWhole) {arg4 : Memref sig .tc .vmem S8x128 .f32} (harg4 : arg4.IsWhole)
    (i : ℕ) (hi : i < 8) (inbW : ∀ a, (![i, 0, 0] : Fin 3 → ℕ) a + S1x128x128.size a ≤ S8x128x128.size a)
    (inbB : ∀ a, (![i, 0] : Fin 2 → ℕ) a + S1x128.size a ≤ S8x128.size a) {qp : Vec Ideal S128x64x128 .f32} (hq : QQRel x0 x2 x3 i qp) :
    QQRel x0 x2 x3 (i + 1) (k0_pay7 (F := Ideal)
      (View.readAt (Elt Ideal) arg3.view (Rect.unit (s := S8x128x128) ![i, 0, 0] S1x128x128.size inbW).toLoadRect (harg3.unread x2))
      (View.readAt (Elt Ideal) arg4.view (Rect.unit (s := S8x128) ![i, 0] S1x128.size inbB).toLoadRect (harg4.unread x3)) qp) := by
  intro r n k
  rw [pay7_apply]
  show proj _ _ _ k = proj (Wn x2 i) (bn x3 i) (qqAt (Wn x2) (bn x3) (qq0 x0 r) i n) k
  rw [show (fun h k' => View.readAt (Elt Ideal) arg3.view (Rect.unit (s := S8x128x128) ![i, 0, 0] S1x128x128.size inbW).toLoadRect (harg3.unread x2) (ix3 (0 : Fin 1) h k')) = Wn x2 i from
      funext fun h => funext fun k' => W_read x2 harg3 i hi inbW h k',
    show (fun k' => View.readAt (Elt Ideal) arg4.view (Rect.unit (s := S8x128) ![i, 0] S1x128.size inbB).toLoadRect (harg4.unread x3) (ix2 (0 : Fin 1) k')) = bn x3 i from
      funext fun k' => b_read x3 harg4 i hi inbB k',
    show (fun h => qp (ix3 r n h)) = qqAt (Wn x2) (bn x3) (qq0 x0 r) i n from funext fun h => hq r n h]

/-- One more dense layer on the extra row. -/
theorem qe_step {arg3 : Memref sig .tc .vmem S8x128x128 .f32} (harg3 : arg3.IsWhole) {arg4 : Memref sig .tc .vmem S8x128 .f32} (harg4 : arg4.IsWhole)
    (i : ℕ) (hi : i < 8) (inbW : ∀ a, (![i, 0, 0] : Fin 3 → ℕ) a + S1x128x128.size a ≤ S8x128x128.size a)
    (inbB : ∀ a, (![i, 0] : Fin 2 → ℕ) a + S1x128.size a ≤ S8x128.size a) {ep : Vec Ideal S128x128 .f32} (he : QERel x1 x2 x3 i ep) :
    QERel x1 x2 x3 (i + 1) (k0_pay10 (F := Ideal)
      (k0_pay8 (View.readAt (Elt Ideal) arg3.view (Rect.unit (s := S8x128x128) ![i, 0, 0] S1x128x128.size inbW).toLoadRect (harg3.unread x2)) ep)
      (k0_pay9 (View.readAt (Elt Ideal) arg4.view (Rect.unit (s := S8x128) ![i, 0] S1x128.size inbB).toLoadRect (harg4.unread x3)))) := by
  intro r k
  rw [payE_apply]
  show proj _ _ _ k = proj (Wn x2 i) (bn x3 i) (qeAt (Wn x2) (bn x3) (vrow x1 r) i) k
  rw [show (fun h k' => View.readAt (Elt Ideal) arg3.view (Rect.unit (s := S8x128x128) ![i, 0, 0] S1x128x128.size inbW).toLoadRect (harg3.unread x2) (ix3 (0 : Fin 1) h k')) = Wn x2 i from
      funext fun h => funext fun k' => W_read x2 harg3 i hi inbW h k',
    show (fun k' => View.readAt (Elt Ideal) arg4.view (Rect.unit (s := S8x128) ![i, 0] S1x128.size inbB).toLoadRect (harg4.unread x3) (ix2 (0 : Fin 1) k')) = bn x3 i from
      funext fun k' => b_read x3 harg4 i hi inbB k',
    show (fun h => ep (ix2 r h)) = qeAt (Wn x2) (bn x3) (vrow x1 r) i from funext fun h => he r h]

/-- Head `i`'s context from the rows after its dense layers. -/
theorem ctx_step {vv : FVec Ideal S128x128 .f32} {qp : Vec Ideal S128x64x128 .f32} {ep : Vec Ideal S128x128 .f32} (i : ℕ)
    (hv : VRel x1 vv) (hq : QQRel x0 x2 x3 (i + 1) qp) (he : QERel x1 x2 x3 (i + 1) ep) (r k : Fin 128) :
    k0_pay11 (F := Ideal) vv qp ep (ix2 r k)
      = attendSplit (Ideal.ofBits .f32 0xFF800000#32) (vrow x1 r) (qqAt (Wn x2) (bn x3) (qq0 x0 r) (i + 1)) (qeAt (Wn x2) (bn x3) (vrow x1 r) (i + 1)) k := by
  rw [pay11_apply,
    show (fun h => vv (ix2 r h)) = vrow x1 r from funext fun h => hv r h,
    show (fun n h => qp (ix3 r n h)) = qqAt (Wn x2) (bn x3) (qq0 x0 r) (i + 1) from funext fun n => funext fun h => hq r n h,
    show (fun h => ep (ix2 r h)) = qeAt (Wn x2) (bn x3) (vrow x1 r) (i + 1) from funext fun h => he r h]

/-- The eight contexts side by side, as one function of the [128, 1024] buffer's index: column `c` of batch row `r` is coordinate
    `c % 128` of head `c / 128`'s context. -/
def ctxAll (y : S128x1024.Idx) : EReal :=
  attendSplit (Ideal.ofBits .f32 0xFF800000#32) (vrow x1 (⟨(y 0).val, (y 0).isLt⟩ : Fin 128))
    (qqAt (Wn x2) (bn x3) (qq0 x0 (⟨(y 0).val, (y 0).isLt⟩ : Fin 128)) ((y 1).val / 128 + 1))
    (qeAt (Wn x2) (bn x3) (vrow x1 (⟨(y 0).val, (y 0).isLt⟩ : Fin 128)) ((y 1).val / 128 + 1))
    ⟨(y 1).val % 128, Nat.mod_lt _ (by norm_num)⟩

theorem ctxAll_at (a : Fin 128) (j : ℕ) (b : Fin 128) (y : S128x1024.Idx) (h0 : (y 0).val = a.val) (h1 : (y 1).val = 128 * j + b.val) :
    ctxAll x0 x1 x2 x3 y = attendSplit (Ideal.ofBits .f32 0xFF800000#32) (vrow x1 a) (qqAt (Wn x2) (bn x3) (qq0 x0 a) (j + 1))
      (qeAt (Wn x2) (bn x3) (vrow x1 a) (j + 1)) b := by
  unfold ctxAll
  have ea : (⟨(y 0).val, (y 0).isLt⟩ : Fin 128) = a := Fin.ext h0
  have ej : (y 1).val / 128 = j := by have := b.isLt; omega
  have eb : (⟨(y 1).val % 128, Nat.mod_lt _ (by norm_num)⟩ : Fin 128) = b := Fin.ext (by show (y 1).val % 128 = b.val; have := b.isLt; omega)
  rw [ea, ej, eb]

end Rows

/-! ## The eight contexts as column slabs of one array -/

section Block

variable (x0 : Vec Ideal S128x64x128 .f32) (x1 : Vec Ideal S128x1x128 .f32) (x2 : Vec Ideal S8x128x128 .f32) (x3 : Vec Ideal S8x128 .f32)

/-- Head `j`'s context, stored as the column slab at offset `128·j` of the [128, 1024] buffer, is that slab of `ctxAll`. -/
theorem slab_eq (j off : ℕ) (hoff : off = 128 * j)
    (inb : ∀ a, (![0, off] : Fin 2 → ℕ) a + S128x128.size a ≤ S128x1024.size a)
    {vv : FVec Ideal S128x128 .f32} {qp : Vec Ideal S128x64x128 .f32} {ep : Vec Ideal S128x128 .f32}
    (hv : VRel x1 vv) (hq : QQRel x0 x2 x3 (j + 1) qp) (he : QERel x1 x2 x3 (j + 1) ep)
    (x : (Rect.unit (s := S128x1024) ![0, off] S128x128.size inb).shape.Idx) :
    k0_pay11 (F := Ideal) vv qp ep x = ctxAll x0 x1 x2 x3 ((Rect.unit (s := S128x1024) ![0, off] S128x128.size inb).emb x) := by
  subst hoff
  obtain ⟨a, b, rfl⟩ : ∃ (a b : Fin 128), x = ix2 a b := ⟨x 0, x 1, eq_ix2 x⟩
  rw [ctx_step x0 x1 x2 x3 j hv hq he a b]
  exact (ctxAll_at x0 x1 x2 x3 a j b _ (by show 0 + 1 * a.val = a.val; omega) (by show 128 * j + 1 * b.val = 128 * j + b.val; omega)).symm

end Block

/-! ## The block a grid point writes back -/

section Value

set_option maxHeartbeats 4000000 in
/-- What the body leaves in the output block, entry by entry: the specification's result at the block's batch row, of the
    blocks the body was given. The run's witness is opened to its nested pure terms; each head's terms are head 0's functions;
    the rows after each head are followed up the chain (`QQRel`, `QERel`); the eight contexts, stored as eight column slabs of one
    buffer, are read back as one function of the buffer's index (`ctxAll`), which the output layer sums over. -/
theorem block_value (c : Dev nD) (i : grid0.Coords) (arg1 : Memref sig .tc .vmem S128x64x128 .f32) (harg1 : arg1.IsWhole) (arg2 : Memref sig .tc .vmem S128x1x128 .f32) (harg2 : arg2.IsWhole) (arg3 : Memref sig .tc .vmem S8x128x128 .f32) (harg3 : arg3.IsWhole) (arg4 : Memref sig .tc .vmem S8x128 .f32) (harg4 : arg4.IsWhole) (arg5 : Memref sig .tc .vmem S1024x128 .f32) (harg5 : arg5.IsWhole) (arg6 : Memref sig .tc .vmem S128 .f32) (harg6 : arg6.IsWhole) (arg7 : Memref sig .tc .vmem S128x1x128 .f32) (harg7 : arg7.IsWhole) (arg8 : Memref sig .tc .vmem S128x64x128 .f32) (harg8 : arg8.IsWhole) (arg9 : Memref sig .tc .vmem S128x128 .f32) (harg9 : arg9.IsWhole) (arg10 : Memref sig .tc .vmem S128x1024 .f32) (harg10 : arg10.IsWhole)
    (x0 : Vec Ideal S128x64x128 .f32) (x1 : Vec Ideal S128x1x128 .f32) (x2 : Vec Ideal S8x128x128 .f32) (x3 : Vec Ideal S8x128 .f32) (x4 : Vec Ideal S1024x128 .f32) (x5 : Vec Ideal S128 .f32) (r k : Fin 128) :
    out0_A_6 (F := Ideal) c i arg1 harg1 arg2 harg2 arg3 harg3 arg4 harg4 arg5 harg5 arg6 harg6 arg7 harg7 arg8 harg8 arg9 harg9 arg10 harg10 x0 x1 x2 x3 x4 x5 (ix3 r (0 : Fin 1) k)
      = outSplitAt (Ideal.ofBits .f32 0xFF800000#32) x0 x1 x2 x3 x4 x5 r k := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3 x4 x5)]
  unfold kernelRun0_A
  dsimp only
  rw [View.canon_unit_zero (by funext a; fin_cases a <;> rfl)]
  sl_unfold_run_names
  simp only [View.readCov_cons_toLoadRect, same_q1, same_q2, same_q3, same_q4, same_q5, same_q6, same_q7, same_e1, same_e2, same_e3, same_e4, same_e5, same_e6, same_e7, same_c1, same_c2, same_c3, same_c4, same_c5, same_c6, same_c7, same_x0, same_x1]
  have V := v_rel x1 harg2 inb_S128x1x128_S128x1x128_0_0_0
  have Q0 := qq_base x0 x2 x3 harg1 inb_S128x64x128_S128x64x128_0_0_0
  have Q1 := qq_step x0 x2 x3 harg3 harg4 0 (by decide) inb_S8x128x128_S1x128x128_0_0_0 inb_S8x128_S1x128_0_0 Q0
  have Q2 := qq_step x0 x2 x3 harg3 harg4 1 (by decide) inb_S8x128x128_S1x128x128_1_0_0 inb_S8x128_S1x128_1_0 Q1
  have Q3 := qq_step x0 x2 x3 harg3 harg4 2 (by decide) inb_S8x128x128_S1x128x128_2_0_0 inb_S8x128_S1x128_2_0 Q2
  have Q4 := qq_step x0 x2 x3 harg3 harg4 3 (by decide) inb_S8x128x128_S1x128x128_3_0_0 inb_S8x128_S1x128_3_0 Q3
  have Q5 := qq_step x0 x2 x3 harg3 harg4 4 (by decide) inb_S8x128x128_S1x128x128_4_0_0 inb_S8x128_S1x128_4_0 Q4
  have Q6 := qq_step x0 x2 x3 harg3 harg4 5 (by decide) inb_S8x128x128_S1x128x128_5_0_0 inb_S8x128_S1x128_5_0 Q5
  have Q7 := qq_step x0 x2 x3 harg3 harg4 6 (by decide) inb_S8x128x128_S1x128x128_6_0_0 inb_S8x128_S1x128_6_0 Q6
  have Q8 := qq_step x0 x2 x3 harg3 harg4 7 (by decide) inb_S8x128x128_S1x128x128_7_0_0 inb_S8x128_S1x128_7_0 Q7
  have E0 := qe_base x1 x2 x3 V
  have E1 := qe_step x1 x2 x3 harg3 harg4 0 (by decide) inb_S8x128x128_S1x128x128_0_0_0 inb_S8x128_S1x128_0_0 E0
  have E2 := qe_step x1 x2 x3 harg3 harg4 1 (by decide) inb_S8x128x128_S1x128x128_1_0_0 inb_S8x128_S1x128_1_0 E1
  have E3 := qe_step x1 x2 x3 harg3 harg4 2 (by decide) inb_S8x128x128_S1x128x128_2_0_0 inb_S8x128_S1x128_2_0 E2
  have E4 := qe_step x1 x2 x3 harg3 harg4 3 (by decide) inb_S8x128x128_S1x128x128_3_0_0 inb_S8x128_S1x128_3_0 E3
  have E5 := qe_step x1 x2 x3 harg3 harg4 4 (by decide) inb_S8x128x128_S1x128x128_4_0_0 inb_S8x128_S1x128_4_0 E4
  have E6 := qe_step x1 x2 x3 harg3 harg4 5 (by decide) inb_S8x128x128_S1x128x128_5_0_0 inb_S8x128_S1x128_5_0 E5
  have E7 := qe_step x1 x2 x3 harg3 harg4 6 (by decide) inb_S8x128x128_S1x128x128_6_0_0 inb_S8x128_S1x128_6_0 E6
  have E8 := qe_step x1 x2 x3 harg3 harg4 7 (by decide) inb_S8x128x128_S1x128x128_7_0_0 inb_S8x128_S1x128_7_0 E7
  rw [payOut_apply]
  unfold outSplitAt outRow
  refine congrArg₂ max (congrArg₂ (· + ·) (Finset.sum_congr rfl fun cc _ => congrArg₂ (· * ·) ?_ ?_) ?_) rfl
  · -- column cc of the context buffer is coordinate cc % 128 of head cc / 128's context
    rw [View.readCov_eq_canon']
    have hidx : (Rect.unit (s := S128x1024) ![0, 0] ![128, 1024] inb_S128x1024_S128x1024_0_0).toLoadRect.idx (ix2 r cc) = ix2 r cc := by
      funext a; apply Fin.ext
      match a with
      | ⟨0, _⟩ => show 0 + 1 * r.val = r.val; omega
      | ⟨1, _⟩ => show 0 + 1 * cc.val = cc.val; omega
    simp only [hidx]
    refine (View.canon_apply_of_pieces (ctxAll x0 x1 x2 x3) _ ?_ (ix2 r cc) ?_).trans ?_
    · intro p hp x
      simp only [List.mem_cons, List.not_mem_nil, or_false] at hp
      rcases hp with rfl | rfl | rfl | rfl | rfl | rfl | rfl | rfl
      · exact slab_eq x0 x1 x2 x3 7 896 rfl inb_S128x1024_S128x128_0_896 V Q8 E8 x
      · exact slab_eq x0 x1 x2 x3 6 768 rfl inb_S128x1024_S128x128_0_768 V Q7 E7 x
      · exact slab_eq x0 x1 x2 x3 5 640 rfl inb_S128x1024_S128x128_0_640 V Q6 E6 x
      · exact slab_eq x0 x1 x2 x3 4 512 rfl inb_S128x1024_S128x128_0_512 V Q5 E5 x
      · exact slab_eq x0 x1 x2 x3 3 384 rfl inb_S128x1024_S128x128_0_384 V Q4 E4 x
      · exact slab_eq x0 x1 x2 x3 2 256 rfl inb_S128x1024_S128x128_0_256 V Q3 E3 x
      · exact slab_eq x0 x1 x2 x3 1 128 rfl inb_S128x1024_S128x128_0_128 V Q2 E2 x
      · exact slab_eq x0 x1 x2 x3 0 0 rfl inb_S128x1024_S128x128_0_0 V Q1 E1 x
    · exact View.cover_of_tiledL (s := S128x1024) _ S128x128.size (by sl_kernel_rfl) (ix2 r cc)
    · exact ctxAll_at x0 x1 x2 x3 r (cc.val / 128) ⟨cc.val % 128, Nat.mod_lt _ (by norm_num)⟩ (ix2 r cc) rfl
        (by show cc.val = 128 * (cc.val / 128) + cc.val % 128; omega)
  · -- the output layer's weight as loaded
    rw [Memref.IsWhole.readAt_unread]
    show x4 _ = x4 (ix2 cc k)
    refine congrArg x4 (funext fun a => Fin.ext ?_)
    match a with
    | ⟨0, _⟩ => show 0 + 1 * cc.val = cc.val; omega
    | ⟨1, _⟩ => show 0 + 1 * k.val = k.val; omega
  · -- the output layer's bias as loaded
    rw [Memref.IsWhole.readAt_unread]
    show x5 _ = x5 (ix1 k)
    refine congrArg x5 (funext fun a => Fin.ext ?_)
    match a with
    | ⟨0, _⟩ => show 0 + 1 * k.val = k.val; omega

end Value

end Cert.KernelIdeal.Chain

end
-- ==== Proof.Blocks.lean ====
import proofs.«167954_j46170898432679_2_alg».proof.Proof.Gen.KernelIdeal.Value
import proofs.«167954_j46170898432679_2_alg».proof.Proof.HeadStep
import Idealize.ShloMosaic.Lib.Pipeline.Value
import Idealize.ShloMosaic.Lib.ValueIdx

/-!
# From the result block by block to the whole result array

The kernel runs over a grid of 64 points. Point `t` works on batch rows `128·t … 128·t + 127`: it is handed
those rows of the query array and of the value array, the whole of the four parameter arrays, and it writes
those rows of the result array. The result at a batch row reads the query and value arrays through that row
alone. So, given what the body leaves in its result block entry by entry (the hypothesis `hblk`: the result of
the block's own rows), the block point `t` writes back is block `t` of ONE whole-array function of the
arguments, the 64 blocks cover the array (batch row `R` lies in the block of point `R / 128`), and the array
ends holding that function.
-/

noncomputable section

namespace Cert.KernelIdeal.Blocks

open Cert.KernelIdeal Cert.KernelIdeal.Gen Idealize.ShloMosaic Idealize.ShloMosaic.TcCoe Idealize.SL.Sem
open Idealize.ShloMosaic.ValueIdx

section Blocks

variable (m : (ℓ : Loc nD τ sig) → Buf (Elt Ideal) ℓ)

/-- The printed index maps, decided once over the 64 grid points: the query, value and result windows move with the
    point along the batch axis and stay at block 0 on the other two axes; the four parameter windows stay at block 0. -/
theorem index_maps : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 3) = t.val ∧ win0_6.index t (1 : Fin 3) = 0 ∧ win0_6.index t (2 : Fin 3) = 0) :=
  (by decide +kernel : ∀ t : Fin grid0.N, _)

/-- Window 0's block at point t is batch rows 128·t … 128·t + 127 of the query array. -/
theorem iblk0_apply (c : Dev nD) (t : Fin cfg0.N) (x : S128x64x128.Idx) (k : S8192x64x128.Idx)
    (hk0 : (k 0).val = 128 * t.val + (x 0).val) (hk1 : (k 1).val = (x 1).val) (hk2 : (k 2).val = (x 2).val) :
    (iblk m c 0 t : Vec Ideal S128x64x128 .f32) x = (m ((c : Thread nD τ).loc main_arg0) : S8192x64x128.Idx → EReal) k := by
  obtain ⟨⟨e0, e1, e2⟩, -⟩ := index_maps t
  unfold iblk
  rw [View.read_apply]
  show V m c main_arg0 _ = m (c.tc.loc main_arg0) _
  unfold V
  congr 1
  funext a
  apply Fin.ext
  match a with
  | ⟨0, _⟩ => show win0_0.index t (0 : Fin 3) * 128 + 1 * (x 0).val = (k 0).val; rw [e0, hk0]; omega
  | ⟨1, _⟩ => show win0_0.index t (1 : Fin 3) * 64 + 1 * (x 1).val = (k 1).val; rw [e1, hk1]; omega
  | ⟨2, _⟩ => show win0_0.index t (2 : Fin 3) * 128 + 1 * (x 2).val = (k 2).val; rw [e2, hk2]; omega

/-- Window 1's block at point t is batch rows 128·t … 128·t + 127 of the value array. -/
theorem iblk1_apply (c : Dev nD) (t : Fin cfg0.N) (x : S128x1x128.Idx) (k : S8192x1x128.Idx)
    (hk0 : (k 0).val = 128 * t.val + (x 0).val) (hk1 : (k 1).val = (x 1).val) (hk2 : (k 2).val = (x 2).val) :
    (iblk m c 1 t : Vec Ideal S128x1x128 .f32) x = (m ((c : Thread nD τ).loc main_arg1) : S8192x1x128.Idx → EReal) k := by
  obtain ⟨-, ⟨e0, e1, e2⟩, -⟩ := index_maps t
  unfold iblk
  rw [View.read_apply]
  show V m c main_arg1 _ = m (c.tc.loc main_arg1) _
  unfold V
  congr 1
  funext a
  apply Fin.ext
  match a with
  | ⟨0, _⟩ => show win0_1.index t (0 : Fin 3) * 128 + 1 * (x 0).val = (k 0).val; rw [e0, hk0]; omega
  | ⟨1, _⟩ => show win0_1.index t (1 : Fin 3) * 1 + 1 * (x 1).val = (k 1).val; rw [e1, hk1]; omega
  | ⟨2, _⟩ => show win0_1.index t (2 : Fin 3) * 128 + 1 * (x 2).val = (k 2).val; rw [e2, hk2]; omega

/-- Window 2's block is the whole array of the eight heads' weights, at every point. -/
theorem iblk2_eq (c : Dev nD) (t : Fin cfg0.N) :
    (iblk m c 2 t : Vec Ideal S8x128x128 .f32) = (m ((c : Thread nD τ).loc main_arg2) : S8x128x128.Idx → EReal) := by
  obtain ⟨-, -, ⟨e0, e1, e2⟩, -⟩ := index_maps t
  funext x
  unfold iblk
  rw [View.read_apply]
  show V m c main_arg2 _ = m (c.tc.loc main_arg2) _
  unfold V
  congr 1
  funext a
  apply Fin.ext
  match a with
  | ⟨0, _⟩ => show win0_2.index t (0 : Fin 3) * 8 + 1 * (x 0).val = (x 0).val; rw [e0]; omega
  | ⟨1, _⟩ => show win0_2.index t (1 : Fin 3) * 128 + 1 * (x 1).val = (x 1).val; rw [e1]; omega
  | ⟨2, _⟩ => show win0_2.index t (2 : Fin 3) * 128 + 1 * (x 2).val = (x 2).val; rw [e2]; omega

/-- Window 3's block is the whole array of the eight heads' biases, at every point. -/
theorem iblk3_eq (c : Dev nD) (t : Fin cfg0.N) :
    (iblk m c 3 t : Vec Ideal S8x128 .f32) = (m ((c : Thread nD τ).loc main_arg3) : S8x128.Idx → EReal) := by
  obtain ⟨-, -, -, ⟨e0, e1⟩, -⟩ := index_maps t
  funext x
  unfold iblk
  rw [View.read_apply]
  show V m c main_arg3 _ = m (c.tc.loc main_arg3) _
  unfold V
  congr 1
  funext a
  apply Fin.ext
  match a with
  | ⟨0, _⟩ => show win0_3.index t (0 : Fin 2) * 8 + 1 * (x 0).val = (x 0).val; rw [e0]; omega
  | ⟨1, _⟩ => show win0_3.index t (1 : Fin 2) * 128 + 1 * (x 1).val = (x 1).val; rw [e1]; omega

/-- Window 4's block is the whole output-layer weight, at every point. -/
theorem iblk4_eq (c : Dev nD) (t : Fin cfg0.N) :
    (iblk m c 4 t : Vec Ideal S1024x128 .f32) = (m ((c : Thread nD τ).loc main_arg4) : S1024x128.Idx → EReal) := by
  obtain ⟨-, -, -, -, ⟨e0, e1⟩, -⟩ := index_maps t
  funext x
  unfold iblk
  rw [View.read_apply]
  show V m c main_arg4 _ = m (c.tc.loc main_arg4) _
  unfold V
  congr 1
  funext a
  apply Fin.ext
  match a with
  | ⟨0, _⟩ => show win0_4.index t (0 : Fin 2) * 1024 + 1 * (x 0).val = (x 0).val; rw [e0]; omega
  | ⟨1, _⟩ => show win0_4.index t (1 : Fin 2) * 128 + 1 * (x 1).val = (x 1).val; rw [e1]; omega

/-- Window 5's block is the whole output-layer bias, at every point. -/
theorem iblk5_eq (c : Dev nD) (t : Fin cfg0.N) :
    (iblk m c 5 t : Vec Ideal S128 .f32) = (m ((c : Thread nD τ).loc main_arg5) : S128.Idx → EReal) := by
  obtain ⟨-, -, -, -, -, e0, -⟩ := index_maps t
  funext x
  unfold iblk
  rw [View.read_apply]
  show V m c main_arg5 _ = m (c.tc.loc main_arg5) _
  unfold V
  congr 1
  funext a
  apply Fin.ext
  match a with
  | ⟨0, _⟩ => show win0_5.index t (0 : Fin 1) * 128 + 1 * (x 0).val = (x 0).val; rw [e0]; omega

/-- The result at a batch row reads the query and value arrays only through that row: if a block's row `r` holds
    the array's row `R`, the block's result at `r` is the array's result at `R`. -/
theorem outSplitAt_of_rows (z : EReal) (X0 : S8192x64x128.Idx → EReal) (X1 : S8192x1x128.Idx → EReal)
    (x0 : S128x64x128.Idx → EReal) (x1 : S128x1x128.Idx → EReal)
    (x2 : S8x128x128.Idx → EReal) (x3 : S8x128.Idx → EReal) (x4 : S1024x128.Idx → EReal) (x5 : S128.Idx → EReal)
    (R : Fin 8192) (r : Fin 128)
    (h0 : ∀ (n : Fin 64) (h : Fin 128), x0 (ix3 r n h) = X0 (ix3 R n h))
    (h1 : ∀ h : Fin 128, x1 (ix3 r (0 : Fin 1) h) = X1 (ix3 R (0 : Fin 1) h)) (k : Fin 128) :
    Cert.Heads.outSplitAt z x0 x1 x2 x3 x4 x5 r k = Cert.Heads.outSplitAt z X0 X1 x2 x3 x4 x5 R k := by
  have hq : Cert.Heads.qq0 x0 r = Cert.Heads.qq0 X0 R := funext fun n => funext fun h => h0 n h
  have hv : Cert.Heads.vrow x1 r = Cert.Heads.vrow X1 R := funext fun h => h1 h
  unfold Cert.Heads.outSplitAt
  rw [hq, hv]

-- The value the running maximum starts from: nothing below needs to know which value it is.
variable (z : EReal)

/-- What the body leaves at row `r` of point `t`'s result block is the whole array's result at batch row
    `128·t + r`: the parameter blocks are the whole parameter arrays, and row `r` of the query and value blocks is
    row `128·t + r` of the query and value arrays. -/
theorem block_entry
    (hblk : ∀ (c : Dev nD) (t : Fin cfg0.N) (r k : Fin 128),
          outsAt0 (F := Ideal) m c t (ix3 r (0 : Fin 1) k)
            = Cert.Heads.outSplitAt z (iblk m c 0 t) (iblk m c 1 t) (iblk m c 2 t) (iblk m c 3 t) (iblk m c 4 t) (iblk m c 5 t) r k)
    (c : Dev nD) (t : Fin cfg0.N) (r k : Fin 128) (R : Fin 8192) (hR : R.val = 128 * t.val + r.val) :
    outsAt0 (F := Ideal) m c t (ix3 r (0 : Fin 1) k)
      = Cert.Heads.outSplitAt z (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5)) R k := by
  rw [hblk c t r k, iblk2_eq, iblk3_eq, iblk4_eq, iblk5_eq]
  refine outSplitAt_of_rows _ _ _ _ _ _ _ _ _ R r (fun n h => ?_) (fun h => ?_) k
  · exact iblk0_apply m c t _ _ hR rfl rfl
  · exact iblk1_apply m c t _ _ hR rfl rfl

/-- The same, at an index `y` of the result block and the array index the block's embedding sends it to. -/
theorem block_entry_emb
    (hblk : ∀ (c : Dev nD) (t : Fin cfg0.N) (r k : Fin 128),
          outsAt0 (F := Ideal) m c t (ix3 r (0 : Fin 1) k)
            = Cert.Heads.outSplitAt z (iblk m c 0 t) (iblk m c 1 t) (iblk m c 2 t) (iblk m c 3 t) (iblk m c 4 t) (iblk m c 5 t) r k)
    (c : Dev nD) (t : Fin cfg0.N) (y : S128x1x128.Idx) :
    (outsAt0 (F := Ideal) m c t : Vec Ideal S128x1x128 .f32) y
      = Cert.Heads.outSplit z (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5))
          (((cfg0.win 6).blk t).view.emb y) := by
  obtain ⟨-, -, -, -, -, -, ⟨e0, e1, e2⟩⟩ := index_maps t
  obtain ⟨r, u, k, rfl⟩ : ∃ (r : Fin 128) (u : Fin 1) (k : Fin 128), y = ix3 r u k := ⟨y 0, y 1, y 2, eq_ix3 y⟩
  obtain rfl : u = 0 := Subsingleton.elim _ _
  have hN : cfg0.N = 64 := N_0
  have ht : t.val < 64 := hN ▸ t.isLt
  have h0 : ((((cfg0.win 6).blk t).view.emb (ix3 r (0 : Fin 1) k)) 0).val = 128 * t.val + r.val := by
    show win0_6.index t (0 : Fin 3) * 128 + 1 * r.val = _; rw [e0]; omega
  have h2 : ((((cfg0.win 6).blk t).view.emb (ix3 r (0 : Fin 1) k)) 2).val = k.val := by
    show win0_6.index t (2 : Fin 3) * 128 + 1 * k.val = _; rw [e2]; omega
  rw [block_entry m z hblk c t r k ⟨128 * t.val + r.val, by have := r.isLt; omega⟩ rfl]
  unfold Cert.Heads.outSplit
  congr 1 <;> apply Fin.ext
  · exact h0.symm
  · exact h2.symm

/-- WHAT POINT `t` WRITES BACK is block `t` of the whole result array. -/
theorem flushed_eq
    (hblk : ∀ (c : Dev nD) (t : Fin cfg0.N) (r k : Fin 128),
          outsAt0 (F := Ideal) m c t (ix3 r (0 : Fin 1) k)
            = Cert.Heads.outSplitAt z (iblk m c 0 t) (iblk m c 1 t) (iblk m c 2 t) (iblk m c 3 t) (iblk m c 4 t) (iblk m c 5 t) r k)
    (c : Dev nD) (t : Fin cfg0.N) :
    (dats m 0 c).flushed 6 t = ((cfg0.win 6).blk t).view.read (Elt Ideal)
      (Cert.Heads.outSplit z (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5))) := by
  rw [Value.flushed6]
  funext y
  rw [View.read_apply]
  exact block_entry_emb m z hblk c t y

/-- An index of the result array is in point `t`'s block iff each coordinate is in the block's range on its axis. -/
theorem mem_blk (t : Fin cfg0.N) (i : S8192x1x128.Idx) :
    i ∈ ((cfg0.win 6).blk t).view.set ↔ ∀ a : Fin 3, win0_6.index t a * S128x1x128.size a ≤ (i a).val ∧ (i a).val < win0_6.index t a * S128x1x128.size a + S128x1x128.size a := by
  show i ∈ ((View.whole main_v0).slice (win0_6.rect t)).set ↔ _
  rw [View.set_slice_whole, Rect.mem_set_unit]
  exact Iff.rfl

/-- Every index of the result array is in some point's block: batch row `R` is in the block of point `R / 128`. -/
theorem cover (i : S8192x1x128.Idx) :
    ∃ t : Fin cfg0.N, (cfg0.win 6).flush t = true ∧ i ∈ ((cfg0.win 6).blk t).view.set := by
  have hN : cfg0.N = 64 := N_0
  have hi0 : (i 0).val < 8192 := (i 0).isLt
  have hi1 : (i 1).val < 1 := (i 1).isLt
  have hi2 : (i 2).val < 128 := (i 2).isLt
  let t : Fin cfg0.N := ⟨(i 0).val / 128, by rw [hN]; omega⟩
  obtain ⟨-, -, -, -, -, -, ⟨e0, e1, e2⟩⟩ := index_maps t
  have ht : t.val = (i 0).val / 128 := rfl
  refine ⟨t, flush0_6 t, ?_⟩
  rw [mem_blk]
  intro a
  match a with
  | ⟨0, _⟩ => show win0_6.index t (0 : Fin 3) * 128 ≤ (i 0).val ∧ (i 0).val < win0_6.index t (0 : Fin 3) * 128 + 128; rw [e0, ht]; omega
  | ⟨1, _⟩ => show win0_6.index t (1 : Fin 3) * 1 ≤ (i 1).val ∧ (i 1).val < win0_6.index t (1 : Fin 3) * 1 + 1; rw [e1]; omega
  | ⟨2, _⟩ => show win0_6.index t (2 : Fin 3) * 128 ≤ (i 2).val ∧ (i 2).val < win0_6.index t (2 : Fin 3) * 128 + 128; rw [e2]; omega

/-- THE ARRAY after the run: the whole result array. -/
theorem final
    (hblk : ∀ (c : Dev nD) (t : Fin cfg0.N) (r k : Fin 128),
          outsAt0 (F := Ideal) m c t (ix3 r (0 : Fin 1) k)
            = Cert.Heads.outSplitAt z (iblk m c 0 t) (iblk m c 1 t) (iblk m c 2 t) (iblk m c 3 t) (iblk m c 4 t) (iblk m c 5 t) r k)
    (c : Dev nD) :
    (dats m 0 c).arrAt 6 cfg0.N
      = Cert.Heads.outSplit z (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed_eq m z hblk c t) cover

end Blocks

/-- The run, read: the result array ends holding the whole result array of the arguments, the arguments unchanged. -/
theorem run_value (m : (ℓ : Loc nD τ sig) → Buf (Elt Ideal) ℓ) (ρ : Dev nD → PrngReg)
    (hblk : ∀ (c : Dev nD) (t : Fin cfg0.N) (r k : Fin 128),
        outsAt0 (F := Ideal) m c t (ix3 r (0 : Fin 1) k)
          = Cert.Heads.outSplitAt (Ideal.ofBits .f32 0xFF800000#32) (iblk m c 0 t) (iblk m c 1 t) (iblk m c 2 t) (iblk m c 3 t) (iblk m c 4 t) (iblk m c 5 t) r k) :
    θ_run (defs (F := Ideal)) (onTc (τ := τ) (main (F := Ideal))) ⟨m, fun _ => 0, ρ⟩ fun r => ∀ c : Dev nD,
      r.2.mem ((c : Thread nD τ).loc main_v0)
          = Cert.Heads.outSplit (Ideal.ofBits .f32 0xFF800000#32) (m ((c : Thread nD τ).loc main_arg0)) (m ((c : Thread nD τ).loc main_arg1))
              (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run (defs (F := Ideal)) _ _).mono (fun r h c => ⟨(h c).1.trans (final m _ hblk c), (h c).2⟩)
    (Value.run_blocks m ρ)

end Cert.KernelIdeal.Blocks

end
-- ==== Proof.FiniteInputs.lean ====
import proofs.«167954_j46170898432679_2_alg».proof.Defs
import proofs.«167954_j46170898432679_2_alg».proof.Proof.Gen.Pre_finite_inputs
import proofs.«167954_j46170898432679_2_alg».proof.Proof.HeadStep
import Idealize.ShloMosaic.Lib.ReduceAll

/-!
# From "every float input is finite" to "every input entry is a real number"

The certificate's precondition evaluates, for each of the six argument arrays, the test
`|x| < +∞` at every entry, takes the conjunction of all entries of the array (a reduction by
`and` over every axis, started at `true`), and takes the conjunction of the six results; it states
that the outcome is `true`. Over the extended reals `|x| = max x (-x)`, which is `⊤` at both
`⊥` and `⊤`; so `|x| < ⊤` holds exactly at the real numbers. Reading the conjunctions back gives,
for each array, that every entry is a real number.
-/

namespace Cert.Proof.FiniteInputs

open Idealize.ShloMosaic Idealize.SL.Sem

/-- The word `0x7F800000` — sign 0, exponent all ones, significand 0 — denotes `+∞`. -/
theorem inf_word : Ideal.ofBits .f32 0x7F800000#32 = (⊤ : EReal) := by
  simp [Ideal.ofBits, Ideal.ieee]

/-- An extended real whose absolute value `max x (-x)` is strictly below `⊤` is a real number:
    at `⊥` and at `⊤` the absolute value is `⊤`. -/
theorem real_of_abs_lt_top (x : EReal)
    (h : Ideal.cmp .olt (max x (-x)) (⊤ : EReal) = 1#1) : Cert.Heads.IsReal x := by
  induction x using EReal.rec with
  | bot => simp [Ideal.cmp] at h
  | top => simp [Ideal.cmp] at h
  | coe r => exact ⟨r, rfl⟩

/-- The shape of a scalar has exactly one index. -/
instance : Subsingleton Cert.Pre_finite_inputs.S_.Idx := ⟨fun a b => funext fun d => d.elim0⟩

/-- One array's test read back: if the conjunction over all entries of `|x i| < +∞` is `true`,
    every entry of `x` is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1)
    (i : s.Idx) : Cert.Heads.IsReal (x i) := by
  have e1 := Host.reduce_andi_all _ _ hr hu _ e i
  have e2 : Ideal.cmp .olt (max (x i) (-(x i))) (Ideal.ofBits .f32 0x7F800000#32) = 1#1 := e1
  rw [inf_word] at e2
  exact real_of_abs_lt_top (x i) e2

theorem inputs_real [hPre : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, Cert.Heads.IsReal (m ((c.tc : Thread Cert.KernelIdeal.nD Cert.KernelIdeal.τ).loc Cert.KernelIdeal.main_arg0) j))
    ∧ (∀ j, Cert.Heads.IsReal (m ((c.tc : Thread Cert.KernelIdeal.nD Cert.KernelIdeal.τ).loc Cert.KernelIdeal.main_arg1) j))
    ∧ (∀ j, Cert.Heads.IsReal (m ((c.tc : Thread Cert.KernelIdeal.nD Cert.KernelIdeal.τ).loc Cert.KernelIdeal.main_arg2) j))
    ∧ (∀ j, Cert.Heads.IsReal (m ((c.tc : Thread Cert.KernelIdeal.nD Cert.KernelIdeal.τ).loc Cert.KernelIdeal.main_arg3) j)) := by
  have h0 := congrFun (h c) ValueIdx.ix0
  dsimp only [Cert.Pre_finite_inputs.fn, Cert.Pre_finite_inputs.fn_part1] at h0
  -- the six-fold conjunction, split from the outside in
  obtain ⟨h01234, -⟩ := IntOp.andi_eq_one.1 h0
  obtain ⟨h0123, -⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨fun j => all_real _ _ _ _ h0' j, fun j => all_real _ _ _ _ h1 j,
    fun j => all_real _ _ _ _ h2 j, fun j => all_real _ _ _ _ h3 j⟩

end Cert.Proof.FiniteInputs
-- ==== Proof.LibHostMaxForms.lean ====
/-
  The host's reduce with a maximum body over ONE axis of a rank-2 or rank-3 array, read at an index written by its
  coordinates: the maximum, folded from the initial value, of the operand along that axis.  (The general statement
  folds over the reduced index with the coordinate inserted; here the inserted index is spelt out.)
-/
import Idealize.ShloMosaic.PureOps.Ideal.Laws
import Idealize.ShloMosaic.Lib.ValueIdx

namespace Idealize.ShloMosaic.ValueIdx

open Idealize.ShloMosaic

variable {A B C : ℕ}

/-- (r, s) with k put back on the last axis is (r, s, k). -/
theorem lift3_last (h : (⟨3, ![A, B, C]⟩ : Shape).Reduces [2] (⟨2, ![A, B]⟩ : Shape)) (r : Fin A) (s : Fin B)
    (k : Fin ((⟨3, ![A, B, C]⟩ : Shape).size 2)) : h.lift (ix2 r s) k = ix3 r s (⟨k.val, k.isLt⟩ : Fin C) := by
  funext c; apply Fin.ext
  fin_cases c <;> rfl

/-- (r, q) with s put back on the middle axis is (r, s, q). -/
theorem lift3_middle (h : (⟨3, ![A, B, C]⟩ : Shape).Reduces [1] (⟨2, ![A, C]⟩ : Shape)) (r : Fin A) (q : Fin C)
    (s : Fin ((⟨3, ![A, B, C]⟩ : Shape).size 1)) : h.lift (ix2 r q) s = ix3 r (⟨s.val, s.isLt⟩ : Fin B) q := by
  funext c; apply Fin.ext
  fin_cases c <;> rfl

/-- r with k put back on the last axis is (r, k). -/
theorem lift2_last (h : (⟨2, ![A, B]⟩ : Shape).Reduces [1] (⟨1, ![A]⟩ : Shape)) (r : Fin A)
    (k : Fin ((⟨2, ![A, B]⟩ : Shape).size 1)) : h.lift (ix1 r) k = ix2 r (⟨k.val, k.isLt⟩ : Fin B) := by
  funext c; apply Fin.ext
  fin_cases c <;> rfl

/-- A rank-3 array reduced by maximum over its last axis, at (r, s). -/
theorem hostReduceMax3_last (x : (⟨3, ![A, B, C]⟩ : Shape).Idx → EReal) (init : (⟨0, ![]⟩ : Shape).Idx → EReal)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (r : Fin A) (s : Fin B) :
    Host.reduce (FloatOps.maximumf (F := Ideal) (φ := .f32)) x init h' hu (ix2 r s)
      = (Finset.univ : Finset (Fin C)).fold max (init (Shape.Idx.first hu)) fun k => x (ix3 r s k) := by
  rw [Host.reduce_eq_fold_single _ x init h' h hu]
  exact congrArg (fun f : Fin C → EReal => (Finset.univ : Finset (Fin C)).fold max (init (Shape.Idx.first hu)) f)
    (funext fun k => congrArg x (lift3_last h r s k))

/-- A rank-3 array reduced by maximum over its middle axis, at (r, q). -/
theorem hostReduceMax3_middle (x : (⟨3, ![A, B, C]⟩ : Shape).Idx → EReal) (init : (⟨0, ![]⟩ : Shape).Idx → EReal)
    (h' : (⟨3, ![A, B, C]⟩ : Shape).ReducesTo [1] (⟨2, ![A, C]⟩ : Shape))
    (h : (⟨3, ![A, B, C]⟩ : Shape).Reduces [1] (⟨2, ![A, C]⟩ : Shape)) (hu : 0 < (⟨0, ![]⟩ : Shape).numel)
    (r : Fin A) (q : Fin C) :
    Host.reduce (FloatOps.maximumf (F := Ideal) (φ := .f32)) x init h' hu (ix2 r q)
      = (Finset.univ : Finset (Fin B)).fold max (init (Shape.Idx.first hu)) fun s => x (ix3 r s q) := by
  rw [Host.reduce_eq_fold_single _ x init h' h hu]
  exact congrArg (fun f : Fin B → EReal => (Finset.univ : Finset (Fin B)).fold max (init (Shape.Idx.first hu)) f)
    (funext fun s => congrArg x (lift3_middle h r q s))

/-- A rank-2 array reduced by maximum over its last axis, at r. -/
theorem hostReduceMax2_last (x : (⟨2, ![A, B]⟩ : Shape).Idx → EReal) (init : (⟨0, ![]⟩ : Shape).Idx → EReal)
    (h' : (⟨2, ![A, B]⟩ : Shape).ReducesTo [1] (⟨1, ![A]⟩ : Shape))
    (h : (⟨2, ![A, B]⟩ : Shape).Reduces [1] (⟨1, ![A]⟩ : Shape)) (hu : 0 < (⟨0, ![]⟩ : Shape).numel) (r : Fin A) :
    Host.reduce (FloatOps.maximumf (F := Ideal) (φ := .f32)) x init h' hu (ix1 r)
      = (Finset.univ : Finset (Fin B)).fold max (init (Shape.Idx.first hu)) fun k => x (ix2 r k) := by
  rw [Host.reduce_eq_fold_single _ x init h' h hu]
  exact congrArg (fun f : Fin B → EReal => (Finset.univ : Finset (Fin B)).fold max (init (Shape.Idx.first hu)) f)
    (funext fun k => congrArg x (lift2_last h r k))

end Idealize.ShloMosaic.ValueIdx
-- ==== Proof.RefForms.lean ====
/-
  The reference program as a function of its six argument arrays, and what it holds index by index.

  The reference keeps, for every batch row, 65 hidden vectors (the 64 neighbour rows with the extra row put after
  them).  Eight times in sequence it sends all 65 vectors through a dense layer, scores the new vectors against the
  extra row of the ARGUMENT, takes the softmax of the 65 scores and forms the softmax-weighted sum of the new
  vectors: one context per head.  The eight contexts side by side go through the output layer and the rectifier.

  This file writes each kind of step ONCE as a function of whole arrays built from the same array operations the
  printed program uses (a dense layer; the score / softmax / weighted-sum chain; the slice of one head's weight and
  bias; the output layer on the joined contexts), and reads each of them at an index given by its coordinates:
  a contraction is a finite sum over the contracted axis, a broadcast reads its operand where the broadcast axes are
  dropped, a slice adds its offset, a cast keeps the row-major position, a concatenation reads the piece that holds
  the coordinate on the joined axis.  The reads are stated in the vocabulary of the row-by-row specification
  (a dense layer on one vector, the score of a vector, the context of 65 rows).
-/
import proofs.«167954_j46170898432679_2_alg».proof.Proof.Gen.ReferenceIdeal
import proofs.«167954_j46170898432679_2_alg».proof.Proof.HeadStep
import proofs.«167954_j46170898432679_2_alg».proof.Proof.LibHostMaxForms
import Idealize.ShloMosaic.Lib.Pipeline.Value
import Idealize.ShloMosaic.Lib.ValueIdx
import Idealize.ShloMosaic.PureOps.Ideal.Laws

noncomputable section

namespace Cert.ReferenceIdeal.RefForms

open Cert.ReferenceIdeal Cert.ReferenceIdeal.Gen Idealize.ShloMosaic Idealize.ShloMosaic.TcCoe Idealize.SL.Sem Idealize.ShloMosaic.StableHlo
open Idealize.ShloMosaic.ValueIdx

/-- A whole array of floats of the given shape (at the ideal instance: of extended reals). -/
abbrev Arr (F : FTy → Type) (S : Shape) : Type := (⟨S, .f32⟩ : BufTy).Contents (Elt F)

variable {F : FTy → Type} [FloatOps F]

/-! ## The steps as functions of whole arrays -/

/-- A dense layer on every one of the 8192 × 65 vectors: q ↦ q·W + b. -/
def RProj (q : Arr F S8192x65x128) (W : Arr F S128x128) (b : Arr F S128) : Arr F S8192x65x128 :=
  addf (Host.dotGeneral dot_S8192x65x128_S128x128_S8192x65x128_2_0_01_1_n_n none q W)
    (broadcastInDim S8192x65x128 ![0, 1, 2] bcast_S1x1x128_S8192x65x128_0_1_2 (broadcastInDim S1x1x128 ![2] bcast_S128_S1x1x128_2 b))

/-- The 65 scores of every batch row: each of the 65 vectors against the batch row's fixed vector. -/
def RScore (x1 : Arr F S8192x1x128) (q : Arr F S8192x65x128) : Arr F S8192x1x65 :=
  Host.dotGeneral dot_S8192x1x128_S8192x65x128_S8192x1x65_2_2_1_1_0_0 none x1 q

/-- The largest of a batch row's 65 scores (folded from the starting word, and compared with it once more). -/
def RMax (e : Arr F S8192x1x65) : Arr F S8192x1 :=
  maximumf (broadcastInDim S8192x1 ![] bcast_S_S8192x1 (constant S_ .f32 0xFF800000#32))
    (Host.reduce FloatOps.maximumf e (constant S_ .f32 0xFF800000#32) reducesTo_S8192x1x65_S8192x1_d2 h_S_)

/-- The exponentials of the scores less their maximum. -/
def RExp (e : Arr F S8192x1x65) : Arr F S8192x1x65 :=
  Host.exp (subf e (broadcastInDim S8192x1x65 ![0, 1, 2] bcast_S8192x1x1_S8192x1x65_0_1_2 (broadcastInDim S8192x1x1 ![0, 1] bcast_S8192x1_S8192x1x1_0_1 (RMax e))))

/-- The normalising sum of a batch row: its 65 exponentials added up. -/
def RSum (p : Arr F S8192x1x65) : Arr F S8192x1 :=
  Host.reduceAdd p (constant S_ .f32 0x00000000#32) reducesTo_S8192x1x65_S8192x1_d2 h_S_

/-- The softmax weights: every exponential divided by its batch row's normalising sum. -/
def RSoft (e : Arr F S8192x1x65) : Arr F S8192x1x65 :=
  Host.divf (RExp e) (broadcastInDim S8192x1x65 ![0, 1, 2] bcast_S8192x1x1_S8192x1x65_0_1_2 (broadcastInDim S8192x1x1 ![0, 1] bcast_S8192x1_S8192x1x1_0_1 (RSum (RExp e))))

/-- A head's context: the softmax-weighted sum of the batch row's 65 vectors. -/
def RCtx (x1 : Arr F S8192x1x128) (q : Arr F S8192x65x128) : Arr F S8192x1x128 :=
  Host.dotGeneral dot_S8192x1x65_S8192x65x128_S8192x1x128_2_1_1_2_0_0 none (RSoft (RScore x1 q)) q

/-- The 64 neighbour rows with the extra row put after them. -/
def RJoin (x0 : Arr F S8192x64x128) (x1 : Arr F S8192x1x128) : Arr F S8192x65x128 :=
  concatenate S8192x65x128 1 [⟨S8192x64x128, x0⟩, ⟨S8192x1x128, x1⟩] concatenates_S8192x64x128_S8192x1x128_S8192x65x128_d1

/-! ### One head's weight and bias out of the stacked arrays

Head i's weight is slab i of the [8, 128, 128] array: a slice of extent 1 on the first axis starting at i, with the
unit axis dropped; its bias is row i of the [8, 128] array in the same way. -/

/-- The first head's weight. -/
def SliceW0 (x2 : Arr F S8x128x128) : Arr F S128x128 :=
  shapeCast _ (extractStridedSlice S1x128x128 ![0, 0, 0] x2 slices_S8x128x128_S1x128x128_0_0_0) shapeCasts_S1x128x128_S128x128
/-- The first head's bias. -/
def SliceB0 (x3 : Arr F S8x128) : Arr F S128 :=
  shapeCast _ (extractStridedSlice S1x128 ![0, 0] x3 slices_S8x128_S1x128_0_0) shapeCasts_S1x128_S128

/-- The second head's weight. -/
def SliceW1 (x2 : Arr F S8x128x128) : Arr F S128x128 :=
  shapeCast _ (extractStridedSlice S1x128x128 ![1, 0, 0] x2 slices_S8x128x128_S1x128x128_1_0_0) shapeCasts_S1x128x128_S128x128
/-- The second head's bias. -/
def SliceB1 (x3 : Arr F S8x128) : Arr F S128 :=
  shapeCast _ (extractStridedSlice S1x128 ![1, 0] x3 slices_S8x128_S1x128_1_0) shapeCasts_S1x128_S128

/-- The third head's weight. -/
def SliceW2 (x2 : Arr F S8x128x128) : Arr F S128x128 :=
  shapeCast _ (extractStridedSlice S1x128x128 ![2, 0, 0] x2 slices_S8x128x128_S1x128x128_2_0_0) shapeCasts_S1x128x128_S128x128
/-- The third head's bias. -/
def SliceB2 (x3 : Arr F S8x128) : Arr F S128 :=
  shapeCast _ (extractStridedSlice S1x128 ![2, 0] x3 slices_S8x128_S1x128_2_0) shapeCasts_S1x128_S128

/-- The fourth head's weight. -/
def SliceW3 (x2 : Arr F S8x128x128) : Arr F S128x128 :=
  shapeCast _ (extractStridedSlice S1x128x128 ![3, 0, 0] x2 slices_S8x128x128_S1x128x128_3_0_0) shapeCasts_S1x128x128_S128x128
/-- The fourth head's bias. -/
def SliceB3 (x3 : Arr F S8x128) : Arr F S128 :=
  shapeCast _ (extractStridedSlice S1x128 ![3, 0] x3 slices_S8x128_S1x128_3_0) shapeCasts_S1x128_S128

/-- The fifth head's weight. -/
def SliceW4 (x2 : Arr F S8x128x128) : Arr F S128x128 :=
  shapeCast _ (extractStridedSlice S1x128x128 ![4, 0, 0] x2 slices_S8x128x128_S1x128x128_4_0_0) shapeCasts_S1x128x128_S128x128
/-- The fifth head's bias. -/
def SliceB4 (x3 : Arr F S8x128) : Arr F S128 :=
  shapeCast _ (extractStridedSlice S1x128 ![4, 0] x3 slices_S8x128_S1x128_4_0) shapeCasts_S1x128_S128

/-- The sixth head's weight. -/
def SliceW5 (x2 : Arr F S8x128x128) : Arr F S128x128 :=
  shapeCast _ (extractStridedSlice S1x128x128 ![5, 0, 0] x2 slices_S8x128x128_S1x128x128_5_0_0) shapeCasts_S1x128x128_S128x128
/-- The sixth head's bias. -/
def SliceB5 (x3 : Arr F S8x128) : Arr F S128 :=
  shapeCast _ (extractStridedSlice S1x128 ![5, 0] x3 slices_S8x128_S1x128_5_0) shapeCasts_S1x128_S128

/-- The seventh head's weight. -/
def SliceW6 (x2 : Arr F S8x128x128) : Arr F S128x128 :=
  shapeCast _ (extractStridedSlice S1x128x128 ![6, 0, 0] x2 slices_S8x128x128_S1x128x128_6_0_0) shapeCasts_S1x128x128_S128x128
/-- The seventh head's bias. -/
def SliceB6 (x3 : Arr F S8x128) : Arr F S128 :=
  shapeCast _ (extractStridedSlice S1x128 ![6, 0] x3 slices_S8x128_S1x128_6_0) shapeCasts_S1x128_S128

/-- The eighth head's weight. -/
def SliceW7 (x2 : Arr F S8x128x128) : Arr F S128x128 :=
  shapeCast _ (extractStridedSlice S1x128x128 ![7, 0, 0] x2 slices_S8x128x128_S1x128x128_7_0_0) shapeCasts_S1x128x128_S128x128
/-- The eighth head's bias. -/
def SliceB7 (x3 : Arr F S8x128) : Arr F S128 :=
  shapeCast _ (extractStridedSlice S1x128 ![7, 0] x3 slices_S8x128_S1x128_7_0) shapeCasts_S1x128_S128

/-! ### The output layer -/

/-- The eight contexts side by side, through the output layer, its bias added, then the rectifier. -/
def RTail (c0 c1 c2 c3 c4 c5 c6 c7 : Arr F S8192x1x128) (x4 : Arr F S1024x128) (x5 : Arr F S128) : Arr F S8192x1x128 :=
  maximumf
    (addf
      (Host.dotGeneral dot_S8192x1x1024_S1024x128_S8192x1x128_2_0_01_1_n_n none
        (concatenate S8192x1x1024 2 [⟨S8192x1x128, c0⟩, ⟨S8192x1x128, c1⟩, ⟨S8192x1x128, c2⟩, ⟨S8192x1x128, c3⟩, ⟨S8192x1x128, c4⟩, ⟨S8192x1x128, c5⟩, ⟨S8192x1x128, c6⟩, ⟨S8192x1x128, c7⟩] concatenates_S8192x1x128_S8192x1x128_S8192x1x128_S8192x1x128_S8192x1x128_S8192x1x128_S8192x1x128_S8192x1x128_S8192x1x1024_d2)
        x4)
      (broadcastInDim S8192x1x128 ![0, 1, 2] bcast_S1x1x128_S8192x1x128_0_1_2 (broadcastInDim S1x1x128 ![2] bcast_S128_S1x1x128_2 x5)))
    (broadcastInDim S8192x1x128 ![] bcast_S_S8192x1x128 (constant S_ .f32 0x00000000#32))

/-! ### The whole program

The 65 rows of every batch row after the dense layers of the first i+1 heads, as whole arrays. -/

def Q0 (x0 : Arr F S8192x64x128) (x1 : Arr F S8192x1x128) (x2 : Arr F S8x128x128) (x3 : Arr F S8x128) : Arr F S8192x65x128 :=
  RProj (RJoin x0 x1) (SliceW0 x2) (SliceB0 x3)
def Q1 (x0 : Arr F S8192x64x128) (x1 : Arr F S8192x1x128) (x2 : Arr F S8x128x128) (x3 : Arr F S8x128) : Arr F S8192x65x128 :=
  RProj (Q0 x0 x1 x2 x3) (SliceW1 x2) (SliceB1 x3)
def Q2 (x0 : Arr F S8192x64x128) (x1 : Arr F S8192x1x128) (x2 : Arr F S8x128x128) (x3 : Arr F S8x128) : Arr F S8192x65x128 :=
  RProj (Q1 x0 x1 x2 x3) (SliceW2 x2) (SliceB2 x3)
def Q3 (x0 : Arr F S8192x64x128) (x1 : Arr F S8192x1x128) (x2 : Arr F S8x128x128) (x3 : Arr F S8x128) : Arr F S8192x65x128 :=
  RProj (Q2 x0 x1 x2 x3) (SliceW3 x2) (SliceB3 x3)
def Q4 (x0 : Arr F S8192x64x128) (x1 : Arr F S8192x1x128) (x2 : Arr F S8x128x128) (x3 : Arr F S8x128) : Arr F S8192x65x128 :=
  RProj (Q3 x0 x1 x2 x3) (SliceW4 x2) (SliceB4 x3)
def Q5 (x0 : Arr F S8192x64x128) (x1 : Arr F S8192x1x128) (x2 : Arr F S8x128x128) (x3 : Arr F S8x128) : Arr F S8192x65x128 :=
  RProj (Q4 x0 x1 x2 x3) (SliceW5 x2) (SliceB5 x3)
def Q6 (x0 : Arr F S8192x64x128) (x1 : Arr F S8192x1x128) (x2 : Arr F S8x128x128) (x3 : Arr F S8x128) : Arr F S8192x65x128 :=
  RProj (Q5 x0 x1 x2 x3) (SliceW6 x2) (SliceB6 x3)
def Q7 (x0 : Arr F S8192x64x128) (x1 : Arr F S8192x1x128) (x2 : Arr F S8x128x128) (x3 : Arr F S8x128) : Arr F S8192x65x128 :=
  RProj (Q6 x0 x1 x2 x3) (SliceW7 x2) (SliceB7 x3)

/-- The reference's result as a function of its six arguments. -/
def RefOut (x0 : Arr F S8192x64x128) (x1 : Arr F S8192x1x128) (x2 : Arr F S8x128x128) (x3 : Arr F S8x128) (x4 : Arr F S1024x128) (x5 : Arr F S128) : Arr F S8192x1x128 :=
  RTail (RCtx x1 (Q0 x0 x1 x2 x3)) (RCtx x1 (Q1 x0 x1 x2 x3)) (RCtx x1 (Q2 x0 x1 x2 x3)) (RCtx x1 (Q3 x0 x1 x2 x3))
    (RCtx x1 (Q4 x0 x1 x2 x3)) (RCtx x1 (Q5 x0 x1 x2 x3)) (RCtx x1 (Q6 x0 x1 x2 x3)) (RCtx x1 (Q7 x0 x1 x2 x3)) x4 x5

/-! ## Contractions at an index

A contraction's element is the sum, over the contracted axis, of the left operand times the right operand, each read
at the index the dimension numbers assemble: a batch axis and a kept axis take the result's coordinate, the
contracted axis takes the summation variable.  First the assembled indices coordinate by coordinate, for the four
contractions of the program; then each contraction at an index given by its coordinates. -/
theorem lhsProj_0 (i : S8192x65x128.Idx) (q : dot_S8192x65x128_S128x128_S8192x65x128_2_0_01_1_n_n.contr.Idx) :
    (dot_S8192x65x128_S128x128_S8192x65x128_2_0_01_1_n_n.lhsIdx i q 0).val = (i 0).val := by
  unfold DotDims.lhsIdx
  rw [dif_neg (show ¬(0 : Fin S8192x65x128.rank) ∈ dot_S8192x65x128_S128x128_S8192x65x128_2_0_01_1_n_n.lhsBatch by decide), dif_pos (show (0 : Fin S8192x65x128.rank) ∈ dot_S8192x65x128_S128x128_S8192x65x128_2_0_01_1_n_n.lhsNonContracting by decide)]
  rfl
theorem lhsProj_1 (i : S8192x65x128.Idx) (q : dot_S8192x65x128_S128x128_S8192x65x128_2_0_01_1_n_n.contr.Idx) :
    (dot_S8192x65x128_S128x128_S8192x65x128_2_0_01_1_n_n.lhsIdx i q 1).val = (i 1).val := by
  unfold DotDims.lhsIdx
  rw [dif_neg (show ¬(1 : Fin S8192x65x128.rank) ∈ dot_S8192x65x128_S128x128_S8192x65x128_2_0_01_1_n_n.lhsBatch by decide), dif_pos (show (1 : Fin S8192x65x128.rank) ∈ dot_S8192x65x128_S128x128_S8192x65x128_2_0_01_1_n_n.lhsNonContracting by decide)]
  rfl
theorem lhsProj_2 (i : S8192x65x128.Idx) (q : dot_S8192x65x128_S128x128_S8192x65x128_2_0_01_1_n_n.contr.Idx) :
    (dot_S8192x65x128_S128x128_S8192x65x128_2_0_01_1_n_n.lhsIdx i q 2).val = (q ⟨0, by decide⟩).val :=
  dot_S8192x65x128_S128x128_S8192x65x128_2_0_01_1_n_n.lhsIdx_val_of_single rfl i q
theorem rhsProj_0 (i : S8192x65x128.Idx) (q : dot_S8192x65x128_S128x128_S8192x65x128_2_0_01_1_n_n.contr.Idx) :
    (dot_S8192x65x128_S128x128_S8192x65x128_2_0_01_1_n_n.rhsIdx i q 0).val = (q ⟨0, by decide⟩).val :=
  dot_S8192x65x128_S128x128_S8192x65x128_2_0_01_1_n_n.rhsIdx_val_of_single rfl i q
theorem rhsProj_1 (i : S8192x65x128.Idx) (q : dot_S8192x65x128_S128x128_S8192x65x128_2_0_01_1_n_n.contr.Idx) :
    (dot_S8192x65x128_S128x128_S8192x65x128_2_0_01_1_n_n.rhsIdx i q 1).val = (i 2).val := by
  unfold DotDims.rhsIdx
  rw [dif_neg (show ¬(1 : Fin S128x128.rank) ∈ dot_S8192x65x128_S128x128_S8192x65x128_2_0_01_1_n_n.rhsBatch by decide), dif_pos (show (1 : Fin S128x128.rank) ∈ dot_S8192x65x128_S128x128_S8192x65x128_2_0_01_1_n_n.rhsNonContracting by decide)]
  rfl
theorem lhsScore_0 (i : S8192x1x65.Idx) (q : dot_S8192x1x128_S8192x65x128_S8192x1x65_2_2_1_1_0_0.contr.Idx) :
    (dot_S8192x1x128_S8192x65x128_S8192x1x65_2_2_1_1_0_0.lhsIdx i q 0).val = (i 0).val := by
  unfold DotDims.lhsIdx
  rw [dif_pos (show (0 : Fin S8192x1x128.rank) ∈ dot_S8192x1x128_S8192x65x128_S8192x1x65_2_2_1_1_0_0.lhsBatch by decide)]
  rfl
theorem lhsScore_1 (i : S8192x1x65.Idx) (q : dot_S8192x1x128_S8192x65x128_S8192x1x65_2_2_1_1_0_0.contr.Idx) :
    (dot_S8192x1x128_S8192x65x128_S8192x1x65_2_2_1_1_0_0.lhsIdx i q 1).val = (i 1).val := by
  unfold DotDims.lhsIdx
  rw [dif_neg (show ¬(1 : Fin S8192x1x128.rank) ∈ dot_S8192x1x128_S8192x65x128_S8192x1x65_2_2_1_1_0_0.lhsBatch by decide), dif_pos (show (1 : Fin S8192x1x128.rank) ∈ dot_S8192x1x128_S8192x65x128_S8192x1x65_2_2_1_1_0_0.lhsNonContracting by decide)]
  rfl
theorem lhsScore_2 (i : S8192x1x65.Idx) (q : dot_S8192x1x128_S8192x65x128_S8192x1x65_2_2_1_1_0_0.contr.Idx) :
    (dot_S8192x1x128_S8192x65x128_S8192x1x65_2_2_1_1_0_0.lhsIdx i q 2).val = (q ⟨0, by decide⟩).val :=
  dot_S8192x1x128_S8192x65x128_S8192x1x65_2_2_1_1_0_0.lhsIdx_val_of_single rfl i q
theorem rhsScore_0 (i : S8192x1x65.Idx) (q : dot_S8192x1x128_S8192x65x128_S8192x1x65_2_2_1_1_0_0.contr.Idx) :
    (dot_S8192x1x128_S8192x65x128_S8192x1x65_2_2_1_1_0_0.rhsIdx i q 0).val = (i 0).val := by
  unfold DotDims.rhsIdx
  rw [dif_pos (show (0 : Fin S8192x65x128.rank) ∈ dot_S8192x1x128_S8192x65x128_S8192x1x65_2_2_1_1_0_0.rhsBatch by decide)]
  rfl
theorem rhsScore_1 (i : S8192x1x65.Idx) (q : dot_S8192x1x128_S8192x65x128_S8192x1x65_2_2_1_1_0_0.contr.Idx) :
    (dot_S8192x1x128_S8192x65x128_S8192x1x65_2_2_1_1_0_0.rhsIdx i q 1).val = (i 2).val := by
  unfold DotDims.rhsIdx
  rw [dif_neg (show ¬(1 : Fin S8192x65x128.rank) ∈ dot_S8192x1x128_S8192x65x128_S8192x1x65_2_2_1_1_0_0.rhsBatch by decide), dif_pos (show (1 : Fin S8192x65x128.rank) ∈ dot_S8192x1x128_S8192x65x128_S8192x1x65_2_2_1_1_0_0.rhsNonContracting by decide)]
  rfl
theorem rhsScore_2 (i : S8192x1x65.Idx) (q : dot_S8192x1x128_S8192x65x128_S8192x1x65_2_2_1_1_0_0.contr.Idx) :
    (dot_S8192x1x128_S8192x65x128_S8192x1x65_2_2_1_1_0_0.rhsIdx i q 2).val = (q ⟨0, by decide⟩).val :=
  dot_S8192x1x128_S8192x65x128_S8192x1x65_2_2_1_1_0_0.rhsIdx_val_of_single rfl i q
theorem lhsCtx_0 (i : S8192x1x128.Idx) (q : dot_S8192x1x65_S8192x65x128_S8192x1x128_2_1_1_2_0_0.contr.Idx) :
    (dot_S8192x1x65_S8192x65x128_S8192x1x128_2_1_1_2_0_0.lhsIdx i q 0).val = (i 0).val := by
  unfold DotDims.lhsIdx
  rw [dif_pos (show (0 : Fin S8192x1x65.rank) ∈ dot_S8192x1x65_S8192x65x128_S8192x1x128_2_1_1_2_0_0.lhsBatch by decide)]
  rfl
theorem lhsCtx_1 (i : S8192x1x128.Idx) (q : dot_S8192x1x65_S8192x65x128_S8192x1x128_2_1_1_2_0_0.contr.Idx) :
    (dot_S8192x1x65_S8192x65x128_S8192x1x128_2_1_1_2_0_0.lhsIdx i q 1).val = (i 1).val := by
  unfold DotDims.lhsIdx
  rw [dif_neg (show ¬(1 : Fin S8192x1x65.rank) ∈ dot_S8192x1x65_S8192x65x128_S8192x1x128_2_1_1_2_0_0.lhsBatch by decide), dif_pos (show (1 : Fin S8192x1x65.rank) ∈ dot_S8192x1x65_S8192x65x128_S8192x1x128_2_1_1_2_0_0.lhsNonContracting by decide)]
  rfl
theorem lhsCtx_2 (i : S8192x1x128.Idx) (q : dot_S8192x1x65_S8192x65x128_S8192x1x128_2_1_1_2_0_0.contr.Idx) :
    (dot_S8192x1x65_S8192x65x128_S8192x1x128_2_1_1_2_0_0.lhsIdx i q 2).val = (q ⟨0, by decide⟩).val :=
  dot_S8192x1x65_S8192x65x128_S8192x1x128_2_1_1_2_0_0.lhsIdx_val_of_single rfl i q
theorem rhsCtx_0 (i : S8192x1x128.Idx) (q : dot_S8192x1x65_S8192x65x128_S8192x1x128_2_1_1_2_0_0.contr.Idx) :
    (dot_S8192x1x65_S8192x65x128_S8192x1x128_2_1_1_2_0_0.rhsIdx i q 0).val = (i 0).val := by
  unfold DotDims.rhsIdx
  rw [dif_pos (show (0 : Fin S8192x65x128.rank) ∈ dot_S8192x1x65_S8192x65x128_S8192x1x128_2_1_1_2_0_0.rhsBatch by decide)]
  rfl
theorem rhsCtx_1 (i : S8192x1x128.Idx) (q : dot_S8192x1x65_S8192x65x128_S8192x1x128_2_1_1_2_0_0.contr.Idx) :
    (dot_S8192x1x65_S8192x65x128_S8192x1x128_2_1_1_2_0_0.rhsIdx i q 1).val = (q ⟨0, by decide⟩).val :=
  dot_S8192x1x65_S8192x65x128_S8192x1x128_2_1_1_2_0_0.rhsIdx_val_of_single rfl i q
theorem rhsCtx_2 (i : S8192x1x128.Idx) (q : dot_S8192x1x65_S8192x65x128_S8192x1x128_2_1_1_2_0_0.contr.Idx) :
    (dot_S8192x1x65_S8192x65x128_S8192x1x128_2_1_1_2_0_0.rhsIdx i q 2).val = (i 2).val := by
  unfold DotDims.rhsIdx
  rw [dif_neg (show ¬(2 : Fin S8192x65x128.rank) ∈ dot_S8192x1x65_S8192x65x128_S8192x1x128_2_1_1_2_0_0.rhsBatch by decide), dif_pos (show (2 : Fin S8192x65x128.rank) ∈ dot_S8192x1x65_S8192x65x128_S8192x1x128_2_1_1_2_0_0.rhsNonContracting by decide)]
  rfl
theorem lhsOut_0 (i : S8192x1x128.Idx) (q : dot_S8192x1x1024_S1024x128_S8192x1x128_2_0_01_1_n_n.contr.Idx) :
    (dot_S8192x1x1024_S1024x128_S8192x1x128_2_0_01_1_n_n.lhsIdx i q 0).val = (i 0).val := by
  unfold DotDims.lhsIdx
  rw [dif_neg (show ¬(0 : Fin S8192x1x1024.rank) ∈ dot_S8192x1x1024_S1024x128_S8192x1x128_2_0_01_1_n_n.lhsBatch by decide), dif_pos (show (0 : Fin S8192x1x1024.rank) ∈ dot_S8192x1x1024_S1024x128_S8192x1x128_2_0_01_1_n_n.lhsNonContracting by decide)]
  rfl
theorem lhsOut_1 (i : S8192x1x128.Idx) (q : dot_S8192x1x1024_S1024x128_S8192x1x128_2_0_01_1_n_n.contr.Idx) :
    (dot_S8192x1x1024_S1024x128_S8192x1x128_2_0_01_1_n_n.lhsIdx i q 1).val = (i 1).val := by
  unfold DotDims.lhsIdx
  rw [dif_neg (show ¬(1 : Fin S8192x1x1024.rank) ∈ dot_S8192x1x1024_S1024x128_S8192x1x128_2_0_01_1_n_n.lhsBatch by decide), dif_pos (show (1 : Fin S8192x1x1024.rank) ∈ dot_S8192x1x1024_S1024x128_S8192x1x128_2_0_01_1_n_n.lhsNonContracting by decide)]
  rfl
theorem lhsOut_2 (i : S8192x1x128.Idx) (q : dot_S8192x1x1024_S1024x128_S8192x1x128_2_0_01_1_n_n.contr.Idx) :
    (dot_S8192x1x1024_S1024x128_S8192x1x128_2_0_01_1_n_n.lhsIdx i q 2).val = (q ⟨0, by decide⟩).val :=
  dot_S8192x1x1024_S1024x128_S8192x1x128_2_0_01_1_n_n.lhsIdx_val_of_single rfl i q
theorem rhsOut_0 (i : S8192x1x128.Idx) (q : dot_S8192x1x1024_S1024x128_S8192x1x128_2_0_01_1_n_n.contr.Idx) :
    (dot_S8192x1x1024_S1024x128_S8192x1x128_2_0_01_1_n_n.rhsIdx i q 0).val = (q ⟨0, by decide⟩).val :=
  dot_S8192x1x1024_S1024x128_S8192x1x128_2_0_01_1_n_n.rhsIdx_val_of_single rfl i q
theorem rhsOut_1 (i : S8192x1x128.Idx) (q : dot_S8192x1x1024_S1024x128_S8192x1x128_2_0_01_1_n_n.contr.Idx) :
    (dot_S8192x1x1024_S1024x128_S8192x1x128_2_0_01_1_n_n.rhsIdx i q 1).val = (i 2).val := by
  unfold DotDims.rhsIdx
  rw [dif_neg (show ¬(1 : Fin S1024x128.rank) ∈ dot_S8192x1x1024_S1024x128_S8192x1x128_2_0_01_1_n_n.rhsBatch by decide), dif_pos (show (1 : Fin S1024x128.rank) ∈ dot_S8192x1x1024_S1024x128_S8192x1x128_2_0_01_1_n_n.rhsNonContracting by decide)]
  rfl

/-- The dense layer's contraction at (B, n, k): the sum over the input coordinate h of q(B, n, h) · W(h, k). -/
theorem dotProj_apply (q : Arr Ideal S8192x65x128) (W : Arr Ideal S128x128) (B : Fin 8192) (n : Fin 65) (k : Fin 128) :
    Host.dotGeneral (F := Ideal) (φ₁ := .f32) (φ₂ := .f32) dot_S8192x65x128_S128x128_S8192x65x128_2_0_01_1_n_n none q W (ix3 B n k)
      = ∑ h : Fin 128, q (ix3 B n h) * W (ix2 h k) := by
  simp only [Host.dotGeneral]
  rw [Ideal.dotGeneral_apply, ← Equiv.sum_comp (ValueIdx.contrEquiv1 dot_S8192x65x128_S128x128_S8192x65x128_2_0_01_1_n_n 128 rfl rfl).symm]
  refine Finset.sum_congr rfl fun h _ => ?_
  have hk := ValueIdx.contrEquiv1_symm_val dot_S8192x65x128_S128x128_S8192x65x128_2_0_01_1_n_n 128 rfl rfl h
  have el : dot_S8192x65x128_S128x128_S8192x65x128_2_0_01_1_n_n.lhsIdx (ix3 B n k) ((ValueIdx.contrEquiv1 dot_S8192x65x128_S128x128_S8192x65x128_2_0_01_1_n_n 128 rfl rfl).symm h) = ix3 B n h := funext fun a => Fin.ext (by
    match a with
    | ⟨0, _⟩ => exact lhsProj_0 _ _
    | ⟨1, _⟩ => exact lhsProj_1 _ _
    | ⟨2, _⟩ => exact (lhsProj_2 _ _).trans hk)
  have er : dot_S8192x65x128_S128x128_S8192x65x128_2_0_01_1_n_n.rhsIdx (ix3 B n k) ((ValueIdx.contrEquiv1 dot_S8192x65x128_S128x128_S8192x65x128_2_0_01_1_n_n 128 rfl rfl).symm h) = ix2 h k := funext fun a => Fin.ext (by
    match a with
    | ⟨0, _⟩ => exact (rhsProj_0 _ _).trans hk
    | ⟨1, _⟩ => exact rhsProj_1 _ _)
  rw [el, er]

/-- The score contraction at (B, 0, n): the sum over h of v(B, 0, h) · q(B, n, h). -/
theorem dotScore_apply (x1 : Arr Ideal S8192x1x128) (q : Arr Ideal S8192x65x128) (B : Fin 8192) (o : Fin 1) (n : Fin 65) :
    Host.dotGeneral (F := Ideal) (φ₁ := .f32) (φ₂ := .f32) dot_S8192x1x128_S8192x65x128_S8192x1x65_2_2_1_1_0_0 none x1 q (ix3 B o n)
      = ∑ h : Fin 128, x1 (ix3 B o h) * q (ix3 B n h) := by
  simp only [Host.dotGeneral]
  rw [Ideal.dotGeneral_apply, ← Equiv.sum_comp (ValueIdx.contrEquiv1 dot_S8192x1x128_S8192x65x128_S8192x1x65_2_2_1_1_0_0 128 rfl rfl).symm]
  refine Finset.sum_congr rfl fun h _ => ?_
  have hk := ValueIdx.contrEquiv1_symm_val dot_S8192x1x128_S8192x65x128_S8192x1x65_2_2_1_1_0_0 128 rfl rfl h
  have el : dot_S8192x1x128_S8192x65x128_S8192x1x65_2_2_1_1_0_0.lhsIdx (ix3 B o n) ((ValueIdx.contrEquiv1 dot_S8192x1x128_S8192x65x128_S8192x1x65_2_2_1_1_0_0 128 rfl rfl).symm h) = ix3 B o h := funext fun a => Fin.ext (by
    match a with
    | ⟨0, _⟩ => exact lhsScore_0 _ _
    | ⟨1, _⟩ => exact lhsScore_1 _ _
    | ⟨2, _⟩ => exact (lhsScore_2 _ _).trans hk)
  have er : dot_S8192x1x128_S8192x65x128_S8192x1x65_2_2_1_1_0_0.rhsIdx (ix3 B o n) ((ValueIdx.contrEquiv1 dot_S8192x1x128_S8192x65x128_S8192x1x65_2_2_1_1_0_0 128 rfl rfl).symm h) = ix3 B n h := funext fun a => Fin.ext (by
    match a with
    | ⟨0, _⟩ => exact rhsScore_0 _ _
    | ⟨1, _⟩ => exact rhsScore_1 _ _
    | ⟨2, _⟩ => exact (rhsScore_2 _ _).trans hk)
  rw [el, er]

/-- The context contraction at (B, 0, k): the sum over the 65 rows n of w(B, 0, n) · q(B, n, k). -/
theorem dotCtx_apply (w : Arr Ideal S8192x1x65) (q : Arr Ideal S8192x65x128) (B : Fin 8192) (o : Fin 1) (k : Fin 128) :
    Host.dotGeneral (F := Ideal) (φ₁ := .f32) (φ₂ := .f32) dot_S8192x1x65_S8192x65x128_S8192x1x128_2_1_1_2_0_0 none w q (ix3 B o k)
      = ∑ n : Fin 65, w (ix3 B o n) * q (ix3 B n k) := by
  simp only [Host.dotGeneral]
  rw [Ideal.dotGeneral_apply, ← Equiv.sum_comp (ValueIdx.contrEquiv1 dot_S8192x1x65_S8192x65x128_S8192x1x128_2_1_1_2_0_0 65 rfl rfl).symm]
  refine Finset.sum_congr rfl fun n _ => ?_
  have hk := ValueIdx.contrEquiv1_symm_val dot_S8192x1x65_S8192x65x128_S8192x1x128_2_1_1_2_0_0 65 rfl rfl n
  have el : dot_S8192x1x65_S8192x65x128_S8192x1x128_2_1_1_2_0_0.lhsIdx (ix3 B o k) ((ValueIdx.contrEquiv1 dot_S8192x1x65_S8192x65x128_S8192x1x128_2_1_1_2_0_0 65 rfl rfl).symm n) = ix3 B o n := funext fun a => Fin.ext (by
    match a with
    | ⟨0, _⟩ => exact lhsCtx_0 _ _
    | ⟨1, _⟩ => exact lhsCtx_1 _ _
    | ⟨2, _⟩ => exact (lhsCtx_2 _ _).trans hk)
  have er : dot_S8192x1x65_S8192x65x128_S8192x1x128_2_1_1_2_0_0.rhsIdx (ix3 B o k) ((ValueIdx.contrEquiv1 dot_S8192x1x65_S8192x65x128_S8192x1x128_2_1_1_2_0_0 65 rfl rfl).symm n) = ix3 B n k := funext fun a => Fin.ext (by
    match a with
    | ⟨0, _⟩ => exact rhsCtx_0 _ _
    | ⟨1, _⟩ => exact (rhsCtx_1 _ _).trans hk
    | ⟨2, _⟩ => exact rhsCtx_2 _ _)
  rw [el, er]

/-- The output layer's contraction at (B, 0, k): the sum over the 1024 joined coordinates c of ctx(B, 0, c) · Wo(c, k). -/
theorem dotOut_apply (y : Arr Ideal S8192x1x1024) (x4 : Arr Ideal S1024x128) (B : Fin 8192) (o : Fin 1) (k : Fin 128) :
    Host.dotGeneral (F := Ideal) (φ₁ := .f32) (φ₂ := .f32) dot_S8192x1x1024_S1024x128_S8192x1x128_2_0_01_1_n_n none y x4 (ix3 B o k)
      = ∑ c : Fin 1024, y (ix3 B o c) * x4 (ix2 c k) := by
  simp only [Host.dotGeneral]
  rw [Ideal.dotGeneral_apply, ← Equiv.sum_comp (ValueIdx.contrEquiv1 dot_S8192x1x1024_S1024x128_S8192x1x128_2_0_01_1_n_n 1024 rfl rfl).symm]
  refine Finset.sum_congr rfl fun c _ => ?_
  have hk := ValueIdx.contrEquiv1_symm_val dot_S8192x1x1024_S1024x128_S8192x1x128_2_0_01_1_n_n 1024 rfl rfl c
  have el : dot_S8192x1x1024_S1024x128_S8192x1x128_2_0_01_1_n_n.lhsIdx (ix3 B o k) ((ValueIdx.contrEquiv1 dot_S8192x1x1024_S1024x128_S8192x1x128_2_0_01_1_n_n 1024 rfl rfl).symm c) = ix3 B o c := funext fun a => Fin.ext (by
    match a with
    | ⟨0, _⟩ => exact lhsOut_0 _ _
    | ⟨1, _⟩ => exact lhsOut_1 _ _
    | ⟨2, _⟩ => exact (lhsOut_2 _ _).trans hk)
  have er : dot_S8192x1x1024_S1024x128_S8192x1x128_2_0_01_1_n_n.rhsIdx (ix3 B o k) ((ValueIdx.contrEquiv1 dot_S8192x1x1024_S1024x128_S8192x1x128_2_0_01_1_n_n 1024 rfl rfl).symm c) = ix2 c k := funext fun a => Fin.ext (by
    match a with
    | ⟨0, _⟩ => exact (rhsOut_0 _ _).trans hk
    | ⟨1, _⟩ => exact rhsOut_1 _ _)
  rw [el, er]

/-! ## Layout operations at an index -/

/-- The word the running maxima start from, as an extended real (never evaluated). -/
abbrev zw : EReal := Ideal.ofBits .f32 0xFF800000#32

/-- A bias vector broadcast over all 8192 × 65 vectors reads, at (B, n, k), its entry k. -/
theorem biasBcast65_apply (b : Arr Ideal S128) (B : Fin 8192) (n : Fin 65) (k : Fin 128) :
    broadcastInDim S8192x65x128 ![0, 1, 2] bcast_S1x1x128_S8192x65x128_0_1_2 (broadcastInDim S1x1x128 ![2] bcast_S128_S1x1x128_2 b) (ix3 B n k)
      = b (ix1 k) :=
  (broadcastInDim_apply _ bcast_S1x1x128_S8192x65x128_0_1_2 _ (ix3 B n k) (ix3 (0 : Fin 1) (0 : Fin 1) k) (fun a => match a with
    | ⟨0, _⟩ => by show 0 = if (1 : Nat) = 1 then 0 else B.val; rw [if_pos rfl]
    | ⟨1, _⟩ => by show 0 = if (1 : Nat) = 1 then 0 else n.val; rw [if_pos rfl]
    | ⟨2, _⟩ => by show k.val = if (128 : Nat) = 1 then 0 else k.val; rw [if_neg (by decide)])).trans
  (broadcastInDim_apply _ bcast_S128_S1x1x128_2 b (ix3 (0 : Fin 1) (0 : Fin 1) k) (ix1 k) (fun a => match a with
    | ⟨0, _⟩ => by show k.val = if (128 : Nat) = 1 then 0 else k.val; rw [if_neg (by decide)]))

/-- A bias vector broadcast over all 8192 × 1 vectors reads, at (B, 0, k), its entry k. -/
theorem biasBcast1_apply (b : Arr Ideal S128) (B : Fin 8192) (o : Fin 1) (k : Fin 128) :
    broadcastInDim S8192x1x128 ![0, 1, 2] bcast_S1x1x128_S8192x1x128_0_1_2 (broadcastInDim S1x1x128 ![2] bcast_S128_S1x1x128_2 b) (ix3 B o k)
      = b (ix1 k) :=
  (broadcastInDim_apply _ bcast_S1x1x128_S8192x1x128_0_1_2 _ (ix3 B o k) (ix3 (0 : Fin 1) (0 : Fin 1) k) (fun a => match a with
    | ⟨0, _⟩ => by show 0 = if (1 : Nat) = 1 then 0 else B.val; rw [if_pos rfl]
    | ⟨1, _⟩ => by show 0 = if (1 : Nat) = 1 then 0 else o.val; rw [if_pos rfl]
    | ⟨2, _⟩ => by show k.val = if (128 : Nat) = 1 then 0 else k.val; rw [if_neg (by decide)])).trans
  (broadcastInDim_apply _ bcast_S128_S1x1x128_2 b (ix3 (0 : Fin 1) (0 : Fin 1) k) (ix1 k) (fun a => match a with
    | ⟨0, _⟩ => by show k.val = if (128 : Nat) = 1 then 0 else k.val; rw [if_neg (by decide)]))

/-- One number per batch row broadcast along the 65 scores reads, at (B, 0, n), the batch row's number. -/
theorem rowBcast_apply (y : Arr Ideal S8192x1) (B : Fin 8192) (o : Fin 1) (n : Fin 65) :
    broadcastInDim S8192x1x65 ![0, 1, 2] bcast_S8192x1x1_S8192x1x65_0_1_2 (broadcastInDim S8192x1x1 ![0, 1] bcast_S8192x1_S8192x1x1_0_1 y) (ix3 B o n)
      = y (ix2 B (0 : Fin 1)) :=
  (broadcastInDim_apply _ bcast_S8192x1x1_S8192x1x65_0_1_2 _ (ix3 B o n) (ix3 B (0 : Fin 1) (0 : Fin 1)) (fun a => match a with
    | ⟨0, _⟩ => by show B.val = if (8192 : Nat) = 1 then 0 else B.val; rw [if_neg (by decide)]
    | ⟨1, _⟩ => by show 0 = if (1 : Nat) = 1 then 0 else o.val; rw [if_pos rfl]
    | ⟨2, _⟩ => by show 0 = if (1 : Nat) = 1 then 0 else n.val; rw [if_pos rfl])).trans
  (broadcastInDim_apply _ bcast_S8192x1_S8192x1x1_0_1 y (ix3 B (0 : Fin 1) (0 : Fin 1)) (ix2 B (0 : Fin 1)) (fun a => match a with
    | ⟨0, _⟩ => by show B.val = if (8192 : Nat) = 1 then 0 else B.val; rw [if_neg (by decide)]
    | ⟨1, _⟩ => by show 0 = if (1 : Nat) = 1 then 0 else (0 : Fin 1).val; rw [if_pos rfl]))

/-! ## The softmax chain of one batch row

Let s(0), …, s(64) be the scores of batch row B.  The chain's stages at that batch row are: the maximum
max z (fold of max from z over the s(n)); the exponentials exp(s(n) − maximum); their sum; each exponential divided
by the sum. -/

section Chain
variable (e : Arr Ideal S8192x1x65) (B : Fin 8192) (s : Fin 65 → EReal) (he : ∀ (o : Fin 1) (n : Fin 65), e (ix3 B o n) = s n)
include he

/-- The largest score of batch row B. -/
theorem RMax_row (o : Fin 1) :
    RMax (F := Ideal) e (ix2 B o) = max zw ((Finset.univ : Finset (Fin 65)).fold max zw s) := by
  unfold RMax
  rw [ValueIdx.maximumf_apply]
  have h1 : broadcastInDim S8192x1 ![] bcast_S_S8192x1 (constant (F := Ideal) S_ .f32 0xFF800000#32) (ix2 B o) = zw :=
    broadcastInDim_apply _ bcast_S_S8192x1 _ (ix2 B o) ix0 (fun a => a.elim0)
  have h2 : Host.reduce (FloatOps.maximumf (F := Ideal) (φ := .f32)) e (constant (F := Ideal) S_ .f32 0xFF800000#32) reducesTo_S8192x1x65_S8192x1_d2 h_S_ (ix2 B o)
      = (Finset.univ : Finset (Fin 65)).fold max zw fun n => e (ix3 B o n) :=
    hostReduceMax3_last e _ reducesTo_S8192x1x65_S8192x1_d2 (by decide) h_S_ B o
  rw [h1, h2, show (fun n => e (ix3 B o n)) = s from funext fun n => he o n]

/-- The exponential of score n of batch row B less the largest. -/
theorem RExp_row (o : Fin 1) (n : Fin 65) :
    RExp (F := Ideal) e (ix3 B o n) = Ideal.exp (s n - max zw ((Finset.univ : Finset (Fin 65)).fold max zw s)) := by
  unfold RExp
  show Ideal.exp (e (ix3 B o n) - _) = _
  rw [rowBcast_apply, RMax_row e B s he, he]

/-- The normalising sum of batch row B. -/
theorem RSum_row (o : Fin 1) :
    RSum (F := Ideal) (RExp (F := Ideal) e) (ix2 B o)
      = ∑ n : Fin 65, Ideal.exp (s n - max zw ((Finset.univ : Finset (Fin 65)).fold max zw s)) := by
  unfold RSum
  simp only [Host.reduceAdd, Ideal.hostReduceAdd_def]
  rw [Ideal.hostReduceAdd_single reducesTo_S8192x1x65_S8192x1_d2 (by decide)]
  have hz : constant (F := Ideal) S_ .f32 0x00000000#32 (Shape.Idx.first h_S_) = 0 := Ideal.ofBits_zero_f32
  rw [hz, zero_add]
  refine Finset.sum_congr rfl fun n _ => ?_
  rw [lift3_last, RExp_row e B s he]
  rfl

/-- Softmax weight n of batch row B. -/
theorem RSoft_row (o : Fin 1) (n : Fin 65) :
    RSoft (F := Ideal) e (ix3 B o n)
      = Ideal.div (Ideal.exp (s n - max zw ((Finset.univ : Finset (Fin 65)).fold max zw s)))
          (∑ n : Fin 65, Ideal.exp (s n - max zw ((Finset.univ : Finset (Fin 65)).fold max zw s))) := by
  unfold RSoft
  show Ideal.div (RExp (F := Ideal) e (ix3 B o n)) _ = _
  rw [rowBcast_apply, RSum_row e B s he, RExp_row e B s he]

end Chain

/-! ## The steps in the vocabulary of the row-by-row specification -/

/-- The dense layer at (B, n, k) is the dense layer on the one vector (B, n), whenever the operands read as the
    given vector, matrix and bias. -/
theorem RProj_row (q : Arr Ideal S8192x65x128) (W : Arr Ideal S128x128) (b : Arr Ideal S128) (B : Fin 8192)
    (rows : Fin 65 → Cert.Heads.Row) (Wm : Cert.Heads.Mat) (bm : Cert.Heads.Row)
    (hq : ∀ (n : Fin 65) (h : Fin 128), q (ix3 B n h) = rows n h) (hW : ∀ h k : Fin 128, W (ix2 h k) = Wm h k)
    (hb : ∀ k : Fin 128, b (ix1 k) = bm k) (n : Fin 65) (k : Fin 128) :
    RProj (F := Ideal) q W b (ix3 B n k) = Cert.Heads.proj Wm bm (rows n) k := by
  unfold RProj
  rw [ValueIdx.addf_apply, dotProj_apply, biasBcast65_apply, hb]
  unfold Cert.Heads.proj
  exact congrArg (· + bm k) (Finset.sum_congr rfl fun h _ => by rw [hq, hW])

/-- The score at (B, 0, n) is the score of vector (B, n) against the batch row's fixed vector. -/
theorem RScore_row (x1 : Arr Ideal S8192x1x128) (q : Arr Ideal S8192x65x128) (B : Fin 8192) (rows : Fin 65 → Cert.Heads.Row)
    (hq : ∀ (n : Fin 65) (h : Fin 128), q (ix3 B n h) = rows n h) (o : Fin 1) (n : Fin 65) :
    RScore (F := Ideal) x1 q (ix3 B o n) = Cert.Heads.score (Cert.Heads.vrow x1 B) (rows n) := by
  unfold RScore
  rw [dotScore_apply]
  unfold Cert.Heads.score Cert.Heads.vrow
  have ho : o = 0 := Subsingleton.elim _ _
  subst ho
  exact Finset.sum_congr rfl fun h _ => by rw [hq, mul_comm]

/-- A head's context at (B, 0, k) is the context of the batch row's 65 vectors. -/
theorem RCtx_row (x1 : Arr Ideal S8192x1x128) (q : Arr Ideal S8192x65x128) (B : Fin 8192) (rows : Fin 65 → Cert.Heads.Row)
    (hq : ∀ (n : Fin 65) (h : Fin 128), q (ix3 B n h) = rows n h) (o : Fin 1) (k : Fin 128) :
    RCtx (F := Ideal) x1 q (ix3 B o k) = Cert.Heads.attendJoined zw (Cert.Heads.vrow x1 B) rows k := by
  unfold RCtx
  rw [dotCtx_apply]
  unfold Cert.Heads.attendJoined Cert.Heads.sumJoined Cert.Heads.mxJoined
  refine Finset.sum_congr rfl fun n _ => ?_
  rw [RSoft_row (RScore (F := Ideal) x1 q) B (fun n => Cert.Heads.score (Cert.Heads.vrow x1 B) (rows n))
    (fun o n => RScore_row x1 q B rows hq o n), hq]

/-! ### Slices of the stacked weights and biases -/

/-- Slab i of the [8, 128, 128] array with its unit axis dropped reads, at (h, k), the array at (i, h, k). -/
theorem sliceW_apply (o : ℕ) (i : Fin 8) (ho : i.val = o) (x2 : Arr Ideal S8x128x128) (hs : S8x128x128.Slices ![o, 0, 0] S1x128x128)
    (h k : Fin 128) :
    shapeCast S128x128 (extractStridedSlice S1x128x128 ![o, 0, 0] x2 hs) shapeCasts_S1x128x128_S128x128 (ix2 h k) = x2 (ix3 i h k) :=
  (shapeCast_apply _ shapeCasts_S1x128x128_S128x128 (ix2 h k) (ix3 (0 : Fin 1) h k) (by
    rw [Shape.rowMajor_val_three, Shape.rowMajor_val_two]
    show (0 * 128 + h.val) * 128 + k.val = h.val * 128 + k.val
    omega)).trans
  (extractStridedSlice_apply ![o, 0, 0] x2 hs (ix3 (0 : Fin 1) h k) (ix3 i h k) (fun a => match a with
    | ⟨0, _⟩ => by show i.val = o + 0; omega
    | ⟨1, _⟩ => by show h.val = 0 + h.val; omega
    | ⟨2, _⟩ => by show k.val = 0 + k.val; omega))

/-- Row i of the [8, 128] array with its unit axis dropped reads, at k, the array at (i, k). -/
theorem sliceB_apply (o : ℕ) (i : Fin 8) (ho : i.val = o) (x3 : Arr Ideal S8x128) (hs : S8x128.Slices ![o, 0] S1x128) (k : Fin 128) :
    shapeCast S128 (extractStridedSlice S1x128 ![o, 0] x3 hs) shapeCasts_S1x128_S128 (ix1 k) = x3 (ix2 i k) :=
  (shapeCast_apply _ shapeCasts_S1x128_S128 (ix1 k) (ix2 (0 : Fin 1) k) (by
    rw [Shape.rowMajor_val_two, Shape.rowMajor_val_one]
    show 0 * 128 + k.val = k.val
    omega)).trans
  (extractStridedSlice_apply ![o, 0] x3 hs (ix2 (0 : Fin 1) k) (ix2 i k) (fun a => match a with
    | ⟨0, _⟩ => by show i.val = o + 0; omega
    | ⟨1, _⟩ => by show k.val = 0 + k.val; omega))

theorem SliceW0_apply (x2 : Arr Ideal S8x128x128) (h k : Fin 128) : SliceW0 (F := Ideal) x2 (ix2 h k) = Cert.Heads.Wn x2 0 h k := by
  unfold SliceW0 Cert.Heads.Wn
  rw [dif_pos (by decide : 0 < 8)]
  exact sliceW_apply 0 ⟨0, by decide⟩ rfl x2 _ h k
theorem SliceB0_apply (x3 : Arr Ideal S8x128) (k : Fin 128) : SliceB0 (F := Ideal) x3 (ix1 k) = Cert.Heads.bn x3 0 k := by
  unfold SliceB0 Cert.Heads.bn
  rw [dif_pos (by decide : 0 < 8)]
  exact sliceB_apply 0 ⟨0, by decide⟩ rfl x3 _ k

theorem SliceW1_apply (x2 : Arr Ideal S8x128x128) (h k : Fin 128) : SliceW1 (F := Ideal) x2 (ix2 h k) = Cert.Heads.Wn x2 1 h k := by
  unfold SliceW1 Cert.Heads.Wn
  rw [dif_pos (by decide : 1 < 8)]
  exact sliceW_apply 1 ⟨1, by decide⟩ rfl x2 _ h k
theorem SliceB1_apply (x3 : Arr Ideal S8x128) (k : Fin 128) : SliceB1 (F := Ideal) x3 (ix1 k) = Cert.Heads.bn x3 1 k := by
  unfold SliceB1 Cert.Heads.bn
  rw [dif_pos (by decide : 1 < 8)]
  exact sliceB_apply 1 ⟨1, by decide⟩ rfl x3 _ k

theorem SliceW2_apply (x2 : Arr Ideal S8x128x128) (h k : Fin 128) : SliceW2 (F := Ideal) x2 (ix2 h k) = Cert.Heads.Wn x2 2 h k := by
  unfold SliceW2 Cert.Heads.Wn
  rw [dif_pos (by decide : 2 < 8)]
  exact sliceW_apply 2 ⟨2, by decide⟩ rfl x2 _ h k
theorem SliceB2_apply (x3 : Arr Ideal S8x128) (k : Fin 128) : SliceB2 (F := Ideal) x3 (ix1 k) = Cert.Heads.bn x3 2 k := by
  unfold SliceB2 Cert.Heads.bn
  rw [dif_pos (by decide : 2 < 8)]
  exact sliceB_apply 2 ⟨2, by decide⟩ rfl x3 _ k

theorem SliceW3_apply (x2 : Arr Ideal S8x128x128) (h k : Fin 128) : SliceW3 (F := Ideal) x2 (ix2 h k) = Cert.Heads.Wn x2 3 h k := by
  unfold SliceW3 Cert.Heads.Wn
  rw [dif_pos (by decide : 3 < 8)]
  exact sliceW_apply 3 ⟨3, by decide⟩ rfl x2 _ h k
theorem SliceB3_apply (x3 : Arr Ideal S8x128) (k : Fin 128) : SliceB3 (F := Ideal) x3 (ix1 k) = Cert.Heads.bn x3 3 k := by
  unfold SliceB3 Cert.Heads.bn
  rw [dif_pos (by decide : 3 < 8)]
  exact sliceB_apply 3 ⟨3, by decide⟩ rfl x3 _ k

theorem SliceW4_apply (x2 : Arr Ideal S8x128x128) (h k : Fin 128) : SliceW4 (F := Ideal) x2 (ix2 h k) = Cert.Heads.Wn x2 4 h k := by
  unfold SliceW4 Cert.Heads.Wn
  rw [dif_pos (by decide : 4 < 8)]
  exact sliceW_apply 4 ⟨4, by decide⟩ rfl x2 _ h k
theorem SliceB4_apply (x3 : Arr Ideal S8x128) (k : Fin 128) : SliceB4 (F := Ideal) x3 (ix1 k) = Cert.Heads.bn x3 4 k := by
  unfold SliceB4 Cert.Heads.bn
  rw [dif_pos (by decide : 4 < 8)]
  exact sliceB_apply 4 ⟨4, by decide⟩ rfl x3 _ k

theorem SliceW5_apply (x2 : Arr Ideal S8x128x128) (h k : Fin 128) : SliceW5 (F := Ideal) x2 (ix2 h k) = Cert.Heads.Wn x2 5 h k := by
  unfold SliceW5 Cert.Heads.Wn
  rw [dif_pos (by decide : 5 < 8)]
  exact sliceW_apply 5 ⟨5, by decide⟩ rfl x2 _ h k
theorem SliceB5_apply (x3 : Arr Ideal S8x128) (k : Fin 128) : SliceB5 (F := Ideal) x3 (ix1 k) = Cert.Heads.bn x3 5 k := by
  unfold SliceB5 Cert.Heads.bn
  rw [dif_pos (by decide : 5 < 8)]
  exact sliceB_apply 5 ⟨5, by decide⟩ rfl x3 _ k

theorem SliceW6_apply (x2 : Arr Ideal S8x128x128) (h k : Fin 128) : SliceW6 (F := Ideal) x2 (ix2 h k) = Cert.Heads.Wn x2 6 h k := by
  unfold SliceW6 Cert.Heads.Wn
  rw [dif_pos (by decide : 6 < 8)]
  exact sliceW_apply 6 ⟨6, by decide⟩ rfl x2 _ h k
theorem SliceB6_apply (x3 : Arr Ideal S8x128) (k : Fin 128) : SliceB6 (F := Ideal) x3 (ix1 k) = Cert.Heads.bn x3 6 k := by
  unfold SliceB6 Cert.Heads.bn
  rw [dif_pos (by decide : 6 < 8)]
  exact sliceB_apply 6 ⟨6, by decide⟩ rfl x3 _ k

theorem SliceW7_apply (x2 : Arr Ideal S8x128x128) (h k : Fin 128) : SliceW7 (F := Ideal) x2 (ix2 h k) = Cert.Heads.Wn x2 7 h k := by
  unfold SliceW7 Cert.Heads.Wn
  rw [dif_pos (by decide : 7 < 8)]
  exact sliceW_apply 7 ⟨7, by decide⟩ rfl x2 _ h k
theorem SliceB7_apply (x3 : Arr Ideal S8x128) (k : Fin 128) : SliceB7 (F := Ideal) x3 (ix1 k) = Cert.Heads.bn x3 7 k := by
  unfold SliceB7 Cert.Heads.bn
  rw [dif_pos (by decide : 7 < 8)]
  exact sliceB_apply 7 ⟨7, by decide⟩ rfl x3 _ k

/-! ### The two concatenations -/

/-- The joined array at (B, n, h): a neighbour row for n < 64, the extra row at n = 64. -/
theorem RJoin_apply (x0 : Arr Ideal S8192x64x128) (x1 : Arr Ideal S8192x1x128) (B : Fin 8192) (n : Fin 65) (h : Fin 128) :
    RJoin (F := Ideal) x0 x1 (ix3 B n h) = Cert.Heads.join (Cert.Heads.qq0 x0 B) (Cert.Heads.vrow x1 B) n h := by
  unfold RJoin Cert.Heads.join
  by_cases hn : n.val < 64
  · rw [dif_pos hn]
    exact concatenate_pair_apply_left 1 x0 x1 concatenates_S8192x64x128_S8192x1x128_S8192x65x128_d1 (ix3 B n h) rfl
      (ix3 B (⟨n.val, hn⟩ : Fin 64) h) (fun b => match b with
        | ⟨0, _⟩ => rfl
        | ⟨1, _⟩ => rfl
        | ⟨2, _⟩ => rfl)
  · rw [dif_neg hn]
    exact concatenate_pair_apply_right 1 x0 x1 concatenates_S8192x64x128_S8192x1x128_S8192x65x128_d1 (ix3 B n h) rfl rfl
      (ix3 B (0 : Fin 1) h) (fun b hb => match b with
        | ⟨0, _⟩ => rfl
        | ⟨1, _⟩ => absurd rfl hb
        | ⟨2, _⟩ => rfl)
      (by show 0 + 64 = n.val; have := n.isLt; omega)

/-- The eight contexts side by side at (B, 0, c): context c / 128 at coordinate c % 128. -/
theorem ctxJoin_apply (c0 c1 c2 c3 c4 c5 c6 c7 : Arr Ideal S8192x1x128) (B : Fin 8192) (ctx : ℕ → Cert.Heads.Row)
    (h0 : ∀ (o : Fin 1) (k : Fin 128), c0 (ix3 B o k) = ctx 0 k)
    (h1 : ∀ (o : Fin 1) (k : Fin 128), c1 (ix3 B o k) = ctx 1 k)
    (h2 : ∀ (o : Fin 1) (k : Fin 128), c2 (ix3 B o k) = ctx 2 k)
    (h3 : ∀ (o : Fin 1) (k : Fin 128), c3 (ix3 B o k) = ctx 3 k)
    (h4 : ∀ (o : Fin 1) (k : Fin 128), c4 (ix3 B o k) = ctx 4 k)
    (h5 : ∀ (o : Fin 1) (k : Fin 128), c5 (ix3 B o k) = ctx 5 k)
    (h6 : ∀ (o : Fin 1) (k : Fin 128), c6 (ix3 B o k) = ctx 6 k)
    (h7 : ∀ (o : Fin 1) (k : Fin 128), c7 (ix3 B o k) = ctx 7 k)
    (o : Fin 1) (c : Fin 1024) :
    concatenate S8192x1x1024 2 [⟨S8192x1x128, c0⟩, ⟨S8192x1x128, c1⟩, ⟨S8192x1x128, c2⟩, ⟨S8192x1x128, c3⟩, ⟨S8192x1x128, c4⟩, ⟨S8192x1x128, c5⟩, ⟨S8192x1x128, c6⟩, ⟨S8192x1x128, c7⟩] concatenates_S8192x1x128_S8192x1x128_S8192x1x128_S8192x1x128_S8192x1x128_S8192x1x128_S8192x1x128_S8192x1x128_S8192x1x1024_d2 (ix3 B o c)
      = ctx (c.val / 128) ⟨c.val % 128, Nat.mod_lt _ (by norm_num)⟩ := by
  have hc := c.isLt
  have hcases : c.val / 128 = 0 ∨ c.val / 128 = 1 ∨ c.val / 128 = 2 ∨ c.val / 128 = 3 ∨ c.val / 128 = 4 ∨ c.val / 128 = 5 ∨ c.val / 128 = 6 ∨ c.val / 128 = 7 := by omega
  rcases hcases with hq | hq | hq | hq | hq | hq | hq | hq
  · rw [hq]
    exact (concatenate_apply_piece (t := S8192x1x1024) 2 [⟨S8192x1x128, c0⟩, ⟨S8192x1x128, c1⟩, ⟨S8192x1x128, c2⟩, ⟨S8192x1x128, c3⟩, ⟨S8192x1x128, c4⟩, ⟨S8192x1x128, c5⟩, ⟨S8192x1x128, c6⟩, ⟨S8192x1x128, c7⟩] concatenates_S8192x1x128_S8192x1x128_S8192x1x128_S8192x1x128_S8192x1x128_S8192x1x128_S8192x1x128_S8192x1x128_S8192x1x1024_d2 (ix3 B o c) 0 (by show 0 < 8; omega) S8192x1x128 c0 rfl rfl (128 * 0) (by rfl)
      (ix3 B o (⟨c.val % 128, Nat.mod_lt _ (by norm_num)⟩ : Fin 128)) (fun b hb => match b with
        | ⟨0, _⟩ => rfl
        | ⟨1, _⟩ => rfl
        | ⟨2, _⟩ => absurd rfl hb)
      (by show 128 * 0 + c.val % 128 = c.val; omega)).trans (h0 o _)
  · rw [hq]
    exact (concatenate_apply_piece (t := S8192x1x1024) 2 [⟨S8192x1x128, c0⟩, ⟨S8192x1x128, c1⟩, ⟨S8192x1x128, c2⟩, ⟨S8192x1x128, c3⟩, ⟨S8192x1x128, c4⟩, ⟨S8192x1x128, c5⟩, ⟨S8192x1x128, c6⟩, ⟨S8192x1x128, c7⟩] concatenates_S8192x1x128_S8192x1x128_S8192x1x128_S8192x1x128_S8192x1x128_S8192x1x128_S8192x1x128_S8192x1x128_S8192x1x1024_d2 (ix3 B o c) 1 (by show 1 < 8; omega) S8192x1x128 c1 rfl rfl (128 * 1) (by rfl)
      (ix3 B o (⟨c.val % 128, Nat.mod_lt _ (by norm_num)⟩ : Fin 128)) (fun b hb => match b with
        | ⟨0, _⟩ => rfl
        | ⟨1, _⟩ => rfl
        | ⟨2, _⟩ => absurd rfl hb)
      (by show 128 * 1 + c.val % 128 = c.val; omega)).trans (h1 o _)
  · rw [hq]
    exact (concatenate_apply_piece (t := S8192x1x1024) 2 [⟨S8192x1x128, c0⟩, ⟨S8192x1x128, c1⟩, ⟨S8192x1x128, c2⟩, ⟨S8192x1x128, c3⟩, ⟨S8192x1x128, c4⟩, ⟨S8192x1x128, c5⟩, ⟨S8192x1x128, c6⟩, ⟨S8192x1x128, c7⟩] concatenates_S8192x1x128_S8192x1x128_S8192x1x128_S8192x1x128_S8192x1x128_S8192x1x128_S8192x1x128_S8192x1x128_S8192x1x1024_d2 (ix3 B o c) 2 (by show 2 < 8; omega) S8192x1x128 c2 rfl rfl (128 * 2) (by rfl)
      (ix3 B o (⟨c.val % 128, Nat.mod_lt _ (by norm_num)⟩ : Fin 128)) (fun b hb => match b with
        | ⟨0, _⟩ => rfl
        | ⟨1, _⟩ => rfl
        | ⟨2, _⟩ => absurd rfl hb)
      (by show 128 * 2 + c.val % 128 = c.val; omega)).trans (h2 o _)
  · rw [hq]
    exact (concatenate_apply_piece (t := S8192x1x1024) 2 [⟨S8192x1x128, c0⟩, ⟨S8192x1x128, c1⟩, ⟨S8192x1x128, c2⟩, ⟨S8192x1x128, c3⟩, ⟨S8192x1x128, c4⟩, ⟨S8192x1x128, c5⟩, ⟨S8192x1x128, c6⟩, ⟨S8192x1x128, c7⟩] concatenates_S8192x1x128_S8192x1x128_S8192x1x128_S8192x1x128_S8192x1x128_S8192x1x128_S8192x1x128_S8192x1x128_S8192x1x1024_d2 (ix3 B o c) 3 (by show 3 < 8; omega) S8192x1x128 c3 rfl rfl (128 * 3) (by rfl)
      (ix3 B o (⟨c.val % 128, Nat.mod_lt _ (by norm_num)⟩ : Fin 128)) (fun b hb => match b with
        | ⟨0, _⟩ => rfl
        | ⟨1, _⟩ => rfl
        | ⟨2, _⟩ => absurd rfl hb)
      (by show 128 * 3 + c.val % 128 = c.val; omega)).trans (h3 o _)
  · rw [hq]
    exact (concatenate_apply_piece (t := S8192x1x1024) 2 [⟨S8192x1x128, c0⟩, ⟨S8192x1x128, c1⟩, ⟨S8192x1x128, c2⟩, ⟨S8192x1x128, c3⟩, ⟨S8192x1x128, c4⟩, ⟨S8192x1x128, c5⟩, ⟨S8192x1x128, c6⟩, ⟨S8192x1x128, c7⟩] concatenates_S8192x1x128_S8192x1x128_S8192x1x128_S8192x1x128_S8192x1x128_S8192x1x128_S8192x1x128_S8192x1x128_S8192x1x1024_d2 (ix3 B o c) 4 (by show 4 < 8; omega) S8192x1x128 c4 rfl rfl (128 * 4) (by rfl)
      (ix3 B o (⟨c.val % 128, Nat.mod_lt _ (by norm_num)⟩ : Fin 128)) (fun b hb => match b with
        | ⟨0, _⟩ => rfl
        | ⟨1, _⟩ => rfl
        | ⟨2, _⟩ => absurd rfl hb)
      (by show 128 * 4 + c.val % 128 = c.val; omega)).trans (h4 o _)
  · rw [hq]
    exact (concatenate_apply_piece (t := S8192x1x1024) 2 [⟨S8192x1x128, c0⟩, ⟨S8192x1x128, c1⟩, ⟨S8192x1x128, c2⟩, ⟨S8192x1x128, c3⟩, ⟨S8192x1x128, c4⟩, ⟨S8192x1x128, c5⟩, ⟨S8192x1x128, c6⟩, ⟨S8192x1x128, c7⟩] concatenates_S8192x1x128_S8192x1x128_S8192x1x128_S8192x1x128_S8192x1x128_S8192x1x128_S8192x1x128_S8192x1x128_S8192x1x1024_d2 (ix3 B o c) 5 (by show 5 < 8; omega) S8192x1x128 c5 rfl rfl (128 * 5) (by rfl)
      (ix3 B o (⟨c.val % 128, Nat.mod_lt _ (by norm_num)⟩ : Fin 128)) (fun b hb => match b with
        | ⟨0, _⟩ => rfl
        | ⟨1, _⟩ => rfl
        | ⟨2, _⟩ => absurd rfl hb)
      (by show 128 * 5 + c.val % 128 = c.val; omega)).trans (h5 o _)
  · rw [hq]
    exact (concatenate_apply_piece (t := S8192x1x1024) 2 [⟨S8192x1x128, c0⟩, ⟨S8192x1x128, c1⟩, ⟨S8192x1x128, c2⟩, ⟨S8192x1x128, c3⟩, ⟨S8192x1x128, c4⟩, ⟨S8192x1x128, c5⟩, ⟨S8192x1x128, c6⟩, ⟨S8192x1x128, c7⟩] concatenates_S8192x1x128_S8192x1x128_S8192x1x128_S8192x1x128_S8192x1x128_S8192x1x128_S8192x1x128_S8192x1x128_S8192x1x1024_d2 (ix3 B o c) 6 (by show 6 < 8; omega) S8192x1x128 c6 rfl rfl (128 * 6) (by rfl)
      (ix3 B o (⟨c.val % 128, Nat.mod_lt _ (by norm_num)⟩ : Fin 128)) (fun b hb => match b with
        | ⟨0, _⟩ => rfl
        | ⟨1, _⟩ => rfl
        | ⟨2, _⟩ => absurd rfl hb)
      (by show 128 * 6 + c.val % 128 = c.val; omega)).trans (h6 o _)
  · rw [hq]
    exact (concatenate_apply_piece (t := S8192x1x1024) 2 [⟨S8192x1x128, c0⟩, ⟨S8192x1x128, c1⟩, ⟨S8192x1x128, c2⟩, ⟨S8192x1x128, c3⟩, ⟨S8192x1x128, c4⟩, ⟨S8192x1x128, c5⟩, ⟨S8192x1x128, c6⟩, ⟨S8192x1x128, c7⟩] concatenates_S8192x1x128_S8192x1x128_S8192x1x128_S8192x1x128_S8192x1x128_S8192x1x128_S8192x1x128_S8192x1x128_S8192x1x1024_d2 (ix3 B o c) 7 (by show 7 < 8; omega) S8192x1x128 c7 rfl rfl (128 * 7) (by rfl)
      (ix3 B o (⟨c.val % 128, Nat.mod_lt _ (by norm_num)⟩ : Fin 128)) (fun b hb => match b with
        | ⟨0, _⟩ => rfl
        | ⟨1, _⟩ => rfl
        | ⟨2, _⟩ => absurd rfl hb)
      (by show 128 * 7 + c.val % 128 = c.val; omega)).trans (h7 o _)

/-- The output layer at (B, 0, k): the output row of the eight contexts of batch row B. -/
theorem RTail_row (c0 c1 c2 c3 c4 c5 c6 c7 : Arr Ideal S8192x1x128) (x4 : Arr Ideal S1024x128) (x5 : Arr Ideal S128) (B : Fin 8192) (ctx : ℕ → Cert.Heads.Row)
    (h0 : ∀ (o : Fin 1) (k : Fin 128), c0 (ix3 B o k) = ctx 0 k)
    (h1 : ∀ (o : Fin 1) (k : Fin 128), c1 (ix3 B o k) = ctx 1 k)
    (h2 : ∀ (o : Fin 1) (k : Fin 128), c2 (ix3 B o k) = ctx 2 k)
    (h3 : ∀ (o : Fin 1) (k : Fin 128), c3 (ix3 B o k) = ctx 3 k)
    (h4 : ∀ (o : Fin 1) (k : Fin 128), c4 (ix3 B o k) = ctx 4 k)
    (h5 : ∀ (o : Fin 1) (k : Fin 128), c5 (ix3 B o k) = ctx 5 k)
    (h6 : ∀ (o : Fin 1) (k : Fin 128), c6 (ix3 B o k) = ctx 6 k)
    (h7 : ∀ (o : Fin 1) (k : Fin 128), c7 (ix3 B o k) = ctx 7 k)
    (o : Fin 1) (k : Fin 128) :
    RTail (F := Ideal) c0 c1 c2 c3 c4 c5 c6 c7 x4 x5 (ix3 B o k) = Cert.Heads.outRow ctx (Cert.Heads.Wo x4) (Cert.Heads.bo x5) k := by
  unfold RTail
  rw [ValueIdx.maximumf_apply, ValueIdx.addf_apply, dotOut_apply, biasBcast1_apply]
  have hz : broadcastInDim S8192x1x128 ![] bcast_S_S8192x1x128 (constant (F := Ideal) S_ .f32 0x00000000#32) (ix3 B o k) = 0 :=
    (broadcastInDim_apply _ bcast_S_S8192x1x128 _ (ix3 B o k) ix0 (fun a => a.elim0)).trans Ideal.ofBits_zero_f32
  rw [hz]
  unfold Cert.Heads.outRow Cert.Heads.Wo Cert.Heads.bo
  refine congrArg (fun t => max (t + x5 (ix1 k)) 0) (Finset.sum_congr rfl fun c _ => ?_)
  rw [ctxJoin_apply c0 c1 c2 c3 c4 c5 c6 c7 B ctx h0 h1 h2 h3 h4 h5 h6 h7 o c]

/-! ## The whole program is the specification

The array after the dense layers of heads 0 … i holds, at batch row B, the specification's 65 rows after i+1 layers;
hence every head's context, and the output row. -/

section Whole
variable (x0 : Arr Ideal S8192x64x128) (x1 : Arr Ideal S8192x1x128) (x2 : Arr Ideal S8x128x128) (x3 : Arr Ideal S8x128) (B : Fin 8192)

/-- The specification's 65 rows of batch row B after i dense layers. -/
abbrev rowsOf (i : ℕ) : Fin 65 → Cert.Heads.Row :=
  Cert.Heads.rowsAt (Cert.Heads.Wn x2) (Cert.Heads.bn x3) (Cert.Heads.join (Cert.Heads.qq0 x0 B) (Cert.Heads.vrow x1 B)) i

theorem Q0_rows (n : Fin 65) (k : Fin 128) : Q0 (F := Ideal) x0 x1 x2 x3 (ix3 B n k) = rowsOf x0 x1 x2 x3 B 1 n k := by
  unfold Q0
  exact RProj_row _ _ _ B (rowsOf x0 x1 x2 x3 B 0) (Cert.Heads.Wn x2 0) (Cert.Heads.bn x3 0)
    (fun n h => RJoin_apply x0 x1 B n h) (SliceW0_apply x2) (SliceB0_apply x3) n k
theorem Q1_rows (n : Fin 65) (k : Fin 128) : Q1 (F := Ideal) x0 x1 x2 x3 (ix3 B n k) = rowsOf x0 x1 x2 x3 B 2 n k := by
  unfold Q1
  exact RProj_row _ _ _ B (rowsOf x0 x1 x2 x3 B 1) (Cert.Heads.Wn x2 1) (Cert.Heads.bn x3 1)
    (Q0_rows x0 x1 x2 x3 B) (SliceW1_apply x2) (SliceB1_apply x3) n k
theorem Q2_rows (n : Fin 65) (k : Fin 128) : Q2 (F := Ideal) x0 x1 x2 x3 (ix3 B n k) = rowsOf x0 x1 x2 x3 B 3 n k := by
  unfold Q2
  exact RProj_row _ _ _ B (rowsOf x0 x1 x2 x3 B 2) (Cert.Heads.Wn x2 2) (Cert.Heads.bn x3 2)
    (Q1_rows x0 x1 x2 x3 B) (SliceW2_apply x2) (SliceB2_apply x3) n k
theorem Q3_rows (n : Fin 65) (k : Fin 128) : Q3 (F := Ideal) x0 x1 x2 x3 (ix3 B n k) = rowsOf x0 x1 x2 x3 B 4 n k := by
  unfold Q3
  exact RProj_row _ _ _ B (rowsOf x0 x1 x2 x3 B 3) (Cert.Heads.Wn x2 3) (Cert.Heads.bn x3 3)
    (Q2_rows x0 x1 x2 x3 B) (SliceW3_apply x2) (SliceB3_apply x3) n k
theorem Q4_rows (n : Fin 65) (k : Fin 128) : Q4 (F := Ideal) x0 x1 x2 x3 (ix3 B n k) = rowsOf x0 x1 x2 x3 B 5 n k := by
  unfold Q4
  exact RProj_row _ _ _ B (rowsOf x0 x1 x2 x3 B 4) (Cert.Heads.Wn x2 4) (Cert.Heads.bn x3 4)
    (Q3_rows x0 x1 x2 x3 B) (SliceW4_apply x2) (SliceB4_apply x3) n k
theorem Q5_rows (n : Fin 65) (k : Fin 128) : Q5 (F := Ideal) x0 x1 x2 x3 (ix3 B n k) = rowsOf x0 x1 x2 x3 B 6 n k := by
  unfold Q5
  exact RProj_row _ _ _ B (rowsOf x0 x1 x2 x3 B 5) (Cert.Heads.Wn x2 5) (Cert.Heads.bn x3 5)
    (Q4_rows x0 x1 x2 x3 B) (SliceW5_apply x2) (SliceB5_apply x3) n k
theorem Q6_rows (n : Fin 65) (k : Fin 128) : Q6 (F := Ideal) x0 x1 x2 x3 (ix3 B n k) = rowsOf x0 x1 x2 x3 B 7 n k := by
  unfold Q6
  exact RProj_row _ _ _ B (rowsOf x0 x1 x2 x3 B 6) (Cert.Heads.Wn x2 6) (Cert.Heads.bn x3 6)
    (Q5_rows x0 x1 x2 x3 B) (SliceW6_apply x2) (SliceB6_apply x3) n k
theorem Q7_rows (n : Fin 65) (k : Fin 128) : Q7 (F := Ideal) x0 x1 x2 x3 (ix3 B n k) = rowsOf x0 x1 x2 x3 B 8 n k := by
  unfold Q7
  exact RProj_row _ _ _ B (rowsOf x0 x1 x2 x3 B 7) (Cert.Heads.Wn x2 7) (Cert.Heads.bn x3 7)
    (Q6_rows x0 x1 x2 x3 B) (SliceW7_apply x2) (SliceB7_apply x3) n k

end Whole

/-- The reference's result, as an array, is the specification's. -/
theorem RefOut_eq (x0 : Arr Ideal S8192x64x128) (x1 : Arr Ideal S8192x1x128) (x2 : Arr Ideal S8x128x128) (x3 : Arr Ideal S8x128)
    (x4 : Arr Ideal S1024x128) (x5 : Arr Ideal S128) :
    RefOut (F := Ideal) x0 x1 x2 x3 x4 x5 = Cert.Heads.outJoined zw x0 x1 x2 x3 x4 x5 := by
  funext j
  obtain ⟨B, o, k, rfl⟩ : ∃ (B : Fin 8192) (o : Fin 1) (k : Fin 128), j = ix3 B o k := ⟨j 0, j 1, j 2, eq_ix3 j⟩
  show RefOut (F := Ideal) x0 x1 x2 x3 x4 x5 (ix3 B o k) = Cert.Heads.outJoinedAt zw x0 x1 x2 x3 x4 x5 B k
  unfold RefOut Cert.Heads.outJoinedAt
  exact RTail_row _ _ _ _ _ _ _ _ x4 x5 B
    (fun i => Cert.Heads.attendJoined zw (Cert.Heads.vrow x1 B) (rowsOf x0 x1 x2 x3 B (i + 1)))
    (fun o k => RCtx_row x1 _ B _ (Q0_rows x0 x1 x2 x3 B) o k)
    (fun o k => RCtx_row x1 _ B _ (Q1_rows x0 x1 x2 x3 B) o k)
    (fun o k => RCtx_row x1 _ B _ (Q2_rows x0 x1 x2 x3 B) o k)
    (fun o k => RCtx_row x1 _ B _ (Q3_rows x0 x1 x2 x3 B) o k)
    (fun o k => RCtx_row x1 _ B _ (Q4_rows x0 x1 x2 x3 B) o k)
    (fun o k => RCtx_row x1 _ B _ (Q5_rows x0 x1 x2 x3 B) o k)
    (fun o k => RCtx_row x1 _ B _ (Q6_rows x0 x1 x2 x3 B) o k)
    (fun o k => RCtx_row x1 _ B _ (Q7_rows x0 x1 x2 x3 B) o k)
    o k

end Cert.ReferenceIdeal.RefForms

end
-- ==== Proof.RefValue.lean ====
/-
  The reference program's result is the specification.

  Run from any memory, the printed reference ends with its result buffer holding one composed term of the six
  argument arrays.  That term is, operation for operation, the whole-array function RefOut of the arguments: the two
  are the same tree of array operations, so they are compared by unfolding names only.  And RefOut, read index by
  index at the ideal instance, is the row-by-row specification on all 65 rows at once: every head's dense layer on
  each of the 65 vectors, the scores against the batch row's fixed vector, their softmax, the weighted sum, and the
  output layer with the rectifier on the eight contexts side by side.
-/
import proofs.«167954_j46170898432679_2_alg».proof.Proof.RefForms
import proofs.«167954_j46170898432679_2_alg».proof.Proof.ReferenceOpsPatched

noncomputable section

namespace Cert.ReferenceIdeal.RefForms

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

set_option maxRecDepth 131072 in
set_option maxHeartbeats 4000000 in
/-- The composed term the run ends with is the whole-array function of the six arguments: the two are the same tree
    of array operations, name for name. -/
theorem res_eq_RefOut (m : (ℓ : Loc nD τ sig) → Buf (Elt F) ℓ) (c : Dev nD) :
    Cert.ReferenceIdeal.ValueP.res_main_v174 (F := F) m c
      = RefOut (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v174; rfl

/-- At the ideal instance the reference's result is the specification's array on all 65 rows at once, the maxima
    started from the word the program starts them from. -/
theorem ref_result (m : (ℓ : Loc nD τ sig) → Buf (Elt Ideal) ℓ) (c : Dev nD) :
    Cert.ReferenceIdeal.ValueP.res_main_v174 (F := Ideal) m c
      = Cert.Heads.outJoined (Ideal.ofBits .f32 0xFF800000#32)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (res_eq_RefOut m c).trans (RefOut_eq _ _ _ _ _ _)

end Cert.ReferenceIdeal.RefForms

end
-- ==== Proof.lean ====
/-
  The certificate's five claims for a graph-attention forward pass: eight attention heads in sequence over 65 hidden vectors per
  batch row (64 neighbour rows and one extra row, which is also the fixed vector the scores are taken against), each head a dense
  layer on every vector followed by a softmax-weighted sum; then an output layer and a rectifier on the eight contexts side by side.

  The kernel works on blocks of 128 batch rows, keeps the neighbour rows and the extra row in separate arrays, takes each softmax as
  "the 64 neighbour scores, then the extra one" and multiplies by the reciprocal of the normalising sum; the reference joins the 65
  rows into one array and divides by the sum. On the extended reals the two agree exactly when the normalising sum is not zero, which
  holds when the inputs are finite (the largest score then contributes exp 0 = 1): the precondition is used, and only there.

  The pieces: `HeadStep` states both arrangements, `HeadsAgree` proves them equal for finite inputs; `PayForms` and `KernelChain`
  read the kernel body's result block at an index, `Blocks` lays the 64 blocks side by side into the result array; `RefForms` and
  `RefValue` read the reference's composed term at an index; `FiniteInputs` opens the precondition. The three frames are the
  generated frame runs (the reference's: its run with the result dropped); no rewrite separates the kernel from its idealization.
-/
import proofs.«167954_j46170898432679_2_alg».proof.Defs
import proofs.«167954_j46170898432679_2_alg».proof.Proof.Gen.Kernel
import proofs.«167954_j46170898432679_2_alg».proof.Proof.Gen.Kernel.Frame
import proofs.«167954_j46170898432679_2_alg».proof.Proof.Gen.KernelIdeal
import proofs.«167954_j46170898432679_2_alg».proof.Proof.Gen.KernelIdeal.Frame
import proofs.«167954_j46170898432679_2_alg».proof.Proof.Gen.KernelIdeal.Value
import proofs.«167954_j46170898432679_2_alg».proof.Proof.Gen.ReferenceIdeal
import proofs.«167954_j46170898432679_2_alg».proof.Proof.Gen.Pre_finite_inputs
import proofs.«167954_j46170898432679_2_alg».proof.Proof.HeadsAgree
import proofs.«167954_j46170898432679_2_alg».proof.Proof.KernelChain
import proofs.«167954_j46170898432679_2_alg».proof.Proof.Blocks
import proofs.«167954_j46170898432679_2_alg».proof.Proof.FiniteInputs
import proofs.«167954_j46170898432679_2_alg».proof.Proof.RefValue
import proofs.«167954_j46170898432679_2_alg».proof.Proof.ReferenceRunPatched
import Idealize.ShloMosaic.Adequacy
import Idealize.ShloMosaic.Init

noncomputable section

namespace Cert.Proof

open Idealize.ShloMosaic Idealize.ShloMosaic.TcCoe Idealize.SL.Sem

/-- The value every running maximum starts from is minus infinity. -/
theorem start_bot : Ideal.ofBits .f32 0xFF800000#32 = (⊥ : EReal) := by simp [Ideal.ofBits, Ideal.ieee]

theorem frame_k [Cert.Kernel.Facts] [Cert.Pre_finite_inputs.Facts] : Cert.frame_Kernel := fun m ρ _ => Cert.Kernel.Gen.frame m ρ

theorem frame_ki [Cert.KernelIdeal.Facts] [Cert.Pre_finite_inputs.Facts] : Cert.frame_KernelIdeal := fun m ρ _ => Cert.KernelIdeal.Gen.frame m ρ

/-- The reference's frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

/-- At the extended reals both programs end with the result array at one function of the argument arrays: the kernel at the
    specification with the rows kept apart (block by block, then the blocks side by side), the reference at the specification
    on the joined rows; the two are equal because the inputs are finite. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Heads.outSplit (Ideal.ofBits .f32 0xFF800000#32)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact Cert.KernelIdeal.Blocks.run_value m ρ fun c t r k =>
      Cert.KernelIdeal.Chain.block_value c _ _ _ _ _ _ _ _ _ _ _ _ _ _ _ _ _ _ _ _ _ _ _ _ _ _ _ r k
  · refine (θ_run Cert.ReferenceIdeal.defs _ _).mono (fun _ h c => ⟨?_, (h c).2⟩)
      (Cert.ReferenceIdeal.ValueP.run (F := Ideal) m' ρ')
    obtain ⟨r0, r1, r2, r3⟩ := Cert.Proof.FiniteInputs.inputs_real m hpre c
    rw [(h c).1, Cert.ReferenceIdeal.RefForms.ref_result, (hagree c).1, (hagree c).2.1, (hagree c).2.2.1, (hagree c).2.2.2.1,
      (hagree c).2.2.2.2.1, (hagree c).2.2.2.2.2]
    exact Cert.Heads.outJoined_eq_outSplit _ start_bot _ _ _ _ _ _ r0 r1 r2 r3

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
